-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x300 : Shape := ⟨2, ![16, 300]⟩
abbrev S300 : Shape := ⟨1, ![300]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x300 : S_.BroadcastsInDim S16x300 (![] : Fin 0 → Fin S16x300.rank)
  reducesTo_S16x300_S_d0_1 : S16x300.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg7 : FVec F S16 .f32) (main_arg8 : FVec F S16x300 .f32) (main_arg9 : FVec F S300 .f32) (main_v33 : IVec S_ 1) : IVec S_ 1 :=
  let main_v34 : FVec F S16x300 .f32 := Host.absf main_arg8
  let main_cst_12 : FVec F S_ .f32 := constant S_ .f32 0x7F800000#32
  let main_v35 : FVec F S16x300 .f32 := broadcastInDim S16x300 ![] bcast_S_S16x300 main_cst_12
  let main_v36 : IVec S16x300 1 := cmpf .olt main_v34 main_v35
  let main_c_13 : IVec S_ 1 := constantI S_ 1 1#1
  let main_v37 : IVec S_ 1 := (fun x v => Host.reduce IntOp.andi x v reducesTo_S16x300_S_d0_1 h_S_) main_v36 main_c_13
  let main_v38 : IVec S_ 1 := andi main_v33 main_v37
  let main_v39 : FVec F S300 .f32 := Host.absf main_arg9
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_cst_16 : FVec F S_ .f32 := constant S_ .f32 0x00000000#32
  let main_v44 : FVec F S16 .f32 := broadcastInDim S16 ![] bcast_S_S16 main_cst_16
  let main_v45 : IVec S16 1 := cmpf .oge main_arg7 main_v44
  let main_c_17 : IVec S_ 1 := constantI S_ 1 1#1
  let main_v46 : IVec S_ 1 := (fun x v => Host.reduce IntOp.andi x v reducesTo_S16_S_d0 h_S_) main_v45 main_c_17
  let main_v47 : IVec S_ 1 := andi main_v43 main_v46
  main_v47

def fn_part1 {F : FTy → Type} [FloatOps F] (main_arg5 : FVec F S16 .f32) (main_arg6 : FVec F S16 .f32) (main_arg7 : FVec F S16 .f32) (main_arg8 : FVec F S16x300 .f32) (main_arg9 : FVec F S300 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : IVec S2x1600000 32) (main_arg2 : FVec F S128x16 .f32) (main_arg3 : FVec F S16 .f32) (main_arg4 : FVec F S16 .f32) (main_arg5 : FVec F S16 .f32) (main_arg6 : FVec F S16 .f32) (main_arg7 : FVec F S16 .f32) (main_arg8 : FVec F S16x300 .f32) (main_arg9 : FVec F S300 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x300 : Shape := ⟨2, ![16, 300]⟩
abbrev S300 : Shape := ⟨1, ![300]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S1x16 : Shape := ⟨2, ![1, 16]⟩
abbrev S5000x1 : Shape := ⟨2, ![5000, 1]⟩
abbrev S1x300 : Shape := ⟨2, ![1, 300]⟩
abbrev S100000x300 : Shape := ⟨2, ![100000, 300]⟩
abbrev S2000x16 : Shape := ⟨2, ![2000, 16]⟩
abbrev S2000x1 : Shape := ⟨2, ![2000, 1]⟩
abbrev S2000x300 : Shape := ⟨2, ![2000, 300]⟩
abbrev S2000 : Shape := ⟨1, ![2000]⟩

abbrev nBuf : Space → Nat
  | .hbm => 88
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16x300, .f32⟩
  | .hbm, ⟨9, _⟩ => ⟨S300, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x1, .f32⟩
  | .hbm, ⟨47, _⟩ => ⟨S100000x16, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x16, .f32⟩
  | .hbm, ⟨57, _⟩ => ⟨S1600000x1, .f32⟩
  | .hbm, ⟨58, _⟩ => ⟨S1600000x16, .f32⟩
  | .hbm, ⟨59, _⟩ => ⟨S1600000x16, .f32⟩
  | .hbm, ⟨60, _⟩ => ⟨S_, .f32⟩
  | .hbm, ⟨61, _⟩ => ⟨S100000x16, .f32⟩
  | .hbm, ⟨62, _⟩ => ⟨S1600000x1, .i32⟩
  | .hbm, ⟨63, _⟩ => ⟨S100000x16, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S1x16, .f32⟩
  | .hbm, ⟨68, _⟩ => ⟨S1x16, .f32⟩
  | .hbm, ⟨69, _⟩ => ⟨S100000x16, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x16, .f32⟩
  | .hbm, ⟨79, _⟩ => ⟨S1600000x1, .f32⟩
  | .hbm, ⟨80, _⟩ => ⟨S1600000x16, .f32⟩
  | .hbm, ⟨81, _⟩ => ⟨S1600000x16, .f32⟩
  | .hbm, ⟨82, _⟩ => ⟨S_, .f32⟩
  | .hbm, ⟨83, _⟩ => ⟨S100000x16, .f32⟩
  | .hbm, ⟨84, _⟩ => ⟨S1600000x1, .i32⟩
  | .hbm, ⟨85, _⟩ => ⟨S100000x16, .f32⟩
  | .hbm, ⟨86, _⟩ => ⟨S1x300, .f32⟩
  | .hbm, ⟨87, _⟩ => ⟨S100000x300, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x1, .f32⟩
  | .local _ .vmem, ⟨23, _⟩ => ⟨S2000x1, .f32⟩
  | .local _ .vmem, ⟨24, _⟩ => ⟨S16x300, .f32⟩
  | .local _ .vmem, ⟨25, _⟩ => ⟨S1x300, .f32⟩
  | .local _ .vmem, ⟨26, _⟩ => ⟨S2000x300, .f32⟩
  | .local _ .vmem, ⟨27, _⟩ => ⟨S2000x300, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x300 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S5000x1_S5000x16 : S5000x1.Broadcasts S5000x16
  broadcasts_S1x16_S5000x16 : S1x16.Broadcasts S5000x16
  shapeCasts_S300_S1x300 : S300.ShapeCasts S1x300
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S16x300_S16x300_0_0 : ∀ a, (![0, 0] : Fin 2 → Nat) a + S16x300.size a ≤ S16x300.size a
  h_S16x300 : 0 < S16x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  reduces_S2000x300_S2000 : S2000x300.Reduces [1] S2000
  shapeCasts_S2000_S2000x1 : S2000.ShapeCasts S2000x1
  broadcasts_S2000x1_S2000x300 : S2000x1.Broadcasts S2000x300
  inb_S2000x300_S2000x300_0_0 : ∀ a, (![0, 0] : Fin 2 → Nat) a + S2000x300.size a ≤ S2000x300.size a
  h_S2000x300 : 0 < S2000x300.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S2000x16_S16x300_S2000x300_1_0_0_1_n_n_wf : DotDims.WF S2000x16 S16x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x16.size a ≤ S100000x16.size a
  hwx1_8 : ∀ i : grid1.Coords, EltTy.bits .f32 = 32 ∨ (Rect.block (s := S100000x16) S5000x16.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S100000x16.size a
  hwx2_1 : ∀ i : grid2.Coords, EltTy.bits .f32 = 32 ∨ (Rect.block (s := S100000x16) S2000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x300.size a ≤ S16x300.size a
  hwx2_3 : ∀ i : grid2.Coords, EltTy.bits .f32 = 32 ∨ (Rect.block (s := S16x300) S16x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x300.size a ≤ S1x300.size a
  hwx2_4 : ∀ i : grid2.Coords, EltTy.bits .f32 = 32 ∨ (Rect.block (s := S1x300) S1x300.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x300.size a ≤ S100000x300.size a
  hwx2_5 : ∀ i : grid2.Coords, EltTy.bits .f32 = 32 ∨ (Rect.block (s := S100000x300) S2000x300.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x16_S16x300_S2000x300_1_0_0_1_n_n : DotDims S2000x16 S16x300 S2000x300 where
  lhsContracting := [1]
  rhsContracting := [0]
  lhsNonContracting := [0]
  rhsNonContracting := [1]
  lhsBatch := []
  rhsBatch := []
  wf := dot_S2000x16_S16x300_S2000x300_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S5000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v61) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S16x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x300.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x300 : Shape := ⟨2, ![16, 300]⟩
abbrev S300 : Shape := ⟨1, ![300]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x16 : Shape := ⟨2, ![100000, 16]⟩
abbrev S1600000x16 : Shape := ⟨2, ![1600000, 16]⟩
abbrev S100000x1 : Shape := ⟨2, ![100000, 1]⟩
abbrev S1x16 : Shape := ⟨2, ![1, 16]⟩
abbrev S100000x300 : Shape := ⟨2, ![100000, 300]⟩
abbrev S1x300 : Shape := ⟨2, ![1, 300]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x16, .f32⟩
  | 3 => ⟨S16, .f32⟩
  | 4 => ⟨S16, .f32⟩
  | 5 => ⟨S16, .f32⟩
  | 6 => ⟨S16, .f32⟩
  | 7 => ⟨S16, .f32⟩
  | 8 => ⟨S16x300, .f32⟩
  | 9 => ⟨S300, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S100000x16, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x16, .f32⟩
  | 53 => ⟨S1600000x1, .f32⟩
  | 54 => ⟨S1600000x16, .f32⟩
  | 55 => ⟨S1600000x16, .f32⟩
  | 56 => ⟨S_, .f32⟩
  | 57 => ⟨S100000x16, .f32⟩
  | 58 => ⟨S1600000x1, .i32⟩
  | 59 => ⟨S100000x16, .f32⟩
  | 60 => ⟨S_, .f32⟩
  | 61 => ⟨S100000, .f32⟩
  | 62 => ⟨S100000, .f32⟩
  | 63 => ⟨S100000x1, .f32⟩
  | 64 => ⟨S100000x16, .f32⟩
  | 65 => ⟨S100000x16, .f32⟩
  | 66 => ⟨S100000x16, .f32⟩
  | 67 => ⟨S1x16, .f32⟩
  | 68 => ⟨S100000x16, .f32⟩
  | 69 => ⟨S100000x16, .f32⟩
  | 70 => ⟨S_, .f32⟩
  | 71 => ⟨S16, .f32⟩
  | 72 => ⟨S16, .f32⟩
  | 73 => ⟨S16, .f32⟩
  | 74 => ⟨S1x16, .f32⟩
  | 75 => ⟨S100000x16, .f32⟩
  | 76 => ⟨S100000x16, .f32⟩
  | 77 => ⟨S16, .f32⟩
  | 78 => ⟨S1x16, .f32⟩
  | 79 => ⟨S100000x16, .f32⟩
  | 80 => ⟨S100000x16, .f32⟩
  | 81 => ⟨S1x16, .f32⟩
  | 82 => ⟨S100000x16, .f32⟩
  | 83 => ⟨S100000x16, .f32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x16, .f32⟩
  | 122 => ⟨S1600000x1, .f32⟩
  | 123 => ⟨S1600000x16, .f32⟩
  | 124 => ⟨S1600000x16, .f32⟩
  | 125 => ⟨S_, .f32⟩
  | 126 => ⟨S100000x16, .f32⟩
  | 127 => ⟨S1600000x1, .i32⟩
  | _ => ⟨S100000x128, .f32⟩

abbrev hbmTy0_1 (i : Nat) : BufTy := match i % 128 with
  | 0 => ⟨S100000x16, .f32⟩
  | 1 => ⟨S_, .f32⟩
  | 2 => ⟨S100000, .f32⟩
  | 3 => ⟨S100000, .f32⟩
  | 4 => ⟨S100000x1, .f32⟩
  | 5 => ⟨S100000x16, .f32⟩
  | 6 => ⟨S100000x16, .f32⟩
  | 7 => ⟨S100000x16, .f32⟩
  | 8 => ⟨S100000x300, .f32⟩
  | 9 => ⟨S1x300, .f32⟩
  | 10 => ⟨S100000x300, .f32⟩
  | 11 => ⟨S100000x300, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x300, .f32⟩
  | 19 => ⟨S100000x300, .f32⟩
  | 20 => ⟨S100000x300, .f32⟩
  | 21 => ⟨S_, .f32⟩
  | 22 => ⟨S100000, .f32⟩
  | 23 => ⟨S100000x1, .f32⟩
  | 24 => ⟨S100000x1, .f32⟩
  | 25 => ⟨S100000x300, .f32⟩
  | 26 => ⟨S100000x300, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call0_cst : Ref sig .tc := ⟨.hbm, 140, rfl⟩
abbrev main_call0_v0 : Ref sig .tc := ⟨.hbm, 141, rfl⟩
abbrev main_call0_cst_0 : Ref sig .tc := ⟨.hbm, 142, rfl⟩
abbrev main_call0_v1 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_v5 : Ref sig .tc := ⟨.hbm, 147, rfl⟩
abbrev main_call0_v6 : Ref sig .tc := ⟨.hbm, 148, rfl⟩
abbrev main_call0_cst_1 : Ref sig .tc := ⟨.hbm, 149, rfl⟩
abbrev main_call0_v7 : Ref sig .tc := ⟨.hbm, 150, rfl⟩
abbrev main_call0_v8 : Ref sig .tc := ⟨.hbm, 151, rfl⟩
abbrev main_call0_v9 : Ref sig .tc := ⟨.hbm, 152, rfl⟩
abbrev main_call0_v10 : Ref sig .tc := ⟨.hbm, 153, rfl⟩
abbrev main_v107 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  reducesTo_S100000x300_S100000_d1 : S100000x300.ReducesTo [1] S100000
  h_S_ : 0 < S_.numel
  bcast_S100000x1_S100000x300_0_1 : S100000x1.BroadcastsInDim S100000x300 (![0, 1] : Fin 2 → Fin S100000x300.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x300_S100000x300_1_0_0_1_n_n_wf : DotDims.WF S100000x16 S16x300 S100000x300 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x300_S100000x300_1_0_0_1_n_n : DotDims S100000x16 S16x300 S100000x300 where
  lhsContracting := [1]
  rhsContracting := [0]
  lhsNonContracting := [0]
  rhsNonContracting := [1]
  lhsBatch := []
  rhsBatch := []
  wf := dot_S100000x16_S16x300_S100000x300_1_0_0_1_n_n_wf

class Facts : Prop extends Facts₀ where

variable [Facts]
-- ==== Proof.KernelRun.lean ====
/-
  The idealized kernel's run with its two RESULT buffers named.

  @main is three kernel regions among three stretches of host operations. The generated frame certificate
  runs the six segments in order and ends knowing that every unscoped buffer of a core holds the contents at
  the last segment boundary (`Gen.W6`: a fold through the segments from the launch memory), from which it
  reads back only the ten argument arrays. Here the same run is read at the two result buffers as well:
  after every weakly fair execution, `main_v48` (the hidden features, [100000, 16]) and `main_v63`
  (the log-probabilities, [100000, 300]) hold `Gen.W6` at their references, and the arguments are unchanged.
  What `Gen.W6` is at those two references, as a function of the arguments, is the business of the
  modules that import this one.
-/
import proofs.«142930_j35184372088984_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result buffers end at the last
    boundary's contents and the ten argument arrays as launched. -/
theorem run_results : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.ValueRun

end
-- ==== Proof.Region0Value.lean ====
/-
  Region 0 (the dense layer): what its output array holds when the region is left.

  The region walks 20 grid points; point `t` stages rows `5000 t … 5000 t + 4999` of the feature matrix
  (window 0, block [5000, 128]) and the whole weight matrix (window 1, block [128, 16]) and writes back rows
  `5000 t …` of the output (window 2, block [5000, 16]): the matrix product of the staged rows with the
  weights, accumulated into zero. At the exact instance the change of format before the product is the
  identity and the product at (r, j) is the sum over k of row-entry times weight-entry.

  So each written block is the restriction of ONE whole-array function — `rowsTimes x w`, entry (r, j) the sum
  over k < 128 of x (r, k) · w (k, j) — to the block's rows, the 20 blocks tile the 100000 rows, and the
  output array ends equal to that function of the two input arrays as the region found them. The statement
  is for any entry contents `V`: the run instantiates it at the contents after the first host stretch.
-/
import proofs.«142930_j35184372088984_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, j) of rows × weights: the sum over the 128 input features. -/
def rowsTimes (x : S100000x128.Idx → EReal) (w : S128x16.Idx → EReal) : S100000x16.Idx → EReal :=
  fun i => ∑ k : Fin 128, x (ix2 (i 0) k) * w (ix2 k (i 1))

theorem origin2 : (![0, 0] : Fin 2 → Nat) = fun _ => 0 := funext fun a => by fin_cases a <;> rfl

local notation "dotBlk" => dot_S5000x128_S128x16_S5000x16_1_0_0_1_n_n

theorem lhs_row (j : S5000x16.Idx) (q : (dotBlk).contr.Idx) : ((dotBlk).lhsIdx j q 0).val = (j 0).val := by
  unfold DotDims.lhsIdx
  rw [dif_neg (show ¬(0 : Fin S5000x128.rank) ∈ (dotBlk).lhsBatch by decide),
    dif_pos (show (0 : Fin S5000x128.rank) ∈ (dotBlk).lhsNonContracting by decide)]
  rfl
theorem lhs_contr (j : S5000x16.Idx) (q : (dotBlk).contr.Idx) : ((dotBlk).lhsIdx j q 1).val = (q ⟨0, by decide⟩).val :=
  (dotBlk).lhsIdx_val_of_single rfl j q
theorem rhs_contr (j : S5000x16.Idx) (q : (dotBlk).contr.Idx) : ((dotBlk).rhsIdx j q 0).val = (q ⟨0, by decide⟩).val :=
  (dotBlk).rhsIdx_val_of_single rfl j q
theorem rhs_col (j : S5000x16.Idx) (q : (dotBlk).contr.Idx) : ((dotBlk).rhsIdx j q 1).val = (j 1).val := by
  unfold DotDims.rhsIdx
  rw [dif_neg (show ¬(1 : Fin S128x16.rank) ∈ (dotBlk).rhsBatch by decide),
    dif_pos (show (1 : Fin S128x16.rank) ∈ (dotBlk).rhsNonContracting by decide)]
  rfl

/-- The body's stored value at (r, j) of the block: the sum over k of the staged row entry times the weight. -/
theorem stored_apply (x0 : Vec Ideal S5000x128 .f32) (x1 : Vec Ideal S128x16 .f32) (j : S5000x16.Idx) :
    k0_pay1 (F := Ideal) x0 x1 j = ∑ k : Fin 128, x0 (ix2 (j 0) k) * x1 (ix2 k (j 1)) := by
  show FloatOps.matmul (F := Ideal) (φ₁ := .bf16) (φ₂ := .bf16) dotBlk none x0 x1 (constant S5000x16 .f32 0x00000000#32) j = _
  rw [Ideal.matmul_constant_zero_apply, ← Equiv.sum_comp (contrEquiv1 dotBlk 128 rfl rfl).symm]
  refine Finset.sum_congr rfl fun k _ => ?_
  have hk := contrEquiv1_symm_val dotBlk 128 rfl rfl k
  have el : (dotBlk).lhsIdx j ((contrEquiv1 dotBlk 128 rfl rfl).symm k) = ix2 (j 0) k := funext fun a => Fin.ext (by
    match a with
    | ⟨0, _⟩ => exact lhs_row _ _
    | ⟨1, _⟩ => exact (lhs_contr _ _).trans hk)
  have er : (dotBlk).rhsIdx j ((contrEquiv1 dotBlk 128 rfl rfl).symm k) = ix2 k (j 1) := funext fun a => Fin.ext (by
    match a with
    | ⟨0, _⟩ => exact (rhs_contr _ _).trans hk
    | ⟨1, _⟩ => exact rhs_col _ _)
  exact congrArg₂ (· * ·) (congrArg x0 el) (congrArg x1 er)

/-- The printed index maps over the 20 grid points: the row windows sit at block row `t`, column block 0; the
    weights at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row below 20 is some grid point's. -/
theorem point_of_block : ∀ q : Fin 20, ∃ t : Fin cfg0.N, t.val = q.val :=
  (by decide +kernel : ∀ q : Fin 20, ∃ t : Fin grid0.N, t.val = q.val)

variable (V : (c : Dev nD) → (b : Ref sig .tc) → Buf (Elt Ideal) ((c : Thread nD τ).loc b))

/-- What grid point `t` writes back is block `t` of rows × weights of the arrays as the region found them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x16) origin2]
  obtain ⟨e0, e1, e2, e3, e4, e5⟩ := index_maps t
  funext j
  show k0_pay1 (F := Ideal) (iblk0 V c 0 t) (iblk0 V c 1 t) j = rowsTimes (V c main_arg0) (V c main_arg2) (((cfg0.win 2).blk t).view.emb j)
  rw [stored_apply]
  unfold rowsTimes
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [hx, hw]

/-- An index of the output array is in point `t`'s block iff each coordinate is in the block's range. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v29).slice (win0_2.rect t)).set ↔ _
  rw [View.set_slice_whole, Rect.mem_set_unit]
  exact Iff.rfl

/-- The 20 blocks of 5000 rows cover the 100000 rows: row `r` is in block `r / 5000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := point_of_block ⟨(i 0).val / 5000, by omega⟩
  have ht' : t.val = (i 0).val / 5000 := ht
  obtain ⟨e0, e1, e2, e3, e4, e5⟩ := index_maps t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE OUTPUT ARRAY when region 0 is left: rows × weights of the two input arrays as the region found them. -/
theorem final (c : Dev nD) : (dat0 V c).arrAt 2 cfg0.N = rowsTimes (V c main_arg0) (V c main_arg2) :=
  (dat0 V c).arrAt_eq_of_cover 2 (rowsTimes (V c main_arg0) (V c main_arg2)) (fun t _ => flushed_eq V c t) covered

end Cert.KernelIdeal.Region0

end
-- ==== Proof.Region1Value.lean ====
/-
  Region 1 (self-loop, bias and batch normalisation): what its output array holds when the region is left.

  Grid point `t` of 20 stages rows `5000 t …` of the aggregated messages and of the dense features (windows 0 and
  1, blocks [5000, 16]), the same rows of the per-node self-loop weight (window 2, a column block [5000, 1]) and
  five parameter rows [1, 16] whole (windows 3–7: bias, scale, shift, running mean, running variance), and
  writes back rows `5000 t …` of the output (window 8). The body is pointwise: at (r, j)

      ((agg (r, j) + feat (r, j) · self (r)) + bias (j) − mean (j)) · (rsqrt (var (j) + ε) · scale (j)) + shift (j)

  with the column broadcast along the row and the parameter rows broadcast down the rows, ε the f32 word
  0x3727C5AC. Each written block is the restriction of that ONE whole-array function (`normalized`) to the
  block's rows, the 20 blocks tile the rows, so the output array ends equal to it. Stated for any entry
  contents `V`.
-/
import proofs.«142930_j35184372088984_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The normalised hidden features at (r, j), from whole arrays: the aggregate, the dense features, the self-loop
    weight column, and the five parameter rows. -/
def normalized (agg feat : S100000x16.Idx → EReal) (self : S100000x1.Idx → EReal)
    (bias scale shift mean var : S1x16.Idx → EReal) : S100000x16.Idx → EReal :=
  fun i => ((agg i + feat i * self (ix2 (i 0) 0)) + bias (ix2 0 (i 1)) - mean (ix2 0 (i 1)))
      * (Ideal.rsqrt (var (ix2 0 (i 1)) + Ideal.ofBits .f32 0x3727C5AC#32) * scale (ix2 0 (i 1)))
    + shift (ix2 0 (i 1))

theorem origin2 : (![0, 0] : Fin 2 → Nat) = fun _ => 0 := funext fun a => by fin_cases a <;> rfl

/-- A column [5000, 1] broadcast along the rows, read at (p, q), is the column at p. -/
theorem col_apply (v : Vec Ideal S5000x1 .f32) (h : S5000x1.Broadcasts S5000x16) (p : Fin 5000) (q : Fin 16) :
    broadcastTo S5000x16 v h (ix2 p q) = v (ix2 p 0) :=
  broadcastTo_apply v h _ _ (fun a => by match a with | ⟨0, _⟩ => rfl | ⟨1, _⟩ => rfl)

/-- A row [1, 16] broadcast down the rows, read at (p, q), is the row at q. -/
theorem row_apply (v : Vec Ideal S1x16 .f32) (h : S1x16.Broadcasts S5000x16) (p : Fin 5000) (q : Fin 16) :
    broadcastTo S5000x16 v h (ix2 p q) = v (ix2 0 q) :=
  broadcastTo_apply v h _ _ (fun a => by match a with | ⟨0, _⟩ => rfl | ⟨1, _⟩ => rfl)

/-- The body's stored value at (p, q) of the block. -/
theorem stored_apply (v0 v2 : Vec Ideal S5000x16 .f32) (v4 : Vec Ideal S5000x1 .f32) (v6 v8 v10 v12 v14 : Vec Ideal S1x16 .f32)
    (p : Fin 5000) (q : Fin 16) :
    k1_pay1 (F := Ideal) v0 v2 v4 v6 v8 v10 v12 v14 (ix2 p q)
      = ((v0 (ix2 p q) + v2 (ix2 p q) * v4 (ix2 p 0)) + v6 (ix2 0 q) - v12 (ix2 0 q))
          * (Ideal.rsqrt (v14 (ix2 0 q) + Ideal.ofBits .f32 0x3727C5AC#32) * v8 (ix2 0 q))
        + v10 (ix2 0 q) := by
  unfold k1_pay1
  simp only [shapeCast_self]
  show ((v0 (ix2 p q) + v2 (ix2 p q) * broadcastTo S5000x16 v4 _ (ix2 p q)) + broadcastTo S5000x16 v6 _ (ix2 p q)
        - broadcastTo S5000x16 v12 _ (ix2 p q))
      * broadcastTo S5000x16 (mulf (rsqrt (addf v14 (broadcast S1x16 (Scalar.ofBits (F := Ideal) .f32 0x3727C5AC#32)))) v8) _ (ix2 p q)
      + broadcastTo S5000x16 v10 _ (ix2 p q) = _
  rw [col_apply, row_apply, row_apply, row_apply, row_apply]
  rfl

/-- The printed index maps over the 20 grid points: the row windows and the column sit at block row `t`; the
    parameter rows at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every block row below 20 is some grid point's. -/
theorem point_of_block : ∀ q : Fin 20, ∃ t : Fin cfg1.N, t.val = q.val :=
  (by decide +kernel : ∀ q : Fin 20, ∃ t : Fin grid1.N, t.val = q.val)

variable (V : (c : Dev nD) → (b : Ref sig .tc) → Buf (Elt Ideal) ((c : Thread nD τ).loc b))

/-- Window 0's block read at (p, q) is its array at the output block's position. -/
theorem read0 (c : Dev nD) (t : Fin cfg1.N) (p : Fin 5000) (q : Fin 16) :
    iblk1 V c 0 t (ix2 p q) = V c main_v42 (((cfg1.win 8).blk t).view.emb (ix2 p q)) := by
  obtain ⟨a00, a01, a10, a11, a20, a21, a30, a31, a40, a41, a50, a51, a60, a61, a70, a71, a80, a81⟩ := index_maps t
  have hp : p.val < 5000 := p.isLt
  have hq : q.val < 16 := q.isLt
  show V c main_v42 (((cfg1.win 0).blk t).view.emb (ix2 p q)) = _
  refine congrArg _ (funext fun a => Fin.ext ?_)
  match a with
  | ⟨0, _⟩ => show win1_0.index t (0 : Fin 2) * 5000 + 1 * p.val = win1_8.index t (0 : Fin 2) * 5000 + 1 * p.val; omega
  | ⟨1, _⟩ => show win1_0.index t (1 : Fin 2) * 16 + 1 * q.val = win1_8.index t (1 : Fin 2) * 16 + 1 * q.val; omega

/-- Window 1's block read at (p, q) is its array at the output block's position. -/
theorem read1 (c : Dev nD) (t : Fin cfg1.N) (p : Fin 5000) (q : Fin 16) :
    iblk1 V c 1 t (ix2 p q) = V c main_v29 (((cfg1.win 8).blk t).view.emb (ix2 p q)) := by
  obtain ⟨a00, a01, a10, a11, a20, a21, a30, a31, a40, a41, a50, a51, a60, a61, a70, a71, a80, a81⟩ := index_maps t
  have hp : p.val < 5000 := p.isLt
  have hq : q.val < 16 := q.isLt
  show V c main_v29 (((cfg1.win 1).blk t).view.emb (ix2 p q)) = _
  refine congrArg _ (funext fun a => Fin.ext ?_)
  match a with
  | ⟨0, _⟩ => show win1_1.index t (0 : Fin 2) * 5000 + 1 * p.val = win1_8.index t (0 : Fin 2) * 5000 + 1 * p.val; omega
  | ⟨1, _⟩ => show win1_1.index t (1 : Fin 2) * 16 + 1 * q.val = win1_8.index t (1 : Fin 2) * 16 + 1 * q.val; omega

/-- The column window's block read at (p, 0) is the column at the output block's row. -/
theorem read2 (c : Dev nD) (t : Fin cfg1.N) (p : Fin 5000) (q : Fin 16) :
    iblk1 V c 2 t (ix2 p 0) = V c main_v28 (ix2 ((((cfg1.win 8).blk t).view.emb (ix2 p q)) 0) 0) := by
  obtain ⟨a00, a01, a10, a11, a20, a21, a30, a31, a40, a41, a50, a51, a60, a61, a70, a71, a80, a81⟩ := index_maps t
  have hp : p.val < 5000 := p.isLt
  show V c main_v28 (((cfg1.win 2).blk t).view.emb (ix2 p 0)) = _
  refine congrArg _ (funext fun a => Fin.ext ?_)
  match a with
  | ⟨0, _⟩ => show win1_2.index t (0 : Fin 2) * 5000 + 1 * p.val = win1_8.index t (0 : Fin 2) * 5000 + 1 * p.val; omega
  | ⟨1, _⟩ => show win1_2.index t (1 : Fin 2) * 1 + 1 * 0 = 0; omega

/-- Parameter window 3's row read at (0, q) is its array's row at the output block's column. -/
theorem read3 (c : Dev nD) (t : Fin cfg1.N) (p : Fin 5000) (q : Fin 16) :
    iblk1 V c 3 t (ix2 0 q) = V c main_v43 (ix2 0 ((((cfg1.win 8).blk t).view.emb (ix2 p q)) 1)) := by
  obtain ⟨a00, a01, a10, a11, a20, a21, a30, a31, a40, a41, a50, a51, a60, a61, a70, a71, a80, a81⟩ := index_maps t
  have hq : q.val < 16 := q.isLt
  show V c main_v43 (((cfg1.win 3).blk t).view.emb (ix2 0 q)) = _
  refine congrArg _ (funext fun a => Fin.ext ?_)
  match a with
  | ⟨0, _⟩ => show win1_3.index t (0 : Fin 2) * 1 + 1 * 0 = 0; omega
  | ⟨1, _⟩ => show win1_3.index t (1 : Fin 2) * 16 + 1 * q.val = win1_8.index t (1 : Fin 2) * 16 + 1 * q.val; omega

/-- Parameter window 4's row read at (0, q) is its array's row at the output block's column. -/
theorem read4 (c : Dev nD) (t : Fin cfg1.N) (p : Fin 5000) (q : Fin 16) :
    iblk1 V c 4 t (ix2 0 q) = V c main_v44 (ix2 0 ((((cfg1.win 8).blk t).view.emb (ix2 p q)) 1)) := by
  obtain ⟨a00, a01, a10, a11, a20, a21, a30, a31, a40, a41, a50, a51, a60, a61, a70, a71, a80, a81⟩ := index_maps t
  have hq : q.val < 16 := q.isLt
  show V c main_v44 (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 16 + 1 * q.val = win1_8.index t (1 : Fin 2) * 16 + 1 * q.val; omega

/-- Parameter window 5's row read at (0, q) is its array's row at the output block's column. -/
theorem read5 (c : Dev nD) (t : Fin cfg1.N) (p : Fin 5000) (q : Fin 16) :
    iblk1 V c 5 t (ix2 0 q) = V c main_v45 (ix2 0 ((((cfg1.win 8).blk t).view.emb (ix2 p q)) 1)) := by
  obtain ⟨a00, a01, a10, a11, a20, a21, a30, a31, a40, a41, a50, a51, a60, a61, a70, a71, a80, a81⟩ := index_maps t
  have hq : q.val < 16 := q.isLt
  show V c main_v45 (((cfg1.win 5).blk t).view.emb (ix2 0 q)) = _
  refine congrArg _ (funext fun a => Fin.ext ?_)
  match a with
  | ⟨0, _⟩ => show win1_5.index t (0 : Fin 2) * 1 + 1 * 0 = 0; omega
  | ⟨1, _⟩ => show win1_5.index t (1 : Fin 2) * 16 + 1 * q.val = win1_8.index t (1 : Fin 2) * 16 + 1 * q.val; omega

/-- Parameter window 6's row read at (0, q) is its array's row at the output block's column. -/
theorem read6 (c : Dev nD) (t : Fin cfg1.N) (p : Fin 5000) (q : Fin 16) :
    iblk1 V c 6 t (ix2 0 q) = V c main_v46 (ix2 0 ((((cfg1.win 8).blk t).view.emb (ix2 p q)) 1)) := by
  obtain ⟨a00, a01, a10, a11, a20, a21, a30, a31, a40, a41, a50, a51, a60, a61, a70, a71, a80, a81⟩ := index_maps t
  have hq : q.val < 16 := q.isLt
  show V c main_v46 (((cfg1.win 6).blk t).view.emb (ix2 0 q)) = _
  refine congrArg _ (funext fun a => Fin.ext ?_)
  match a with
  | ⟨0, _⟩ => show win1_6.index t (0 : Fin 2) * 1 + 1 * 0 = 0; omega
  | ⟨1, _⟩ => show win1_6.index t (1 : Fin 2) * 16 + 1 * q.val = win1_8.index t (1 : Fin 2) * 16 + 1 * q.val; omega

/-- Parameter window 7's row read at (0, q) is its array's row at the output block's column. -/
theorem read7 (c : Dev nD) (t : Fin cfg1.N) (p : Fin 5000) (q : Fin 16) :
    iblk1 V c 7 t (ix2 0 q) = V c main_v47 (ix2 0 ((((cfg1.win 8).blk t).view.emb (ix2 p q)) 1)) := by
  obtain ⟨a00, a01, a10, a11, a20, a21, a30, a31, a40, a41, a50, a51, a60, a61, a70, a71, a80, a81⟩ := index_maps t
  have hq : q.val < 16 := q.isLt
  show V c main_v47 (((cfg1.win 7).blk t).view.emb (ix2 0 q)) = _
  refine congrArg _ (funext fun a => Fin.ext ?_)
  match a with
  | ⟨0, _⟩ => show win1_7.index t (0 : Fin 2) * 1 + 1 * 0 = 0; omega
  | ⟨1, _⟩ => show win1_7.index t (1 : Fin 2) * 16 + 1 * q.val = win1_8.index t (1 : Fin 2) * 16 + 1 * q.val; omega

set_option maxHeartbeats 1000000 in
/-- What grid point `t` writes back is block `t` of `normalized` of the arrays as the region found them. -/
theorem flushed_eq (c : Dev nD) (t : Fin cfg1.N) :
    (dat1 V c).flushed 8 t = ((cfg1.win 8).blk t).view.read (Elt Ideal)
      (normalized (V c main_v42) (V c main_v29) (V c main_v28) (V c main_v43) (V c main_v44) (V c main_v45) (V c main_v46) (V c main_v47)) := by
  show (cfg1.win 8).cut (grid1.coords t) ((dat1 V c).after 8 t) = _
  rw [after1_8]
  unfold out1_8
  rw [View.canon_unit_zero origin2]
  simp only [View.ld_unit_zero (S := S5000x16) origin2, View.ld_unit_zero (S := S5000x1) origin2, View.ld_unit_zero (S := S1x16) origin2]
  funext j
  obtain ⟨p, q, rfl⟩ : ∃ (p : Fin 5000) (q : Fin 16), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (iblk1 V c 7 t) (ix2 p q)
    = normalized (V c main_v42) (V c main_v29) (V c main_v28) (V c main_v43) (V c main_v44) (V c main_v45) (V c main_v46) (V c main_v47) (((cfg1.win 8).blk t).view.emb (ix2 p q))
  rw [stored_apply, read0 V c t p q, read1 V c t p q, read2 V c t p q, read3 V c t p q, read4 V c t p q, read5 V c t p q, read6 V c t p q, read7 V c t p q]
  rfl

/-- An index of the output array is in point `t`'s block iff each coordinate is in the block's range. -/
theorem mem_block (t : Fin cfg1.N) (i : S100000x16.Idx) :
    i ∈ ((cfg1.win 8).blk t).view.set ↔ ∀ a : Fin 2, win1_8.index t a * S5000x16.size a ≤ (i a).val ∧ (i a).val < win1_8.index t a * S5000x16.size a + S5000x16.size a := by
  show i ∈ ((View.whole main_v48).slice (win1_8.rect t)).set ↔ _
  rw [View.set_slice_whole, Rect.mem_set_unit]
  exact Iff.rfl

/-- The 20 blocks of 5000 rows cover the 100000 rows. -/
theorem covered (i : S100000x16.Idx) : ∃ t : Fin cfg1.N, (cfg1.win 8).flush t = true ∧ i ∈ ((cfg1.win 8).blk t).view.set := by
  have hi0 : (i 0).val < 100000 := (i 0).isLt
  have hi1 : (i 1).val < 16 := (i 1).isLt
  obtain ⟨t, ht⟩ := point_of_block ⟨(i 0).val / 5000, by omega⟩
  have ht' : t.val = (i 0).val / 5000 := ht
  obtain ⟨a00, a01, a10, a11, a20, a21, a30, a31, a40, a41, a50, a51, a60, a61, a70, a71, a80, a81⟩ := index_maps t
  refine ⟨t, flush1_8 t, ?_⟩
  rw [mem_block]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 16 ≤ (i 1).val ∧ (i 1).val < win1_8.index t (1 : Fin 2) * 16 + 16; omega

/-- THE OUTPUT ARRAY when region 1 is left: `normalized` of the eight input arrays as the region found them. -/
theorem final (c : Dev nD) : (dat1 V c).arrAt 8 cfg1.N
    = normalized (V c main_v42) (V c main_v29) (V c main_v28) (V c main_v43) (V c main_v44) (V c main_v45) (V c main_v46) (V c main_v47) :=
  (dat1 V c).arrAt_eq_of_cover 8 _ (fun t _ => flushed_eq V c t) covered

end Cert.KernelIdeal.Region1

end
-- ==== Proof.Region2Value.lean ====
/-
  Region 2 (the output layer): what its output array holds when the region is left.

  Grid point `t` of 50 stages rows `2000 t …` of the second aggregate and of the hidden features (windows 0 and 1,
  blocks [2000, 16]), the same rows of the self-loop weight column (window 2, [2000, 1]), the whole output
  weights [16, 300] (window 3) and the bias row [1, 300] (window 4), and writes back rows `2000 t …` of the
  log-probabilities (window 5, block [2000, 300]). With

      z (r, j) = Σ_k (agg (r, k) + hid (r, k) · self (r)) · W (k, j) + bias (j)        (the logits)
      M (r)    = max over j of z (r, j), from −∞
      the body stores   z (r, j) − (M (r) + log Σ_j' exp (z (r, j') − M (r))).

  Everything is row-wise, so each written block is the restriction of ONE whole-array function
  (`shiftedLogProb (logits …)`) to the block's rows; the 50 blocks tile the rows; the output array ends equal
  to that function of the five input arrays as the region found them. Stated for any entry contents `V`.
-/
import proofs.«142930_j35184372088984_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- The logits, from whole arrays: the mixed features times the output weights, plus the bias row. -/
def logits (agg hid : S100000x16.Idx → EReal) (self : S100000x1.Idx → EReal) (W : S16x300.Idx → EReal)
    (bias : S1x300.Idx → EReal) : S100000x300.Idx → EReal :=
  fun i => ∑ k : Fin 16, (agg (ix2 (i 0) k) + hid (ix2 (i 0) k) * self (ix2 (i 0) 0)) * W (ix2 k (i 1)) + bias (ix2 0 (i 1))

/-- A row's maximum, from −∞ (the bottom element). -/
def rowMax {n : Nat} (z : (⟨2, ![n, 300]⟩ : Shape).Idx → EReal) (r : Fin n) : EReal :=
  (Finset.univ : Finset (Fin 300)).fold max ⊥ (fun j => z (ix2 r j))

/-- The kernel's spelling of the log-softmax: the logit minus (the row maximum plus the log of the row's sum of
    exponentials of the shifted logits). -/
def shiftedLogProb {n : Nat} (z : (⟨2, ![n, 300]⟩ : Shape).Idx → EReal) : (⟨2, ![n, 300]⟩ : Shape).Idx → EReal :=
  fun i => z i - (rowMax z (i 0) + Ideal.log (∑ j : Fin 300, Ideal.exp (z (ix2 (i 0) j) - rowMax z (i 0))))

theorem origin2 : (![0, 0] : Fin 2 → Nat) = fun _ => 0 := funext fun a => by fin_cases a <;> rfl

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [2000, 1] broadcast along the rows of [2000, 16], read at (p, k), is the column at p. -/
theorem col16_apply (v : Vec Ideal S2000x1 .f32) (h : S2000x1.Broadcasts S2000x16) (p : Fin 2000) (k : Fin 16) :
    broadcastTo S2000x16 v h (ix2 p k) = v (ix2 p 0) :=
  broadcastTo_apply v h _ _ (fun a => by match a with | ⟨0, _⟩ => rfl | ⟨1, _⟩ => rfl)

/-- A column [2000, 1] broadcast along the rows of [2000, 300], read at (p, q), is the column at p. -/
theorem col300_apply (v : Vec Ideal S2000x1 .f32) (h : S2000x1.Broadcasts S2000x300) (p : Fin 2000) (q : Fin 300) :
    broadcastTo S2000x300 v h (ix2 p q) = v (ix2 p 0) :=
  broadcastTo_apply v h _ _ (fun a => by match a with | ⟨0, _⟩ => rfl | ⟨1, _⟩ => rfl)

/-- A row [1, 300] broadcast down the rows, read at (p, q), is the row at q. -/
theorem row300_apply (v : Vec Ideal S1x300 .f32) (h : S1x300.Broadcasts S2000x300) (p : Fin 2000) (q : Fin 300) :
    broadcastTo S2000x300 v h (ix2 p q) = v (ix2 0 q) :=
  broadcastTo_apply v h _ _ (fun a => by match a with | ⟨0, _⟩ => rfl | ⟨1, _⟩ => rfl)

local notation "dotBlk" => dot_S2000x16_S16x300_S2000x300_1_0_0_1_n_n

theorem lhs_row (j : S2000x300.Idx) (q : (dotBlk).contr.Idx) : ((dotBlk).lhsIdx j q 0).val = (j 0).val := by
  unfold DotDims.lhsIdx
  rw [dif_neg (show ¬(0 : Fin S2000x16.rank) ∈ (dotBlk).lhsBatch by decide),
    dif_pos (show (0 : Fin S2000x16.rank) ∈ (dotBlk).lhsNonContracting by decide)]
  rfl
theorem lhs_contr (j : S2000x300.Idx) (q : (dotBlk).contr.Idx) : ((dotBlk).lhsIdx j q 1).val = (q ⟨0, by decide⟩).val :=
  (dotBlk).lhsIdx_val_of_single rfl j q
theorem rhs_contr (j : S2000x300.Idx) (q : (dotBlk).contr.Idx) : ((dotBlk).rhsIdx j q 0).val = (q ⟨0, by decide⟩).val :=
  (dotBlk).rhsIdx_val_of_single rfl j q
theorem rhs_col (j : S2000x300.Idx) (q : (dotBlk).contr.Idx) : ((dotBlk).rhsIdx j q 1).val = (j 1).val := by
  unfold DotDims.rhsIdx
  rw [dif_neg (show ¬(1 : Fin S16x300.rank) ∈ (dotBlk).rhsBatch by decide),
    dif_pos (show (1 : Fin S16x300.rank) ∈ (dotBlk).rhsNonContracting by decide)]
  rfl

/-- The block's product into zero, read at (p, q): the sum over the 16 hidden features. -/
theorem product_apply (l : FVec Ideal S2000x16 .bf16) (r : FVec Ideal S16x300 .bf16) (p : Fin 2000) (q : Fin 300) :
    matmul (F := Ideal) dotBlk none l r (constant S2000x300 .f32 0x00000000#32) (ix2 p q) = ∑ k : Fin 16, l (ix2 p k) * r (ix2 k q) := by
  show FloatOps.matmul (F := Ideal) dotBlk none l r (constant S2000x300 .f32 0x00000000#32) (ix2 p q) = _
  rw [Ideal.matmul_constant_zero_apply, ← Equiv.sum_comp (contrEquiv1 dotBlk 16 rfl rfl).symm]
  refine Finset.sum_congr rfl fun k _ => ?_
  have hk := contrEquiv1_symm_val dotBlk 16 rfl rfl k
  have el : (dotBlk).lhsIdx (ix2 p q) ((contrEquiv1 dotBlk 16 rfl rfl).symm k) = ix2 p k := funext fun a => Fin.ext (by
    match a with
    | ⟨0, _⟩ => exact lhs_row _ _
    | ⟨1, _⟩ => exact (lhs_contr _ _).trans hk)
  have er : (dotBlk).rhsIdx (ix2 p q) ((contrEquiv1 dotBlk 16 rfl rfl).symm k) = ix2 k q := funext fun a => Fin.ext (by
    match a with
    | ⟨0, _⟩ => exact (rhs_contr _ _).trans hk
    | ⟨1, _⟩ => exact rhs_col _ _)
  exact congrArg₂ (· * ·) (congrArg l el) (congrArg r er)

/-- The logits of a block, from the staged blocks. -/
def blockLogits (v0 v2 : Vec Ideal S2000x16 .f32) (v4 : Vec Ideal S2000x1 .f32) (v10 : Vec Ideal S16x300 .f32)
    (v13 : Vec Ideal S1x300 .f32) : S2000x300.Idx → EReal :=
  fun j => ∑ k : Fin 16, (v0 (ix2 (j 0) k) + v2 (ix2 (j 0) k) * v4 (ix2 (j 0) 0)) * v10 (ix2 k (j 1)) + v13 (ix2 0 (j 1))

theorem blockLogits_apply (v0 v2 : Vec Ideal S2000x16 .f32) (v4 : Vec Ideal S2000x1 .f32) (v10 : Vec Ideal S16x300 .f32)
    (v13 : Vec Ideal S1x300 .f32) (p : Fin 2000) (q : Fin 300) :
    blockLogits v0 v2 v4 v10 v13 (ix2 p q)
      = (∑ k : Fin 16, (v0 (ix2 p k) + v2 (ix2 p k) * v4 (ix2 p 0)) * v10 (ix2 k q)) + v13 (ix2 0 q) := rfl

/-- The row reduction's inserted index: row `p`, column `q`. -/
theorem lift_row (hr : S2000x300.Reduces [(1 : Fin 2)] S2000) (p : Fin 2000) (q : Fin 300) : hr.lift (ix1 p) q = ix2 p q :=
  funext fun a => Fin.ext (by match a with | ⟨0, _⟩ => rfl | ⟨1, _⟩ => rfl)

/-- The log-softmax tail of the body on ANY block of logits `Z`, read at (p, q). -/
theorem tail_apply (Z : FVec Ideal S2000x300 .f32) (hr : S2000x300.Reduces [(1 : Fin 2)] S2000) (hφ : FKind.Formats .f32)
    (hmax : (0xFF800000#32 : BitVec 32) = FKind.maximumf.neutral .f32 hφ) (hadd : (0x00000000#32 : BitVec 32) = FKind.add.neutral .f32 hφ)
    (hc : S2000.ShapeCasts S2000x1) (hb : S2000x1.Broadcasts S2000x300) (p : Fin 2000) (q : Fin 300) :
    subf Z (broadcastTo S2000x300 (addf (shapeCast S2000x1 (multiReduction .maximumf [1] S2000 Z 0xFF800000#32 hr hφ hmax) hc)
        (log (shapeCast S2000x1 (multiReduction .add [1] S2000
          (exp (subf Z (broadcastTo S2000x300 (shapeCast S2000x1 (multiReduction .maximumf [1] S2000 Z 0xFF800000#32 hr hφ hmax) hc) hb)))
          0x00000000#32 hr hφ hadd) hc))) hb) (ix2 p q)
      = shiftedLogProb (n := 2000) Z (ix2 p q) := by
  have hM : ∀ p' : Fin 2000, shapeCast S2000x1 (multiReduction .maximumf [1] S2000 Z 0xFF800000#32 hr hφ hmax) hc (ix2 p' 0) = rowMax (n := 2000) Z p' := by
    intro p'
    rw [shapeCast_a_a1_apply, Ideal.multiReduction_maximumf_single]
    have e : FloatOps.ofBits (F := Ideal) .f32 0xFF800000#32 = (⊥ : EReal) := by
      show Ideal.ofBits .f32 0xFF800000#32 = ⊥
      simp [Ideal.ofBits, Ideal.ieee]
    rw [e]
    show (Finset.univ : Finset (Fin 300)).fold max ⊥ (fun j : Fin 300 => Z (hr.lift (ix1 p') j))
      = (Finset.univ : Finset (Fin 300)).fold max ⊥ (fun j : Fin 300 => Z (ix2 p' j))
    refine congrArg (fun f => (Finset.univ : Finset (Fin 300)).fold max ⊥ f) (funext fun j => ?_)
    rw [lift_row hr p' j]
  show Z (ix2 p q) - broadcastTo S2000x300 _ hb (ix2 p q) = _
  rw [col300_apply]
  show Z (ix2 p q) - (shapeCast S2000x1 (multiReduction .maximumf [1] S2000 Z 0xFF800000#32 hr hφ hmax) hc (ix2 p 0)
      + Ideal.log (shapeCast S2000x1 (multiReduction .add [1] S2000
          (exp (subf Z (broadcastTo S2000x300 (shapeCast S2000x1 (multiReduction .maximumf [1] S2000 Z 0xFF800000#32 hr hφ hmax) hc) hb)))
          0x00000000#32 hr hφ hadd) hc (ix2 p 0))) = _
  rw [hM p, shapeCast_a_a1_apply, Ideal.multiReduction_add_single]
  show Z (ix2 p q) - (rowMax (n := 2000) Z p + Ideal.log (∑ j : Fin 300,
        Ideal.exp (Z (hr.lift (ix1 p) j) - broadcastTo S2000x300 (shapeCast S2000x1 (multiReduction .maximumf [1] S2000 Z 0xFF800000#32 hr hφ hmax) hc) hb (hr.lift (ix1 p) j))))
      = Z (ix2 p q) - (rowMax (n := 2000) Z p + Ideal.log (∑ j : Fin 300, Ideal.exp (Z (ix2 p j) - rowMax (n := 2000) Z p)))
  refine congrArg (fun s => Z (ix2 p q) - (rowMax (n := 2000) Z p + Ideal.log s)) (Finset.sum_congr rfl fun j _ => ?_)
  rw [lift_row hr p j, col300_apply, hM p]

/-- The body's stored value at (p, q) of the block: the kernel's log-softmax of the block's logits. -/
theorem stored_apply (v0 v2 : Vec Ideal S2000x16 .f32) (v4 : Vec Ideal S2000x1 .f32) (v10 : Vec Ideal S16x300 .f32)
    (v13 : Vec Ideal S1x300 .f32) (p : Fin 2000) (q : Fin 300) :
    k2_pay1 (F := Ideal) v0 v2 v4 v10 v13 (ix2 p q) = shiftedLogProb (n := 2000) (blockLogits v0 v2 v4 v10 v13) (ix2 p q) := by
  unfold k2_pay1
  simp only [shapeCast_self]
  refine (tail_apply _ _ _ _ _ _ _ p q).trans ?_
  refine congrArg (fun Z => shiftedLogProb (n := 2000) Z (ix2 p q)) (funext fun j => ?_)
  obtain ⟨p', q', rfl⟩ : ∃ (p' : Fin 2000) (q' : Fin 300), j = ix2 p' q' := ⟨j 0, j 1, eq_ix2 j⟩
  show matmul (F := Ideal) dotBlk none _ _ (constant S2000x300 .f32 0x00000000#32) (ix2 p' q') + broadcastTo S2000x300 v13 _ (ix2 p' q') = _
  rw [product_apply, row300_apply]
  unfold blockLogits
  refine congrArg (· + v13 (ix2 0 q')) (Finset.sum_congr rfl fun k _ => ?_)
  show (v0 (ix2 p' k) + v2 (ix2 p' k) * broadcastTo S2000x16 v4 _ (ix2 p' k)) * v10 (ix2 k q') = _
  rw [col16_apply]

/-- The printed index maps over the 50 grid points. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row below 50 is some grid point's. -/
theorem point_of_block : ∀ q : Fin 50, ∃ t : Fin cfg2.N, t.val = q.val :=
  (by decide +kernel : ∀ q : Fin 50, ∃ t : Fin grid2.N, t.val = q.val)

variable (V : (c : Dev nD) → (b : Ref sig .tc) → Buf (Elt Ideal) ((c : Thread nD τ).loc b))

/-- The aggregate's block read at (p, k) is its array at the output block's row, column k. -/
theorem read0 (c : Dev nD) (t : Fin cfg2.N) (p : Fin 2000) (q : Fin 300) (k : Fin 16) :
    iblk2 V c 0 t (ix2 p k) = V c main_v61 (ix2 ((((cfg2.win 5).blk t).view.emb (ix2 p q)) 0) k) := by
  obtain ⟨a00, a01, a10, a11, a20, a21, a30, a31, a40, a41, a50, a51⟩ := index_maps t
  have hp : p.val < 2000 := p.isLt
  have hk : k.val < 16 := k.isLt
  show V c main_v61 (((cfg2.win 0).blk t).view.emb (ix2 p k)) = _
  refine congrArg _ (funext fun a => Fin.ext ?_)
  match a with
  | ⟨0, _⟩ => show win2_0.index t (0 : Fin 2) * 2000 + 1 * p.val = win2_5.index t (0 : Fin 2) * 2000 + 1 * p.val; omega
  | ⟨1, _⟩ => show win2_0.index t (1 : Fin 2) * 16 + 1 * k.val = k.val; omega

/-- The hidden features' block read at (p, k) likewise. -/
theorem read1 (c : Dev nD) (t : Fin cfg2.N) (p : Fin 2000) (q : Fin 300) (k : Fin 16) :
    iblk2 V c 1 t (ix2 p k) = V c main_v48 (ix2 ((((cfg2.win 5).blk t).view.emb (ix2 p q)) 0) k) := by
  obtain ⟨a00, a01, a10, a11, a20, a21, a30, a31, a40, a41, a50, a51⟩ := index_maps t
  have hp : p.val < 2000 := p.isLt
  have hk : k.val < 16 := k.isLt
  show V c main_v48 (((cfg2.win 1).blk t).view.emb (ix2 p k)) = _
  refine congrArg _ (funext fun a => Fin.ext ?_)
  match a with
  | ⟨0, _⟩ => show win2_1.index t (0 : Fin 2) * 2000 + 1 * p.val = win2_5.index t (0 : Fin 2) * 2000 + 1 * p.val; omega
  | ⟨1, _⟩ => show win2_1.index t (1 : Fin 2) * 16 + 1 * k.val = k.val; omega

/-- The self-loop column's block read at (p, 0) is the column at the output block's row. -/
theorem read2 (c : Dev nD) (t : Fin cfg2.N) (p : Fin 2000) (q : Fin 300) :
    iblk2 V c 2 t (ix2 p 0) = V c main_v28 (ix2 ((((cfg2.win 5).blk t).view.emb (ix2 p q)) 0) 0) := by
  obtain ⟨a00, a01, a10, a11, a20, a21, a30, a31, a40, a41, a50, a51⟩ := index_maps t
  have hp : p.val < 2000 := p.isLt
  show V c main_v28 (((cfg2.win 2).blk t).view.emb (ix2 p 0)) = _
  refine congrArg _ (funext fun a => Fin.ext ?_)
  match a with
  | ⟨0, _⟩ => show win2_2.index t (0 : Fin 2) * 2000 + 1 * p.val = win2_5.index t (0 : Fin 2) * 2000 + 1 * p.val; omega
  | ⟨1, _⟩ => show win2_2.index t (1 : Fin 2) * 1 + 1 * 0 = 0; omega

/-- The output weights' block is the whole array. -/
theorem read3 (c : Dev nD) (t : Fin cfg2.N) (p : Fin 2000) (q : Fin 300) (k : Fin 16) :
    iblk2 V c 3 t (ix2 k q) = V c main_arg8 (ix2 k ((((cfg2.win 5).blk t).view.emb (ix2 p q)) 1)) := by
  obtain ⟨a00, a01, a10, a11, a20, a21, a30, a31, a40, a41, a50, a51⟩ := index_maps t
  have hq : q.val < 300 := q.isLt
  have hk : k.val < 16 := k.isLt
  show V c main_arg8 (((cfg2.win 3).blk t).view.emb (ix2 k q)) = _
  refine congrArg _ (funext fun a => Fin.ext ?_)
  match a with
  | ⟨0, _⟩ => show win2_3.index t (0 : Fin 2) * 16 + 1 * k.val = k.val; omega
  | ⟨1, _⟩ => show win2_3.index t (1 : Fin 2) * 300 + 1 * q.val = win2_5.index t (1 : Fin 2) * 300 + 1 * q.val; omega

/-- The bias row's block is the whole row. -/
theorem read4 (c : Dev nD) (t : Fin cfg2.N) (p : Fin 2000) (q : Fin 300) :
    iblk2 V c 4 t (ix2 0 q) = V c main_v62 (ix2 0 ((((cfg2.win 5).blk t).view.emb (ix2 p q)) 1)) := by
  obtain ⟨a00, a01, a10, a11, a20, a21, a30, a31, a40, a41, a50, a51⟩ := index_maps t
  have hq : q.val < 300 := q.isLt
  show V c main_v62 (((cfg2.win 4).blk t).view.emb (ix2 0 q)) = _
  refine congrArg _ (funext fun a => Fin.ext ?_)
  match a with
  | ⟨0, _⟩ => show win2_4.index t (0 : Fin 2) * 1 + 1 * 0 = 0; omega
  | ⟨1, _⟩ => show win2_4.index t (1 : Fin 2) * 300 + 1 * q.val = win2_5.index t (1 : Fin 2) * 300 + 1 * q.val; omega

/-- The logits of point `t`'s staged blocks are rows `2000 t …` of the whole-array logits. -/
theorem blockLogits_eq (c : Dev nD) (t : Fin cfg2.N) (p : Fin 2000) (q : Fin 300) :
    blockLogits (iblk2 V c 0 t) (iblk2 V c 1 t) (iblk2 V c 2 t) (iblk2 V c 3 t) (iblk2 V c 4 t) (ix2 p q)
      = logits (V c main_v61) (V c main_v48) (V c main_v28) (V c main_arg8) (V c main_v62) (((cfg2.win 5).blk t).view.emb (ix2 p q)) := by
  rw [blockLogits_apply, read4 V c t p q, read2 V c t p q]
  unfold logits
  refine congrArg (· + _) (Finset.sum_congr rfl fun k _ => ?_)
  rw [read0 V c t p q k, read1 V c t p q k, read3 V c t p q k]

set_option maxHeartbeats 1000000 in
/-- What grid point `t` writes back is block `t` of the kernel's log-softmax of the whole-array logits. -/
theorem flushed_eq (c : Dev nD) (t : Fin cfg2.N) :
    (dat2 V c).flushed 5 t = ((cfg2.win 5).blk t).view.read (Elt Ideal)
      (shiftedLogProb (n := 100000) (logits (V c main_v61) (V c main_v48) (V c main_v28) (V c main_arg8) (V c main_v62))) := by
  show (cfg2.win 5).cut (grid2.coords t) ((dat2 V c).after 5 t) = _
  rw [after2_5]
  unfold out2_5
  rw [View.canon_unit_zero origin2]
  simp only [View.ld_unit_zero (S := S2000x16) origin2, View.ld_unit_zero (S := S2000x1) origin2, View.ld_unit_zero (S := S16x300) origin2,
    View.ld_unit_zero (S := S1x300) origin2]
  funext j
  obtain ⟨p, q, rfl⟩ : ∃ (p : Fin 2000) (q : Fin 300), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = shiftedLogProb (n := 100000) (logits (V c main_v61) (V c main_v48) (V c main_v28) (V c main_arg8) (V c main_v62)) (((cfg2.win 5).blk t).view.emb (ix2 p q))
  rw [stored_apply]
  obtain ⟨a00, a01, a10, a11, a20, a21, a30, a31, a40, a41, a50, a51⟩ := index_maps t
  have hp : p.val < 2000 := p.isLt
  -- a column index of the block is the same column of the array
  have hcol : ∀ q' : Fin 300, ((cfg2.win 5).blk t).view.emb (ix2 p q') = ix2 ((((cfg2.win 5).blk t).view.emb (ix2 p q)) 0) q' := by
    intro q'
    have hq' : q'.val < 300 := q'.isLt
    refine funext fun a => Fin.ext ?_
    match a with
    | ⟨0, _⟩ => show win2_5.index t (0 : Fin 2) * 2000 + 1 * p.val = win2_5.index t (0 : Fin 2) * 2000 + 1 * p.val; rfl
    | ⟨1, _⟩ => show win2_5.index t (1 : Fin 2) * 300 + 1 * q'.val = q'.val; omega
  have hrow : ∀ q' : Fin 300, blockLogits (iblk2 V c 0 t) (iblk2 V c 1 t) (iblk2 V c 2 t) (iblk2 V c 3 t) (iblk2 V c 4 t) (ix2 p q')
      = logits (V c main_v61) (V c main_v48) (V c main_v28) (V c main_arg8) (V c main_v62) (ix2 ((((cfg2.win 5).blk t).view.emb (ix2 p q)) 0) q') := by
    intro q'
    exact (blockLogits_eq V c t p q').trans (congrArg _ (hcol q'))
  have hmax : rowMax (n := 2000) (blockLogits (iblk2 V c 0 t) (iblk2 V c 1 t) (iblk2 V c 2 t) (iblk2 V c 3 t) (iblk2 V c 4 t)) p
      = rowMax (n := 100000) (logits (V c main_v61) (V c main_v48) (V c main_v28) (V c main_arg8) (V c main_v62)) ((((cfg2.win 5).blk t).view.emb (ix2 p q)) 0) := by
    unfold rowMax
    exact congrArg (Finset.fold max ⊥ · Finset.univ) (funext fun q' => hrow q')
  unfold shiftedLogProb
  show blockLogits _ _ _ _ _ (ix2 p q) - (rowMax (n := 2000) _ p + Ideal.log (∑ j : Fin 300, Ideal.exp (blockLogits _ _ _ _ _ (ix2 p j) - rowMax (n := 2000) _ p))) = _
  rw [hmax, blockLogits_eq V c t p q]
  refine congrArg (fun s => _ - (_ + Ideal.log s)) (Finset.sum_congr rfl fun q' _ => ?_)
  rw [hrow q']

/-- An index of the output array is in point `t`'s block iff each coordinate is in the block's range. -/
theorem mem_block (t : Fin cfg2.N) (i : S100000x300.Idx) :
    i ∈ ((cfg2.win 5).blk t).view.set ↔ ∀ a : Fin 2, win2_5.index t a * S2000x300.size a ≤ (i a).val ∧ (i a).val < win2_5.index t a * S2000x300.size a + S2000x300.size a := by
  show i ∈ ((View.whole main_v63).slice (win2_5.rect t)).set ↔ _
  rw [View.set_slice_whole, Rect.mem_set_unit]
  exact Iff.rfl

/-- The 50 blocks of 2000 rows cover the 100000 rows. -/
theorem covered (i : S100000x300.Idx) : ∃ t : Fin cfg2.N, (cfg2.win 5).flush t = true ∧ i ∈ ((cfg2.win 5).blk t).view.set := by
  have hi0 : (i 0).val < 100000 := (i 0).isLt
  have hi1 : (i 1).val < 300 := (i 1).isLt
  obtain ⟨t, ht⟩ := point_of_block ⟨(i 0).val / 2000, by omega⟩
  have ht' : t.val = (i 0).val / 2000 := ht
  obtain ⟨a00, a01, a10, a11, a20, a21, a30, a31, a40, a41, a50, a51⟩ := index_maps t
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 300 ≤ (i 1).val ∧ (i 1).val < win2_5.index t (1 : Fin 2) * 300 + 300; omega

/-- THE OUTPUT ARRAY when region 2 is left: the kernel's log-softmax of the logits of the five input arrays as the
    region found them. -/
theorem final (c : Dev nD) : (dat2 V c).arrAt 5 cfg2.N
    = shiftedLogProb (n := 100000) (logits (V c main_v61) (V c main_v48) (V c main_v28) (V c main_arg8) (V c main_v62)) :=
  (dat2 V c).arrAt_eq_of_cover 5 _ (fun t _ => flushed_eq V c t) covered

end Cert.KernelIdeal.Region2

end
-- ==== Proof.KernelFold.lean ====
/-
  The kernel's buffers at the segment boundaries, as the reference's stages of the arguments.

  The generated frame names the buffer contents at every segment boundary of @main as a fold from the launch
  memory (`Gen.W1 … Gen.W6`: a host stretch rewrites the buffers its operations write, a region rewrites its
  arrays). The host stretches of the kernel are, operation for operation, the graph glue of the reference:
  the edge endpoints (two rows of the edge array), the in-degree plus one (a scatter-add of ones), its
  reciprocal square root gathered at both endpoints and multiplied (the edge weight), its reciprocal as a column
  (the self-loop weight), and per layer the gather of the node features at the sources, the scaling by the edge
  weight and the scatter-add at the targets. So a boundary buffer and the reference's stage of the same name
  are the same term of the arguments, and the equations below are read off the fold (`after_results`) and closed
  by unfolding; only the three region outputs need an argument, which is the three `final` theorems.

  Notation: `a0 … a9` are the argument arrays at launch, read at the reference's shapes.
-/
import proofs.«142930_j35184372088984_2_alg».proof.Proof.Gen.KernelIdeal.Frame
import proofs.«142930_j35184372088984_2_alg».proof.Proof.Region0Value
import proofs.«142930_j35184372088984_2_alg».proof.Proof.Region1Value
import proofs.«142930_j35184372088984_2_alg».proof.Proof.Region2Value
import proofs.«142930_j35184372088984_2_alg».proof.Proof.ReferenceReadP
import Idealize.ShloMosaic.Lib.StableHlo.Run

set_option maxRecDepth 65536

noncomputable section

namespace Cert.KernelIdeal.Fold

open Cert.KernelIdeal Cert.KernelIdeal.Gen Idealize.ShloMosaic Idealize.ShloMosaic.TcCoe Idealize.SL.Sem
open Idealize.ShloMosaic.ValueIdx Idealize.ShloMosaic.StableHlo
open Cert.ReferenceIdeal.ReadP

variable (m : (ℓ : Loc nD τ sig) → Buf (Elt Ideal) ℓ) (ρ : Dev nD → PrngReg) (c : Dev nD)

/-! ## The arguments at launch, at the reference's shapes -/

abbrev a0 : (⟨Cert.ReferenceIdeal.S100000x128, .f32⟩ : BufTy).Contents (Elt Ideal) := m ((c.tc : Thread nD τ).loc main_arg0)
abbrev a1 : (⟨Cert.ReferenceIdeal.S2x1600000, .i32⟩ : BufTy).Contents (Elt Ideal) := m ((c.tc : Thread nD τ).loc main_arg1)
abbrev a2 : (⟨Cert.ReferenceIdeal.S128x16, .f32⟩ : BufTy).Contents (Elt Ideal) := m ((c.tc : Thread nD τ).loc main_arg2)
abbrev a3 : (⟨Cert.ReferenceIdeal.S16, .f32⟩ : BufTy).Contents (Elt Ideal) := m ((c.tc : Thread nD τ).loc main_arg3)
abbrev a4 : (⟨Cert.ReferenceIdeal.S16, .f32⟩ : BufTy).Contents (Elt Ideal) := m ((c.tc : Thread nD τ).loc main_arg4)
abbrev a5 : (⟨Cert.ReferenceIdeal.S16, .f32⟩ : BufTy).Contents (Elt Ideal) := m ((c.tc : Thread nD τ).loc main_arg5)
abbrev a6 : (⟨Cert.ReferenceIdeal.S16, .f32⟩ : BufTy).Contents (Elt Ideal) := m ((c.tc : Thread nD τ).loc main_arg6)
abbrev a7 : (⟨Cert.ReferenceIdeal.S16, .f32⟩ : BufTy).Contents (Elt Ideal) := m ((c.tc : Thread nD τ).loc main_arg7)
abbrev a8 : (⟨Cert.ReferenceIdeal.S16x300, .f32⟩ : BufTy).Contents (Elt Ideal) := m ((c.tc : Thread nD τ).loc main_arg8)
abbrev a9 : (⟨Cert.ReferenceIdeal.S300, .f32⟩ : BufTy).Contents (Elt Ideal) := m ((c.tc : Thread nD τ).loc main_arg9)

/-! ## After the first host stretch: the graph terms -/

/-- The source endpoints. -/
theorem W1_v1 : W1 m ρ c (Proc.devRef .tc main_v1) = val_main_v1 (F := Ideal) (a1 m c) := by
  show StableHlo.after hostOps0 (W0 m ρ c) (Proc.devRef .tc main_v1) = _
  dsimp only [hostOps0]
  after_results
  rfl

/-- The target endpoints. -/
theorem W1_v3 : W1 m ρ c (Proc.devRef .tc main_v3) = val_main_v3 (F := Ideal) (a1 m c) := by
  show StableHlo.after hostOps0 (W0 m ρ c) (Proc.devRef .tc main_v3) = _
  dsimp only [hostOps0]
  after_results
  rfl

set_option maxHeartbeats 4000000 in
/-- The edge weight: the reciprocal square root of the degree at the source times that at the target. -/
theorem W1_v27 : W1 m ρ c (Proc.devRef .tc main_v27) = val_main_v25 (F := Ideal) (a1 m c) := by
  show StableHlo.after hostOps0 (W0 m ρ c) (Proc.devRef .tc main_v27) = _
  dsimp only [hostOps0]
  after_results
  rfl

set_option maxHeartbeats 4000000 in
/-- The self-loop weight column: one over the degree. -/
theorem W1_v28 : W1 m ρ c (Proc.devRef .tc main_v28) = val_main_v42 (F := Ideal) (a1 m c) := by
  show StableHlo.after hostOps0 (W0 m ρ c) (Proc.devRef .tc main_v28) = _
  dsimp only [hostOps0]
  after_results
  rfl

/-- The feature matrix and the first weights reach region 0 as launched. -/
theorem W1_arg0 : W1 m ρ c (Proc.devRef .tc main_arg0) = a0 m c := by
  show StableHlo.after hostOps0 (W0 m ρ c) (Proc.devRef .tc main_arg0) = _
  dsimp only [hostOps0]
  after_results
theorem W1_arg2 : W1 m ρ c (Proc.devRef .tc main_arg2) = a2 m c := by
  show StableHlo.after hostOps0 (W0 m ρ c) (Proc.devRef .tc main_arg2) = _
  dsimp only [hostOps0]
  after_results

/-! ## Region 0's output: the dense features -/

theorem lidx26 (i : Cert.ReferenceIdeal.S100000x16.Idx) (k : Fin 128) : lidx_main_v26 i k = ix2 (i 0) k :=
  funext fun a => Fin.ext (by match a with | ⟨0, _⟩ => rfl | ⟨1, _⟩ => rfl)
theorem ridx26 (i : Cert.ReferenceIdeal.S100000x16.Idx) (k : Fin 128) : ridx_main_v26 i k = ix2 k (i 1) :=
  funext fun a => Fin.ext (by match a with | ⟨0, _⟩ => rfl | ⟨1, _⟩ => rfl)

/-- rows × weights IS the reference's matrix product. -/
theorem rowsTimes_eq (x : (⟨Cert.ReferenceIdeal.S100000x128, .f32⟩ : BufTy).Contents (Elt Ideal)) (w : (⟨Cert.ReferenceIdeal.S128x16, .f32⟩ : BufTy).Contents (Elt Ideal)) :
    Region0.rowsTimes x w = val_main_v26 (F := Ideal) x w := by
  funext i
  rw [val_main_v26_apply]
  unfold Region0.rowsTimes
  refine Finset.sum_congr rfl fun k _ => ?_
  exact congrArg₂ (· * ·) (congrArg x (lidx26 i k).symm) (congrArg w (ridx26 i k).symm)

theorem W2_v29 : W2 m ρ c (Proc.devRef .tc main_v29) = val_main_v26 (F := Ideal) (a0 m c) (a2 m c) := by
  refine (W2_arr m ρ c 2).trans ?_
  rw [Region0.final (V1 m ρ) c]
  show Region0.rowsTimes (W1 m ρ c (Proc.devRef .tc main_arg0)) (W1 m ρ c (Proc.devRef .tc main_arg2)) = _
  rw [W1_arg0, W1_arg2, rowsTimes_eq]

/-- Region 0 leaves every buffer that is not one of its three arrays as it found it. -/
theorem W2_v1 : W2 m ρ c (Proc.devRef .tc main_v1) = val_main_v1 (F := Ideal) (a1 m c) :=
  (W2_of_ne m ρ c main_v1 (by decide)).trans (W1_v1 m ρ c)
theorem W2_v3 : W2 m ρ c (Proc.devRef .tc main_v3) = val_main_v3 (F := Ideal) (a1 m c) :=
  (W2_of_ne m ρ c main_v3 (by decide)).trans (W1_v3 m ρ c)
theorem W2_v27 : W2 m ρ c (Proc.devRef .tc main_v27) = val_main_v25 (F := Ideal) (a1 m c) :=
  (W2_of_ne m ρ c main_v27 (by decide)).trans (W1_v27 m ρ c)
theorem W2_v28 : W2 m ρ c (Proc.devRef .tc main_v28) = val_main_v42 (F := Ideal) (a1 m c) :=
  (W2_of_ne m ρ c main_v28 (by decide)).trans (W1_v28 m ρ c)

/-! ## After the second host stretch: region 1's eight inputs -/

set_option maxHeartbeats 4000000 in
/-- The first aggregate: the dense features gathered at the sources, scaled by the edge weight, added at the targets. -/
theorem W3_v42 : W3 m ρ c (Proc.devRef .tc main_v42) = val_main_v39 (F := Ideal) (a0 m c) (a1 m c) (a2 m c) := by
  show StableHlo.after hostOps1 (W2 m ρ c) (Proc.devRef .tc main_v42) = _
  dsimp only [hostOps1]
  after_results
  rw [W2_v29, W2_v1, W2_v3, W2_v27]
  rfl

theorem W3_v29 : W3 m ρ c (Proc.devRef .tc main_v29) = val_main_v26 (F := Ideal) (a0 m c) (a2 m c) := by
  show StableHlo.after hostOps1 (W2 m ρ c) (Proc.devRef .tc main_v29) = _
  dsimp only [hostOps1]
  after_results
  exact W2_v29 m ρ c
theorem W3_v1 : W3 m ρ c (Proc.devRef .tc main_v1) = val_main_v1 (F := Ideal) (a1 m c) := by
  show StableHlo.after hostOps1 (W2 m ρ c) (Proc.devRef .tc main_v1) = _
  dsimp only [hostOps1]
  after_results
  exact W2_v1 m ρ c
theorem W3_v3 : W3 m ρ c (Proc.devRef .tc main_v3) = val_main_v3 (F := Ideal) (a1 m c) := by
  show StableHlo.after hostOps1 (W2 m ρ c) (Proc.devRef .tc main_v3) = _
  dsimp only [hostOps1]
  after_results
  exact W2_v3 m ρ c
theorem W3_v27 : W3 m ρ c (Proc.devRef .tc main_v27) = val_main_v25 (F := Ideal) (a1 m c) := by
  show StableHlo.after hostOps1 (W2 m ρ c) (Proc.devRef .tc main_v27) = _
  dsimp only [hostOps1]
  after_results
  exact W2_v27 m ρ c
theorem W3_v28 : W3 m ρ c (Proc.devRef .tc main_v28) = val_main_v42 (F := Ideal) (a1 m c) := by
  show StableHlo.after hostOps1 (W2 m ρ c) (Proc.devRef .tc main_v28) = _
  dsimp only [hostOps1]
  after_results
  exact W2_v28 m ρ c

/-- A parameter vector reshaped to a row, after the second stretch (the five reshapes read the launch arrays, which
    neither the first stretch nor region 0 writes). -/
theorem W2_arg (b : Ref sig .tc) (hb0 : ∀ w, Pipeline.arrRef spec0 w ≠ b)
    (hb1 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb0).trans hb1

theorem W2_arg3 : W2 m ρ c (Proc.devRef .tc main_arg3) = a3 m c :=
  W2_arg m ρ c main_arg3 (by decide) (by dsimp only [hostOps0]; after_results)
theorem W2_arg4 : W2 m ρ c (Proc.devRef .tc main_arg4) = a4 m c :=
  W2_arg m ρ c main_arg4 (by decide) (by dsimp only [hostOps0]; after_results)
theorem W2_arg5 : W2 m ρ c (Proc.devRef .tc main_arg5) = a5 m c :=
  W2_arg m ρ c main_arg5 (by decide) (by dsimp only [hostOps0]; after_results)
theorem W2_arg6 : W2 m ρ c (Proc.devRef .tc main_arg6) = a6 m c :=
  W2_arg m ρ c main_arg6 (by decide) (by dsimp only [hostOps0]; after_results)
theorem W2_arg7 : W2 m ρ c (Proc.devRef .tc main_arg7) = a7 m c :=
  W2_arg m ρ c main_arg7 (by decide) (by dsimp only [hostOps0]; after_results)
theorem W2_arg8 : W2 m ρ c (Proc.devRef .tc main_arg8) = a8 m c :=
  W2_arg m ρ c main_arg8 (by decide) (by dsimp only [hostOps0]; after_results)
theorem W2_arg9 : W2 m ρ c (Proc.devRef .tc main_arg9) = a9 m c :=
  W2_arg m ρ c main_arg9 (by decide) (by dsimp only [hostOps0]; after_results)

theorem W3_v43 : W3 m ρ c (Proc.devRef .tc main_v43) = shapeCast Cert.ReferenceIdeal.S1x16 (a3 m c) (by decide) := by
  show StableHlo.after hostOps1 (W2 m ρ c) (Proc.devRef .tc main_v43) = _
  dsimp only [hostOps1]
  after_results
  rw [W2_arg3]
  rfl
theorem W3_v44 : W3 m ρ c (Proc.devRef .tc main_v44) = shapeCast Cert.ReferenceIdeal.S1x16 (a4 m c) (by decide) := by
  show StableHlo.after hostOps1 (W2 m ρ c) (Proc.devRef .tc main_v44) = _
  dsimp only [hostOps1]
  after_results
  rw [W2_arg4]
  rfl
theorem W3_v45 : W3 m ρ c (Proc.devRef .tc main_v45) = shapeCast Cert.ReferenceIdeal.S1x16 (a5 m c) (by decide) := by
  show StableHlo.after hostOps1 (W2 m ρ c) (Proc.devRef .tc main_v45) = _
  dsimp only [hostOps1]
  after_results
  rw [W2_arg5]
  rfl
theorem W3_v46 : W3 m ρ c (Proc.devRef .tc main_v46) = shapeCast Cert.ReferenceIdeal.S1x16 (a6 m c) (by decide) := by
  show StableHlo.after hostOps1 (W2 m ρ c) (Proc.devRef .tc main_v46) = _
  dsimp only [hostOps1]
  after_results
  rw [W2_arg6]
  rfl
theorem W3_v47 : W3 m ρ c (Proc.devRef .tc main_v47) = shapeCast Cert.ReferenceIdeal.S1x16 (a7 m c) (by decide) := by
  show StableHlo.after hostOps1 (W2 m ρ c) (Proc.devRef .tc main_v47) = _
  dsimp only [hostOps1]
  after_results
  rw [W2_arg7]
  rfl
theorem W3_arg8 : W3 m ρ c (Proc.devRef .tc main_arg8) = a8 m c := by
  show StableHlo.after hostOps1 (W2 m ρ c) (Proc.devRef .tc main_arg8) = _
  dsimp only [hostOps1]
  after_results
  exact W2_arg8 m ρ c
theorem W3_arg9 : W3 m ρ c (Proc.devRef .tc main_arg9) = a9 m c := by
  show StableHlo.after hostOps1 (W2 m ρ c) (Proc.devRef .tc main_arg9) = _
  dsimp only [hostOps1]
  after_results
  exact W2_arg9 m ρ c

/-- THE FIRST RESULT when region 1 is left: `normalized` of the reference's stages. -/
theorem W4_v48 : W4 m ρ c (Proc.devRef .tc main_v48)
    = Region1.normalized (val_main_v39 (F := Ideal) (a0 m c) (a1 m c) (a2 m c)) (val_main_v26 (F := Ideal) (a0 m c) (a2 m c))
        (val_main_v42 (F := Ideal) (a1 m c)) (shapeCast Cert.ReferenceIdeal.S1x16 (a3 m c) (by decide)) (shapeCast Cert.ReferenceIdeal.S1x16 (a4 m c) (by decide))
        (shapeCast Cert.ReferenceIdeal.S1x16 (a5 m c) (by decide)) (shapeCast Cert.ReferenceIdeal.S1x16 (a6 m c) (by decide)) (shapeCast Cert.ReferenceIdeal.S1x16 (a7 m c) (by decide)) := by
  refine (W4_arr m ρ c 8).trans ?_
  rw [Region1.final (V3 m ρ) c]
  show Region1.normalized (W3 m ρ c (Proc.devRef .tc main_v42)) (W3 m ρ c (Proc.devRef .tc main_v29)) (W3 m ρ c (Proc.devRef .tc main_v28))
    (W3 m ρ c (Proc.devRef .tc main_v43)) (W3 m ρ c (Proc.devRef .tc main_v44)) (W3 m ρ c (Proc.devRef .tc main_v45))
    (W3 m ρ c (Proc.devRef .tc main_v46)) (W3 m ρ c (Proc.devRef .tc main_v47)) = _
  rw [W3_v42, W3_v29, W3_v28, W3_v43, W3_v44, W3_v45, W3_v46, W3_v47]

/-- Region 1 leaves every buffer that is not one of its nine arrays as it found it. -/
theorem W4_v1 : W4 m ρ c (Proc.devRef .tc main_v1) = val_main_v1 (F := Ideal) (a1 m c) :=
  (W4_of_ne m ρ c main_v1 (by decide)).trans (W3_v1 m ρ c)
theorem W4_v3 : W4 m ρ c (Proc.devRef .tc main_v3) = val_main_v3 (F := Ideal) (a1 m c) :=
  (W4_of_ne m ρ c main_v3 (by decide)).trans (W3_v3 m ρ c)
theorem W4_v27 : W4 m ρ c (Proc.devRef .tc main_v27) = val_main_v25 (F := Ideal) (a1 m c) :=
  (W4_of_ne m ρ c main_v27 (by decide)).trans (W3_v27 m ρ c)
theorem W4_arg8 : W4 m ρ c (Proc.devRef .tc main_arg8) = a8 m c :=
  (W4_of_ne m ρ c main_arg8 (by decide)).trans (W3_arg8 m ρ c)
theorem W4_arg9 : W4 m ρ c (Proc.devRef .tc main_arg9) = a9 m c :=
  (W4_of_ne m ρ c main_arg9 (by decide)).trans (W3_arg9 m ρ c)
/-- The self-loop column is one of region 1's INPUT arrays: the region hands it back as it found it. -/
theorem W4_v28 : W4 m ρ c (Proc.devRef .tc main_v28) = val_main_v42 (F := Ideal) (a1 m c) :=
  (W4_arr m ρ c 2).trans ((((dat1 (V3 m ρ) c).arrAt_in 2 rfl _).trans (A_eq1 (V3 m ρ) c 2)).trans (W3_v28 m ρ c))

end Cert.KernelIdeal.Fold

end
-- ==== Proof.HiddenBridge.lean ====
/-
  The first result: the kernel's normalised hidden features ARE the reference's.

  The kernel's region 1 leaves `normalized agg feat self bias scale shift mean var` (Region1Value), the pointwise
  formula over whole arrays with the parameter vectors reshaped to rows [1, 16]. The reference computes the same
  formula as a chain of host operations with the parameter vectors broadcast to [100000, 16] through [1, 16] and
  the self-loop weight broadcast along the feature axis. Read at an index (r, j), both are

      ((agg (r, j) + feat (r, j) · self (r)) + bias (j) − mean (j)) · (rsqrt (var (j) + ε) · scale (j)) + shift (j)

  in the same association, so no algebra is needed: only the layout operations' index arithmetic.
-/
import proofs.«142930_j35184372088984_2_alg».proof.Proof.Region1Value
import proofs.«142930_j35184372088984_2_alg».proof.Proof.ReferenceReadP
import Idealize.ShloMosaic.Lib.ValueLayout

set_option maxRecDepth 65536

noncomputable section

namespace Cert.Bridge

open Idealize.ShloMosaic Idealize.ShloMosaic.ValueIdx
open Cert.ReferenceIdeal.ReadP

/-- A parameter vector of the 16 hidden features. -/
abbrev R16 : Type := (⟨Cert.ReferenceIdeal.S16, .f32⟩ : BufTy).Contents (Elt Ideal)

theorem idx43 (r : Fin 100000) (j : Fin 16) : idx_main_v43 (ix2 r j) = ix2 r 0 :=
  funext fun a => Fin.ext (by match a with | ⟨0, _⟩ => rfl | ⟨1, _⟩ => rfl)
theorem idx47 (r : Fin 100000) (j : Fin 16) : idx_main_v46 (idx_main_v47 (ix2 r j)) = ix1 j :=
  funext fun a => Fin.ext (by match a with | ⟨0, _⟩ => rfl)
theorem idx53 (r : Fin 100000) (j : Fin 16) : idx_main_v52 (idx_main_v53 (ix2 r j)) = ix1 j :=
  funext fun a => Fin.ext (by match a with | ⟨0, _⟩ => rfl)
theorem idx57 (r : Fin 100000) (j : Fin 16) : idx_main_v56 (idx_main_v57 (ix2 r j)) = ix1 j :=
  funext fun a => Fin.ext (by match a with | ⟨0, _⟩ => rfl)
theorem idx60 (r : Fin 100000) (j : Fin 16) : idx_main_v59 (idx_main_v60 (ix2 r j)) = ix1 j :=
  funext fun a => Fin.ext (by match a with | ⟨0, _⟩ => rfl)

/-- A parameter vector reshaped to a row, read at (0, j), is the vector at j. -/
theorem row_of_vec (x : R16) (h : (Cert.ReferenceIdeal.S16).ShapeCasts Cert.ReferenceIdeal.S1x16) (j : Fin 16) :
    shapeCast Cert.ReferenceIdeal.S1x16 x h (ix2 0 j) = x (ix1 j) :=
  shapeCast_a_1a_apply x h 0 j

/-- The reference's hidden features at (r, j), spelled out. -/
theorem reference_hidden_apply (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : R16) (r : Fin 100000) (j : Fin 16) :
    val_main_v61 (F := Ideal) x0 x1 x2 x3 x4 x5 x6 x7 (ix2 r j)
      = ((val_main_v39 (F := Ideal) x0 x1 x2 (ix2 r j) + val_main_v26 (F := Ideal) x0 x2 (ix2 r j) * val_main_v42 (F := Ideal) x1 (ix2 r 0))
            + x3 (ix1 j) - x6 (ix1 j))
          * (Ideal.rsqrt (x7 (ix1 j) + Ideal.ofBits .f32 0x3727C5AC#32) * x4 (ix1 j))
        + x5 (ix1 j) := by
  rw [val_main_v61_apply, val_main_v58_apply, val_main_v54_apply, val_main_v48_apply, val_main_v45_apply, val_main_v44_apply,
    val_main_v43_apply, val_main_v47_apply, val_main_v46_apply, val_main_v53_apply, val_main_v52_apply, val_main_v57_apply,
    val_main_v56_apply, val_main_v55_apply, val_main_v51_apply, val_main_v50_apply, val_main_v49_apply, val_main_cst_9_apply,
    val_main_v60_apply, val_main_v59_apply, idx43, idx47, idx53, idx57, idx60]
  rfl

/-- THE FIRST RESULT: the kernel's formula over the reference's stages is the reference's stage. -/
theorem hidden_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : R16)
    (h3 h4 h5 h6 h7 : (Cert.ReferenceIdeal.S16).ShapeCasts Cert.ReferenceIdeal.S1x16) :
    Cert.KernelIdeal.Region1.normalized (val_main_v39 (F := Ideal) x0 x1 x2) (val_main_v26 (F := Ideal) x0 x2) (val_main_v42 (F := Ideal) x1)
        (shapeCast Cert.ReferenceIdeal.S1x16 x3 h3) (shapeCast Cert.ReferenceIdeal.S1x16 x4 h4) (shapeCast Cert.ReferenceIdeal.S1x16 x5 h5) (shapeCast Cert.ReferenceIdeal.S1x16 x6 h6)
        (shapeCast Cert.ReferenceIdeal.S1x16 x7 h7)
      = val_main_v61 (F := Ideal) x0 x1 x2 x3 x4 x5 x6 x7 := by
  funext i
  obtain ⟨r, j, rfl⟩ : ∃ (r : Fin 100000) (j : Fin 16), i = ix2 r j := ⟨i 0, i 1, eq_ix2 i⟩
  rw [reference_hidden_apply]
  unfold Cert.KernelIdeal.Region1.normalized
  show ((val_main_v39 (F := Ideal) x0 x1 x2 (ix2 r j) + val_main_v26 (F := Ideal) x0 x2 (ix2 r j) * val_main_v42 (F := Ideal) x1 (ix2 r 0))
          + shapeCast Cert.ReferenceIdeal.S1x16 x3 h3 (ix2 0 j) - shapeCast Cert.ReferenceIdeal.S1x16 x6 h6 (ix2 0 j))
        * (Ideal.rsqrt (shapeCast Cert.ReferenceIdeal.S1x16 x7 h7 (ix2 0 j) + Ideal.ofBits .f32 0x3727C5AC#32) * shapeCast Cert.ReferenceIdeal.S1x16 x4 h4 (ix2 0 j))
      + shapeCast Cert.ReferenceIdeal.S1x16 x5 h5 (ix2 0 j) = _
  rw [row_of_vec, row_of_vec, row_of_vec, row_of_vec, row_of_vec]

end Cert.Bridge

end
-- ==== Proof.LibRealValued.lean ====
/-
  Extended reals that are real numbers, and arrays of them.

  At the exact instance a float is an extended real. Most algebraic laws that a
  kernel and its reference differ by (here: how a log-sum-exp shift is
  re-associated) hold for real numbers and fail at an infinity, so a value proof
  first has to know that the numbers it meets are real. This module fixes the
  predicate `IsReal x` ("x is the coercion of a real"), its array form
  `AllReal v`, and their closure under the exact operations: sums, differences,
  products, finite sums, maxima over a nonempty finite set, the reciprocal of a
  nonzero real, the reciprocal square root of a positive real and the exponential.

  It also holds the one law used at the end: for a real `m`,
  `a - (m + L) = (a - m) - L` for ALL extended reals `a` and `L`. (For `m = ⊤`
  the two sides differ: with `L = ⊥` the left is `⊤` and the right `⊥`.)
-/
import Mathlib
import Idealize.ShloMosaic.PureOps.Ideal
import Idealize.ShloMosaic.PureOps.Ideal.Laws

noncomputable section

namespace Cert.RealValued

open Idealize.ShloMosaic

/-- `x` is a real number (neither infinity). -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩
theorem isReal_zero : IsReal (0 : EReal) := ⟨0, by simp⟩
theorem isReal_one : IsReal (1 : EReal) := ⟨1, by simp⟩
theorem isPos_one : IsPos (1 : EReal) := ⟨1, one_pos, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rwa [max_eq_right h]
  · rwa [max_eq_left h]

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of a nonnegative real and finitely many nonnegative reals, plus a positive real, is positive: stated
    in the one form used (a count of ones plus one). -/
theorem IsPos.add_of_nonneg {x y : EReal} (hx : ∃ r : ℝ, 0 ≤ r ∧ x = (r : EReal)) (hy : IsPos y) : IsPos (x + y) := by
  obtain ⟨a, ha, rfl⟩ := hx; obtain ⟨b, hb, rfl⟩ := hy
  exact ⟨a + b, by linarith, (EReal.coe_add a b).symm⟩

/-- A finite sum of ones, from zero, is a nonnegative real. -/
theorem nonneg_zero_add_sum_one {ι : Type} (s : Finset ι) :
    ∃ r : ℝ, 0 ≤ r ∧ (0 : EReal) + ∑ _i ∈ s, (1 : EReal) = (r : EReal) := by
  refine ⟨(s.card : ℝ), Nat.cast_nonneg _, ?_⟩
  rw [Finset.sum_const, zero_add]
  simp [nsmul_eq_mul]

/-- The maximum of `⊥` and the values of a real-valued function over a NONEMPTY finite set is a real number. -/
theorem isReal_fold_max {ι : Type} (s : Finset ι) (f : ι → EReal) (hs : s.Nonempty) (h : ∀ i ∈ s, IsReal (f i)) :
    IsReal (s.fold max ⊥ f) := by
  classical
  induction s using Finset.induction_on with
  | empty => exact absurd hs (by simp)
  | insert a s ha ih =>
    rw [Finset.fold_insert ha]
    rcases s.eq_empty_or_nonempty with hse | hsn
    · subst hse
      rw [Finset.fold_empty, max_eq_left bot_le]
      exact h a (Finset.mem_insert_self a _)
    · exact isReal_max (h a (Finset.mem_insert_self a s)) (ih hsn fun i hi => h i (Finset.mem_insert_of_mem hi))

/-- The reciprocal square root of a positive real is a positive real. -/
theorem IsPos.rsqrt {x : EReal} (hx : IsPos x) : IsPos (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- One over a positive real is a real. -/
theorem IsPos.one_div {x : EReal} (hx : IsPos x) : IsReal (Ideal.div 1 x) := by
  obtain ⟨r, hr, rfl⟩ := hx
  rw [Ideal.div_coe hr.ne']
  exact isReal_one.mul (isReal_coe _)

/-- The exponential of a real is a real. -/
theorem IsReal.exp {x : EReal} (hx : IsReal x) : IsReal (Ideal.exp x) := by
  obtain ⟨r, rfl⟩ := hx; exact ⟨Real.exp r, Ideal.exp_coe r⟩

/-- The pattern of `-∞` denotes the bottom element. -/
theorem ofBits_neg_inf : Ideal.ofBits .f32 0xFF800000#32 = ⊥ := by simp [Ideal.ofBits, Ideal.ieee]

/-- THE LAW that joins the two spellings of a log-softmax: a REAL shift `m` moves across the difference,
    whatever `a` and `L` are. -/
theorem sub_add_real (a L : EReal) (m : ℝ) : a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

/-- Every entry of the array is a real number. -/
def AllReal {ι : Type} (v : ι → EReal) : Prop := ∀ i, IsReal (v i)

/-- Every entry of the array is a positive real number. -/
def AllPos {ι : Type} (v : ι → EReal) : Prop := ∀ i, IsPos (v i)

theorem AllPos.allReal {ι : Type} {v : ι → EReal} (h : AllPos v) : AllReal v := fun i => (h i).isReal

/-- Reading a real-valued array through any index function gives a real-valued array (a broadcast, a reshape, a
    slice, a gather: each result element IS one operand element). -/
theorem AllReal.comp {ι κ : Type} {v : ι → EReal} (h : AllReal v) (g : κ → ι) : AllReal (fun j => v (g j)) :=
  fun j => h (g j)

theorem AllPos.comp {ι κ : Type} {v : ι → EReal} (h : AllPos v) (g : κ → ι) : AllPos (fun j => v (g j)) :=
  fun j => h (g j)

end Cert.RealValued

end
-- ==== Proof.OutputLogits.lean ====
/-
  The kernel's logits ARE the reference's.

  Both are the mixed features `agg₂ + h · (1 / d)` times the output weights plus the bias: the kernel's as a sum over
  the 16 hidden features at an index, the reference's as a host matrix product of broadcast stages. Read at (r, j)
  they agree term by term; only the layout operations' index arithmetic is needed.
-/
import proofs.«142930_j35184372088984_2_alg».proof.Proof.Region2Value
import proofs.«142930_j35184372088984_2_alg».proof.Proof.ReferenceReadP
import proofs.«142930_j35184372088984_2_alg».proof.Proof.LibRealValued
import Idealize.ShloMosaic.Lib.ValueLayout

set_option maxRecDepth 65536

noncomputable section

namespace Cert.Bridge

open Idealize.ShloMosaic Idealize.ShloMosaic.ValueIdx
open Cert.ReferenceIdeal.ReadP Cert.RealValued
open Cert.KernelIdeal.Region2 (logits rowMax shiftedLogProb)

/-! ## The logits -/

theorem idx100 (r : Fin 100000) (k : Fin 16) : idx_main_v100 (ix2 r k) = ix2 r 0 :=
  funext fun a => Fin.ext (by match a with | ⟨0, _⟩ => rfl | ⟨1, _⟩ => rfl)
theorem lidx103 (r : Fin 100000) (j : Fin 300) (k : Fin 16) : lidx_main_v103 (ix2 r j) k = ix2 r k :=
  funext fun a => Fin.ext (by match a with | ⟨0, _⟩ => rfl | ⟨1, _⟩ => rfl)
theorem ridx103 (r : Fin 100000) (j : Fin 300) (k : Fin 16) : ridx_main_v103 (ix2 r j) k = ix2 k j :=
  funext fun a => Fin.ext (by match a with | ⟨0, _⟩ => rfl | ⟨1, _⟩ => rfl)
theorem idx105 (r : Fin 100000) (j : Fin 300) : idx_main_v104 (idx_main_v105 (ix2 r j)) = ix1 j :=
  funext fun a => Fin.ext (by match a with | ⟨0, _⟩ => rfl)

/-- The kernel's logits over the reference's stages are the reference's logits. -/
theorem logits_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : (⟨Cert.ReferenceIdeal.S16, .f32⟩ : BufTy).Contents (Elt Ideal))
    (x8 : (⟨Cert.ReferenceIdeal.S16x300, .f32⟩ : BufTy).Contents (Elt Ideal)) (x9 : (⟨Cert.ReferenceIdeal.S300, .f32⟩ : BufTy).Contents (Elt Ideal))
    (h9 : (Cert.ReferenceIdeal.S300).ShapeCasts Cert.ReferenceIdeal.S1x300) :
    logits (val_main_v96 (F := Ideal) x0 x1 x2 x3 x4 x5 x6 x7) (val_main_v61 (F := Ideal) x0 x1 x2 x3 x4 x5 x6 x7) (val_main_v99 (F := Ideal) x1) x8
        (shapeCast Cert.ReferenceIdeal.S1x300 x9 h9)
      = val_main_v106 (F := Ideal) x0 x1 x2 x3 x4 x5 x6 x7 x8 x9 := by
  funext i
  obtain ⟨r, j, rfl⟩ : ∃ (r : Fin 100000) (j : Fin 300), i = ix2 r j := ⟨i 0, i 1, eq_ix2 i⟩
  rw [val_main_v106_apply, val_main_v103_apply, val_main_v105_apply, val_main_v104_apply, idx105]
  unfold logits
  show (∑ k : Fin 16, (val_main_v96 (F := Ideal) x0 x1 x2 x3 x4 x5 x6 x7 (ix2 r k)
        + val_main_v61 (F := Ideal) x0 x1 x2 x3 x4 x5 x6 x7 (ix2 r k) * val_main_v99 (F := Ideal) x1 (ix2 r 0)) * x8 (ix2 k j))
      + shapeCast Cert.ReferenceIdeal.S1x300 x9 h9 (ix2 0 j) = _
  rw [shapeCast_a_1a_apply]
  refine congrArg (· + x9 (ix1 j)) (Finset.sum_congr rfl fun k _ => ?_)
  rw [lidx103, ridx103, val_main_v102_apply, val_main_v101_apply, val_main_v100_apply, idx100]
  rfl

end Cert.Bridge

end
-- ==== Proof.OutputRowMax.lean ====
/-
  The reference's row maximum.

  `jax.nn.log_softmax` takes the row maximum of the logits `z` as a host reduction by maximum from −∞ over the class
  axis, followed by a maximum with −∞ (a guard that changes nothing). For a commutative and associative operation a
  one-axis reduction is the fold over that axis's coordinates, so at row `r` it is the maximum from the bottom element
  of `z (r, ·)`: the same `rowMax` the kernel's lane reduction is.
-/
import proofs.«142930_j35184372088984_2_alg».proof.Proof.Region2Value
import proofs.«142930_j35184372088984_2_alg».proof.Proof.ReferenceReadP
import proofs.«142930_j35184372088984_2_alg».proof.Proof.LibRealValued
import Idealize.ShloMosaic.PureOps.Reduce
import Idealize.ShloMosaic.PureOps.Ideal.Laws

set_option maxRecDepth 65536

noncomputable section

namespace Cert.Bridge

open Idealize.ShloMosaic Idealize.ShloMosaic.ValueIdx
open Cert.ReferenceIdeal.ReadP Cert.RealValued
open Cert.KernelIdeal.Region2 (logits rowMax shiftedLogProb)

/-- The reference's row maximum (a host reduction with `maximum` from −∞, then a maximum with −∞) is the row's
    maximum from the bottom element. -/
theorem reference_rowMax (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : (⟨Cert.ReferenceIdeal.S16, .f32⟩ : BufTy).Contents (Elt Ideal))
    (x8 : (⟨Cert.ReferenceIdeal.S16x300, .f32⟩ : BufTy).Contents (Elt Ideal)) (x9 : (⟨Cert.ReferenceIdeal.S300, .f32⟩ : BufTy).Contents (Elt Ideal)) (r : Fin 100000) :
    val_main_call0_v2 (F := Ideal) x0 x1 x2 x3 x4 x5 x6 x7 x8 x9 (ix1 r)
      = rowMax (n := 100000) (val_main_v106 (F := Ideal) x0 x1 x2 x3 x4 x5 x6 x7 x8 x9) r := by
  have hred : (Cert.ReferenceIdeal.S100000x300).Reduces [(1 : Fin 2)] Cert.ReferenceIdeal.S100000 := by decide
  have key : val_main_call0_v0 (F := Ideal) x0 x1 x2 x3 x4 x5 x6 x7 x8 x9 (ix1 r)
      = (Finset.univ : Finset (Fin 300)).fold max (FloatOps.ofBits (F := Ideal) .f32 0xFF800000#32)
          ((val_main_v106 (F := Ideal) x0 x1 x2 x3 x4 x5 x6 x7 x8 x9) ∘ hred.lift (ix1 r)) :=
    Host.reduce_eq_fold_single _ _ _ _ hred _ (ix1 r)
  rw [val_main_call0_v2_apply, val_main_call0_v1_apply, val_main_call0_cst_0_apply, key]
  have e : FloatOps.ofBits (F := Ideal) .f32 0xFF800000#32 = (⊥ : EReal) := ofBits_neg_inf
  show max (FloatOps.ofBits (F := Ideal) .f32 0xFF800000#32)
      ((Finset.univ : Finset (Fin 300)).fold max (FloatOps.ofBits (F := Ideal) .f32 0xFF800000#32)
        ((val_main_v106 (F := Ideal) x0 x1 x2 x3 x4 x5 x6 x7 x8 x9) ∘ hred.lift (ix1 r))) = _
  rw [e, max_eq_right bot_le]
  unfold rowMax
  refine congrArg (fun f => (Finset.univ : Finset (Fin 300)).fold max ⊥ f) (funext fun q => ?_)
  have hl : hred.lift (ix1 r) q = ix2 r q := funext fun a => Fin.ext (by
    match a with
    | ⟨0, _⟩ => rfl
    | ⟨1, _⟩ => rfl)
  rw [Function.comp_apply, hl]
  rfl

end Cert.Bridge

end
-- ==== Proof.OutputReference.lean ====
/-
  The reference's log-softmax, read at an index.

  `jax.nn.log_softmax` is outlined as a function of the logits `z`: the row maximum `M`, the shifted logits `z − M`,
  their exponentials summed along the row from 0, the logarithm, and `(z − M) − log Σ`. At (r, j) this is spelled out
  with `M (r)` the row's maximum from the bottom element (OutputRowMax).
-/
import proofs.«142930_j35184372088984_2_alg».proof.Proof.OutputRowMax

set_option maxRecDepth 65536

noncomputable section

namespace Cert.Bridge

open Idealize.ShloMosaic Idealize.ShloMosaic.ValueIdx
open Cert.ReferenceIdeal.ReadP Cert.RealValued
open Cert.KernelIdeal.Region2 (logits rowMax shiftedLogProb)

/-! ## The reference's log-softmax at an index -/

theorem idxc4 (r : Fin 100000) (j : Fin 300) : idx_main_call0_v3 (idx_main_call0_v4 (ix2 r j)) = ix1 r :=
  funext fun a => Fin.ext (by match a with | ⟨0, _⟩ => rfl)
theorem idxc10 (r : Fin 100000) (j : Fin 300) : idx_main_call0_v8 (idx_main_call0_v10 (ix2 r j)) = ix1 r :=
  funext fun a => Fin.ext (by match a with | ⟨0, _⟩ => rfl)
theorem idxc7 (r : Fin 100000) (k : Fin 300) : idx_main_call0_v7 (ix1 r) k = ix2 r k :=
  funext fun a => Fin.ext (by match a with | ⟨0, _⟩ => rfl | ⟨1, _⟩ => rfl)

/-- The reference's log-probability at (r, j): the shifted logit minus the log of the row's sum of exponentials of the
    shifted logits. -/
theorem reference_logprob_apply (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : (⟨Cert.ReferenceIdeal.S16, .f32⟩ : BufTy).Contents (Elt Ideal))
    (x8 : (⟨Cert.ReferenceIdeal.S16x300, .f32⟩ : BufTy).Contents (Elt Ideal)) (x9 : (⟨Cert.ReferenceIdeal.S300, .f32⟩ : BufTy).Contents (Elt Ideal)) (r : Fin 100000) (j : Fin 300) :
    val_main_v107 (F := Ideal) x0 x1 x2 x3 x4 x5 x6 x7 x8 x9 (ix2 r j)
      = (val_main_v106 (F := Ideal) x0 x1 x2 x3 x4 x5 x6 x7 x8 x9 (ix2 r j) - rowMax (n := 100000) (val_main_v106 (F := Ideal) x0 x1 x2 x3 x4 x5 x6 x7 x8 x9) r)
          - Ideal.log (∑ k : Fin 300, Ideal.exp (val_main_v106 (F := Ideal) x0 x1 x2 x3 x4 x5 x6 x7 x8 x9 (ix2 r k) - rowMax (n := 100000) (val_main_v106 (F := Ideal) x0 x1 x2 x3 x4 x5 x6 x7 x8 x9) r)) := by
  have hshift : ∀ k : Fin 300, val_main_call0_v5 (F := Ideal) x0 x1 x2 x3 x4 x5 x6 x7 x8 x9 (ix2 r k)
      = val_main_v106 (F := Ideal) x0 x1 x2 x3 x4 x5 x6 x7 x8 x9 (ix2 r k) - rowMax (n := 100000) (val_main_v106 (F := Ideal) x0 x1 x2 x3 x4 x5 x6 x7 x8 x9) r := by
    intro k
    rw [val_main_call0_v5_apply, val_main_call0_v4_apply, val_main_call0_v3_apply, idxc4, reference_rowMax, Ideal.subf_def]
  rw [val_main_v107_apply, hshift j, val_main_call0_v10_apply, val_main_call0_v9_apply, val_main_call0_v8_apply, idxc10,
    val_main_call0_v7_apply, val_main_call0_cst_1_apply, Ideal.subf_def, Ideal.hostUnary_log_def, Ideal.ofBits_def,
    Ideal.ofBits_zero_f32, zero_add]
  refine congrArg (fun s => (val_main_v106 (F := Ideal) x0 x1 x2 x3 x4 x5 x6 x7 x8 x9 (ix2 r j) - rowMax (n := 100000) (val_main_v106 (F := Ideal) x0 x1 x2 x3 x4 x5 x6 x7 x8 x9) r) - Ideal.log s) (Finset.sum_congr rfl fun k _ => ?_)
  rw [idxc7, val_main_call0_v6_apply, hshift k, Ideal.hostUnary_exp_def]

end Cert.Bridge

end
-- ==== Proof.OutputBridge.lean ====
/-
  The second result: the kernel's log-probabilities ARE the reference's, where the logits are real numbers.

  Both programs form the same logits `z` (the mixed features times the output weights plus the bias; read at an
  index the two spellings agree term by term) and the same row maximum `M (r)` from −∞. They differ in how the
  log-sum-exp shift is associated:

      kernel      z (r, j) − (M (r) + log Σ_j' exp (z (r, j') − M (r)))
      reference   (z (r, j) − M (r)) − log Σ_j' exp (z (r, j') − M (r))

  For a REAL `M (r)` these are equal for every extended real `z (r, j)` and every value of the logarithm
  (`sub_add_real`); for `M (r) = +∞` they are not (the sum of exponentials is then 0, its logarithm −∞, and the
  kernel's form is +∞ where the reference's is −∞). `M (r)` is real when the row's 300 logits are.
-/
import proofs.«142930_j35184372088984_2_alg».proof.Proof.OutputLogits
import proofs.«142930_j35184372088984_2_alg».proof.Proof.OutputReference

set_option maxRecDepth 65536

noncomputable section

namespace Cert.Bridge

open Idealize.ShloMosaic Idealize.ShloMosaic.ValueIdx
open Cert.ReferenceIdeal.ReadP Cert.RealValued
open Cert.KernelIdeal.Region2 (logits rowMax shiftedLogProb)

/-! ## The two spellings agree on real logits -/

/-- The kernel's spelling at (r, j), for any logits. -/
theorem shiftedLogProb_apply {n : Nat} (z : (⟨2, ![n, 300]⟩ : Shape).Idx → EReal) (r : Fin n) (j : Fin 300) :
    shiftedLogProb z (ix2 r j)
      = z (ix2 r j) - (rowMax z r + Ideal.log (∑ q : Fin 300, Ideal.exp (z (ix2 r q) - rowMax z r))) := rfl

/-- THE SECOND RESULT: where every logit is a real number, the kernel's log-softmax of the reference's logits is the
    reference's log-softmax. -/
theorem logprob_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x16, .f32⟩ : BufTy).Contents (Elt Ideal)) (x3 x4 x5 x6 x7 : (⟨Cert.ReferenceIdeal.S16, .f32⟩ : BufTy).Contents (Elt Ideal))
    (x8 : (⟨Cert.ReferenceIdeal.S16x300, .f32⟩ : BufTy).Contents (Elt Ideal)) (x9 : (⟨Cert.ReferenceIdeal.S300, .f32⟩ : BufTy).Contents (Elt Ideal))
    (hz : AllReal (val_main_v106 (F := Ideal) x0 x1 x2 x3 x4 x5 x6 x7 x8 x9)) :
    shiftedLogProb (n := 100000) (val_main_v106 (F := Ideal) x0 x1 x2 x3 x4 x5 x6 x7 x8 x9)
      = val_main_v107 (F := Ideal) x0 x1 x2 x3 x4 x5 x6 x7 x8 x9 := by
  funext i
  obtain ⟨r, j, rfl⟩ : ∃ (r : Fin 100000) (j : Fin 300), i = ix2 r j := ⟨i 0, i 1, eq_ix2 i⟩
  rw [reference_logprob_apply, shiftedLogProb_apply]
  obtain ⟨mr, hmr⟩ : IsReal (rowMax (n := 100000) (val_main_v106 (F := Ideal) x0 x1 x2 x3 x4 x5 x6 x7 x8 x9) r) := by
    unfold rowMax
    exact isReal_fold_max _ _ ⟨0, Finset.mem_univ _⟩ (fun q _ => hz (ix2 r q))
  rw [hmr]
  exact sub_add_real _ _ mr

end Cert.Bridge

end
-- ==== Proof.LibRealHostOps.lean ====
/-
  Real-valued arrays stay real-valued under the host operations of a graph convolution, at the exact instance.

  A layout operation (broadcast, reshape, gather) makes each result element ONE operand element; a pointwise sum,
  difference or product combines two; a matrix product and a scatter-add are finite sums of products / of update
  elements on top of an operand element. So an array of real numbers goes to an array of real numbers through all
  of them, whatever the integer index arrays hold. Two operations need more than "real": a reciprocal square root
  and a reciprocal are real where their argument is a POSITIVE real, which is what a degree count plus one is
  (a scatter-add of ones into zeros, plus one).
-/
import proofs.«142930_j35184372088984_2_alg».proof.Proof.LibRealValued
import Idealize.ShloMosaic.PureOps.Ideal.Laws

noncomputable section

namespace Cert.RealValued

open Idealize.ShloMosaic

variable {s t u si sl sr so : Shape} {w : Nat}

/-- Every entry is a nonnegative real number. -/
def AllNonneg {ι : Type} (v : ι → EReal) : Prop := ∀ i, ∃ r : ℝ, 0 ≤ r ∧ v i = (r : EReal)

theorem AllNonneg.allReal {ι : Type} {v : ι → EReal} (h : AllNonneg v) : AllReal v := fun i => let ⟨r, _, e⟩ := h i; ⟨r, e⟩

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)

theorem allReal_broadcastInDim {x : FVec Ideal s .f32} (hx : AllReal x) (dims : Fin s.rank → Fin t.rank) (h : s.BroadcastsInDim t dims) :
    AllReal (broadcastInDim t dims h x) := fun _ => hx _
theorem allPos_broadcastInDim {x : FVec Ideal s .f32} (hx : AllPos x) (dims : Fin s.rank → Fin t.rank) (h : s.BroadcastsInDim t dims) :
    AllPos (broadcastInDim t dims h x) := fun _ => hx _
theorem allReal_shapeCast {x : FVec Ideal s .f32} (hx : AllReal x) (h : s.ShapeCasts t) : AllReal (shapeCast t x h) := fun _ => hx _
theorem allReal_gather {x : FVec Ideal s .f32} (hx : AllReal x) (d : GatherDims s si t) (idx : IVec si w) :
    AllReal (Host.gather d x idx) := fun _ => hx _

/-- A constant array is real-valued when its pattern denotes a real. -/
theorem allReal_constant (b : BitVec 32) (hb : IsReal (Ideal.ofBits .f32 b)) : AllReal (constant (F := Ideal) s .f32 b) := fun _ => hb

/-- A scatter-add of real updates into a real operand. -/
theorem allReal_scatterAdd {x : FVec Ideal s .f32} {upd : FVec Ideal u .f32} (hx : AllReal x) (hu : AllReal upd)
    (d : ScatterDims s si u) (idx : IVec si w) : AllReal (Host.scatterAdd d x idx upd) := fun i => by
  show IsReal (x i + ∑ j ∈ Finset.univ.filter (fun j => d.resultIdx? j idx = some i), upd j)
  exact (hx i).add (IsReal.sum _ _ fun j _ => hu j)

/-- A matrix product of real operands. -/
theorem allReal_dotGeneral {l : FVec Ideal sl .f32} {r : FVec Ideal sr .f32} (hl : AllReal l) (hr : AllReal r)
    (d : DotDims sl sr so) (prec : Option ContractPrecision) : AllReal (Host.dotGeneral d prec l r) := fun j => by
  show IsReal (FloatOps.dotGeneral (F := Ideal) d prec .single l r j)
  rw [Ideal.dotGeneral_apply]
  exact IsReal.sum _ _ fun k _ => (hl _).mul (hr _)

/-- A count of ones scattered into zeros, plus one, is a positive real at every node. -/
theorem allPos_count_add_one {z o' : FVec Ideal s .f32} {o : FVec Ideal u .f32} (hz : ∀ i, z i = 0) (ho : ∀ j, o j = 1) (ho' : ∀ i, o' i = 1)
    (d : ScatterDims s si u) (idx : IVec si w) : AllPos (addf (Host.scatterAdd d z idx o) o') := fun i => by
  show IsPos ((z i + ∑ j ∈ Finset.univ.filter (fun j => d.resultIdx? j idx = some i), o j) + o' i)
  rw [hz, ho', Finset.sum_congr rfl (fun j _ => ho j)]
  exact IsPos.add_of_nonneg (nonneg_zero_add_sum_one _) isPos_one

/-- The reciprocal square root of a positive array. -/
theorem allPos_hostRsqrt {x : FVec Ideal s .f32} (hx : AllPos x) : AllPos (Host.rsqrt x) := fun i => (hx i).rsqrt

/-- One over a positive array. -/
theorem allReal_one_hostDivf {o x : FVec Ideal s .f32} (ho : ∀ i, o i = 1) (hx : AllPos x) : AllReal (Host.divf o x) := fun i => by
  show IsReal (Ideal.div (o i) (x i))
  rw [ho]
  exact (hx i).one_div

/-- A nonnegative array plus a positive constant is positive. -/
theorem allPos_add_const {x c : FVec Ideal s .f32} (hx : AllNonneg x) {e : EReal} (he : IsPos e) (hc : ∀ i, c i = e) : AllPos (addf x c) := fun i => by
  show IsPos (x i + c i)
  rw [hc]
  exact IsPos.add_of_nonneg (hx i) he

end Cert.RealValued

end
-- ==== Proof.ReferenceRealStages.lean ====
/-
  The reference's logits are real numbers when the inputs are.

  Stage by stage through the reference: the degree is a count plus one, a positive real, so its reciprocal square root
  and its reciprocal are real; gathers, broadcasts and reshapes move real entries around; products, sums,
  differences, the two matrix products and the two scatter-adds of real arrays are real; and the batch normalisation's
  reciprocal square root is taken of the running variance plus ε, a positive real because the variance is not negative
  and ε (the f32 word 0x3727C5AC) is positive. Nothing is assumed of the integer edge array: every stage is real
  whatever it holds. The hypothesis on the inputs is `RealArgs`: every float input real, the variance nonnegative.
-/
import proofs.«142930_j35184372088984_2_alg».proof.Proof.ReferenceReadP
import proofs.«142930_j35184372088984_2_alg».proof.Proof.LibRealHostOps

set_option maxRecDepth 65536

noncomputable section

namespace Cert.ReferenceIdeal.RealStages

open Cert.ReferenceIdeal Cert.ReferenceIdeal.Gen Idealize.ShloMosaic
open Cert.ReferenceIdeal.ReadP Cert.RealValued

/-! ## The literals -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem isReal_ofBits_zero : IsReal (Ideal.ofBits .f32 0x00000000#32) := by rw [ofBits_zero]; exact isReal_zero
/-- ε, the f32 nearest 1e-5, is a positive real: (2^23 + 2606508) · 2^(−40). -/
theorem isPos_eps : IsPos (Ideal.ofBits .f32 0x3727C5AC#32) := by
  refine ⟨((2 ^ 23 + 2606508 : ℕ) : ℝ) * (2 : ℝ) ^ ((110 : ℤ) - 127 - 23), by positivity, ?_⟩
  simp [Ideal.ofBits, Ideal.ieee, -EReal.coe_mul]

/-! ## The inputs -/

/-- Every float input is real-valued, and the running variance is not negative. -/
structure RealArgs (x0 : (⟨S100000x128, .f32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) : Prop where
  h0 : AllReal x0
  h2 : AllReal x2
  h3 : AllReal x3
  h4 : AllReal x4
  h5 : AllReal x5
  h6 : AllReal x6
  h7 : AllNonneg x7
  h8 : AllReal x8
  h9 : AllReal x9

/-! ## The stages that depend on the graph only -/

theorem pos_v9 (x1 : (⟨S2x1600000, .i32⟩ : BufTy).Contents (Elt Ideal)) : AllPos (val_main_v9 (F := Ideal) x1) := by
  unfold val_main_v9 val_main_v7
  exact allPos_count_add_one (z := val_main_v5 (F := Ideal)) (o := val_main_v4 (F := Ideal)) (o' := val_main_v8 (F := Ideal)) (fun _ => ofBits_zero) (fun _ => ofBits_one) (fun _ => ofBits_one) _ _
theorem pos_v10 (x1 : (⟨S2x1600000, .i32⟩ : BufTy).Contents (Elt Ideal)) : AllPos (val_main_v10 (F := Ideal) x1) := by
  unfold val_main_v10
  exact allPos_hostRsqrt (pos_v9 x1)
theorem real_v17 (x1 : (⟨S2x1600000, .i32⟩ : BufTy).Contents (Elt Ideal)) : AllReal (val_main_v17 (F := Ideal) x1) := by
  unfold val_main_v17
  exact allReal_gather (pos_v10 x1).allReal _ _
theorem real_v24 (x1 : (⟨S2x1600000, .i32⟩ : BufTy).Contents (Elt Ideal)) : AllReal (val_main_v24 (F := Ideal) x1) := by
  unfold val_main_v24
  exact allReal_gather (pos_v10 x1).allReal _ _
theorem real_v25 (x1 : (⟨S2x1600000, .i32⟩ : BufTy).Contents (Elt Ideal)) : AllReal (val_main_v25 (F := Ideal) x1) := by
  unfold val_main_v25
  exact allReal_mulf (real_v17 x1) (real_v24 x1)
theorem real_v34 (x1 : (⟨S2x1600000, .i32⟩ : BufTy).Contents (Elt Ideal)) : AllReal (val_main_v34 (F := Ideal) x1) := by
  unfold val_main_v34
  exact allReal_broadcastInDim (real_v25 x1) _ _
theorem real_v35 (x1 : (⟨S2x1600000, .i32⟩ : BufTy).Contents (Elt Ideal)) : AllReal (val_main_v35 (F := Ideal) x1) := by
  unfold val_main_v35
  exact allReal_broadcastInDim (real_v34 x1) _ _
theorem real_v41 (x1 : (⟨S2x1600000, .i32⟩ : BufTy).Contents (Elt Ideal)) : AllReal (val_main_v41 (F := Ideal) x1) := by
  unfold val_main_v41
  exact allReal_one_hostDivf (o := val_main_v40 (F := Ideal)) (fun _ => ofBits_one) (pos_v9 x1)
theorem real_v42 (x1 : (⟨S2x1600000, .i32⟩ : BufTy).Contents (Elt Ideal)) : AllReal (val_main_v42 (F := Ideal) x1) := by
  unfold val_main_v42
  exact allReal_broadcastInDim (real_v41 x1) _ _
theorem real_v43 (x1 : (⟨S2x1600000, .i32⟩ : BufTy).Contents (Elt Ideal)) : AllReal (val_main_v43 (F := Ideal) x1) := by
  unfold val_main_v43
  exact allReal_broadcastInDim (real_v42 x1) _ _
theorem pos_v67 (x1 : (⟨S2x1600000, .i32⟩ : BufTy).Contents (Elt Ideal)) : AllPos (val_main_v67 (F := Ideal) x1) := by
  unfold val_main_v67 val_main_v65
  exact allPos_count_add_one (z := val_main_v63 (F := Ideal)) (o := val_main_v62 (F := Ideal)) (o' := val_main_v66 (F := Ideal)) (fun _ => ofBits_zero) (fun _ => ofBits_one) (fun _ => ofBits_one) _ _
theorem pos_v68 (x1 : (⟨S2x1600000, .i32⟩ : BufTy).Contents (Elt Ideal)) : AllPos (val_main_v68 (F := Ideal) x1) := by
  unfold val_main_v68
  exact allPos_hostRsqrt (pos_v67 x1)
theorem real_v75 (x1 : (⟨S2x1600000, .i32⟩ : BufTy).Contents (Elt Ideal)) : AllReal (val_main_v75 (F := Ideal) x1) := by
  unfold val_main_v75
  exact allReal_gather (pos_v68 x1).allReal _ _
theorem real_v82 (x1 : (⟨S2x1600000, .i32⟩ : BufTy).Contents (Elt Ideal)) : AllReal (val_main_v82 (F := Ideal) x1) := by
  unfold val_main_v82
  exact allReal_gather (pos_v68 x1).allReal _ _
theorem real_v83 (x1 : (⟨S2x1600000, .i32⟩ : BufTy).Contents (Elt Ideal)) : AllReal (val_main_v83 (F := Ideal) x1) := by
  unfold val_main_v83
  exact allReal_mulf (real_v75 x1) (real_v82 x1)
theorem real_v92 (x1 : (⟨S2x1600000, .i32⟩ : BufTy).Contents (Elt Ideal)) : AllReal (val_main_v92 (F := Ideal) x1) := by
  unfold val_main_v92 val_main_v91
  exact allReal_broadcastInDim (allReal_broadcastInDim (real_v83 x1) _ _) _ _
theorem real_v98 (x1 : (⟨S2x1600000, .i32⟩ : BufTy).Contents (Elt Ideal)) : AllReal (val_main_v98 (F := Ideal) x1) := by
  unfold val_main_v98
  exact allReal_one_hostDivf (o := val_main_v97 (F := Ideal)) (fun _ => ofBits_one) (pos_v67 x1)
theorem real_v100 (x1 : (⟨S2x1600000, .i32⟩ : BufTy).Contents (Elt Ideal)) : AllReal (val_main_v100 (F := Ideal) x1) := by
  unfold val_main_v100 val_main_v99
  exact allReal_broadcastInDim (allReal_broadcastInDim (real_v98 x1) _ _) _ _

/-! ## The stages that depend on the float inputs -/

theorem real_v26 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v26 (F := Ideal) x0 x2) := by
  unfold val_main_v26
  exact allReal_dotGeneral H.h0 H.h2 _ _
theorem real_v33 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v33 (F := Ideal) x0 x1 x2) := by
  unfold val_main_v33
  exact allReal_gather (real_v26 x0 x1 x2 x3 x4 x5 x6 x7 x8 x9 H) _ _
theorem real_v36 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v36 (F := Ideal) x0 x1 x2) := by
  unfold val_main_v36
  exact allReal_mulf (real_v33 x0 x1 x2 x3 x4 x5 x6 x7 x8 x9 H) (real_v35 x1)
theorem real_v39 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v39 (F := Ideal) x0 x1 x2) := by
  unfold val_main_v39
  exact allReal_scatterAdd (fun _ => isReal_ofBits_zero) (real_v36 x0 x1 x2 x3 x4 x5 x6 x7 x8 x9 H) _ _
theorem real_v44 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v44 (F := Ideal) x0 x1 x2) := by
  unfold val_main_v44
  exact allReal_mulf (real_v26 x0 x1 x2 x3 x4 x5 x6 x7 x8 x9 H) (real_v43 x1)
theorem real_v45 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v45 (F := Ideal) x0 x1 x2) := by
  unfold val_main_v45
  exact allReal_addf (real_v39 x0 x1 x2 x3 x4 x5 x6 x7 x8 x9 H) (real_v44 x0 x1 x2 x3 x4 x5 x6 x7 x8 x9 H)
theorem real_v47 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v47 (F := Ideal) x3) := by
  unfold val_main_v47 val_main_v46
  exact allReal_broadcastInDim (allReal_broadcastInDim H.h3 _ _) _ _
theorem real_v48 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v48 (F := Ideal) x0 x1 x2 x3) := by
  unfold val_main_v48
  exact allReal_addf (real_v45 x0 x1 x2 x3 x4 x5 x6 x7 x8 x9 H) (real_v47 x0 x1 x2 x3 x4 x5 x6 x7 x8 x9 H)
theorem pos_v50 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllPos (val_main_v50 (F := Ideal) x7) := by
  unfold val_main_v50
  exact allPos_add_const (c := val_main_v49 (F := Ideal)) H.h7 isPos_eps (fun _ => rfl)
theorem pos_v51 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllPos (val_main_v51 (F := Ideal) x7) := by
  unfold val_main_v51
  exact allPos_hostRsqrt (pos_v50 x0 x1 x2 x3 x4 x5 x6 x7 x8 x9 H)
theorem real_v53 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v53 (F := Ideal) x6) := by
  unfold val_main_v53 val_main_v52
  exact allReal_broadcastInDim (allReal_broadcastInDim H.h6 _ _) _ _
theorem real_v54 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v54 (F := Ideal) x0 x1 x2 x3 x6) := by
  unfold val_main_v54
  exact allReal_subf (real_v48 x0 x1 x2 x3 x4 x5 x6 x7 x8 x9 H) (real_v53 x0 x1 x2 x3 x4 x5 x6 x7 x8 x9 H)
theorem real_v55 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v55 (F := Ideal) x4 x7) := by
  unfold val_main_v55
  exact allReal_mulf (pos_v51 x0 x1 x2 x3 x4 x5 x6 x7 x8 x9 H).allReal H.h4
theorem real_v57 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v57 (F := Ideal) x4 x7) := by
  unfold val_main_v57 val_main_v56
  exact allReal_broadcastInDim (allReal_broadcastInDim (real_v55 x0 x1 x2 x3 x4 x5 x6 x7 x8 x9 H) _ _) _ _
theorem real_v58 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v58 (F := Ideal) x0 x1 x2 x3 x4 x6 x7) := by
  unfold val_main_v58
  exact allReal_mulf (real_v54 x0 x1 x2 x3 x4 x5 x6 x7 x8 x9 H) (real_v57 x0 x1 x2 x3 x4 x5 x6 x7 x8 x9 H)
theorem real_v60 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v60 (F := Ideal) x5) := by
  unfold val_main_v60 val_main_v59
  exact allReal_broadcastInDim (allReal_broadcastInDim H.h5 _ _) _ _
theorem real_v61 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v61 (F := Ideal) x0 x1 x2 x3 x4 x5 x6 x7) := by
  unfold val_main_v61
  exact allReal_addf (real_v58 x0 x1 x2 x3 x4 x5 x6 x7 x8 x9 H) (real_v60 x0 x1 x2 x3 x4 x5 x6 x7 x8 x9 H)
theorem real_v90 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v90 (F := Ideal) x0 x1 x2 x3 x4 x5 x6 x7) := by
  unfold val_main_v90
  exact allReal_gather (real_v61 x0 x1 x2 x3 x4 x5 x6 x7 x8 x9 H) _ _
theorem real_v93 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v93 (F := Ideal) x0 x1 x2 x3 x4 x5 x6 x7) := by
  unfold val_main_v93
  exact allReal_mulf (real_v90 x0 x1 x2 x3 x4 x5 x6 x7 x8 x9 H) (real_v92 x1)
theorem real_v96 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v96 (F := Ideal) x0 x1 x2 x3 x4 x5 x6 x7) := by
  unfold val_main_v96
  exact allReal_scatterAdd (fun _ => isReal_ofBits_zero) (real_v93 x0 x1 x2 x3 x4 x5 x6 x7 x8 x9 H) _ _
theorem real_v101 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v101 (F := Ideal) x0 x1 x2 x3 x4 x5 x6 x7) := by
  unfold val_main_v101
  exact allReal_mulf (real_v61 x0 x1 x2 x3 x4 x5 x6 x7 x8 x9 H) (real_v100 x1)
theorem real_v102 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v102 (F := Ideal) x0 x1 x2 x3 x4 x5 x6 x7) := by
  unfold val_main_v102
  exact allReal_addf (real_v96 x0 x1 x2 x3 x4 x5 x6 x7 x8 x9 H) (real_v101 x0 x1 x2 x3 x4 x5 x6 x7 x8 x9 H)
theorem real_v103 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v103 (F := Ideal) x0 x1 x2 x3 x4 x5 x6 x7 x8) := by
  unfold val_main_v103
  exact allReal_dotGeneral (real_v102 x0 x1 x2 x3 x4 x5 x6 x7 x8 x9 H) H.h8 _ _
theorem real_v105 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v105 (F := Ideal) x9) := by
  unfold val_main_v105 val_main_v104
  exact allReal_broadcastInDim (allReal_broadcastInDim H.h9 _ _) _ _
theorem real_v106 (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v106 (F := Ideal) x0 x1 x2 x3 x4 x5 x6 x7 x8 x9) := by
  unfold val_main_v106
  exact allReal_addf (real_v103 x0 x1 x2 x3 x4 x5 x6 x7 x8 x9 H) (real_v105 x0 x1 x2 x3 x4 x5 x6 x7 x8 x9 H)

/-- THE LOGITS are real-valued. -/
theorem logits_real (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal)) (H : RealArgs x0 x2 x3 x4 x5 x6 x7 x8 x9) :
    AllReal (val_main_v106 (F := Ideal) x0 x1 x2 x3 x4 x5 x6 x7 x8 x9) := real_v106 x0 x1 x2 x3 x4 x5 x6 x7 x8 x9 H

end Cert.ReferenceIdeal.RealStages

end
-- ==== Proof.KernelResults.lean ====
/-
  The kernel's two results as the reference's stages of the arguments.

  The last third of the fold: the third host stretch gathers the hidden features at the sources, scales by the edge
  weight and adds at the targets (the second aggregate), and reshapes the output bias to a row; region 2 forms the
  logits and its log-softmax. With the first result already identified with the reference's hidden features
  (HiddenBridge), the second aggregate is the reference's, the logits are the reference's (OutputBridge,
  `logits_eq`), and the kernel's spelling of the log-softmax is the reference's wherever the logits are real
  numbers (`logprob_eq`) — which they are when every float input is real and the variance is not negative
  (ReferenceRealStages).
-/
import proofs.«142930_j35184372088984_2_alg».proof.Proof.KernelFold
import proofs.«142930_j35184372088984_2_alg».proof.Proof.HiddenBridge
import proofs.«142930_j35184372088984_2_alg».proof.Proof.OutputBridge
import proofs.«142930_j35184372088984_2_alg».proof.Proof.ReferenceRealStages

set_option maxRecDepth 65536

noncomputable section

namespace Cert.KernelIdeal.Fold

open Cert.KernelIdeal Cert.KernelIdeal.Gen Idealize.ShloMosaic Idealize.ShloMosaic.TcCoe Idealize.SL.Sem
open Idealize.ShloMosaic.ValueIdx Idealize.ShloMosaic.StableHlo
open Cert.ReferenceIdeal.ReadP

variable (m : (ℓ : Loc nD τ sig) → Buf (Elt Ideal) ℓ) (ρ : Dev nD → PrngReg) (c : Dev nD)

/-- THE FIRST RESULT when region 1 is left: the reference's hidden features. -/
theorem W4_hidden : W4 m ρ c (Proc.devRef .tc main_v48) = val_main_v61 (F := Ideal) (a0 m c) (a1 m c) (a2 m c) (a3 m c) (a4 m c) (a5 m c) (a6 m c) (a7 m c) :=
  (W4_v48 m ρ c).trans (Cert.Bridge.hidden_eq _ _ _ _ _ _ _ _ _ _ _ _ _)

/-! ## After the third host stretch: region 2's five inputs -/

set_option maxHeartbeats 4000000 in
/-- The second aggregate: the hidden features gathered at the sources, scaled by the edge weight, added at the targets. -/
theorem W5_v61 : W5 m ρ c (Proc.devRef .tc main_v61) = val_main_v96 (F := Ideal) (a0 m c) (a1 m c) (a2 m c) (a3 m c) (a4 m c) (a5 m c) (a6 m c) (a7 m c) := by
  show StableHlo.after hostOps2 (W4 m ρ c) (Proc.devRef .tc main_v61) = _
  dsimp only [hostOps2]
  after_results
  rw [W4_hidden, W4_v1, W4_v3, W4_v27]
  rfl

theorem W5_v48 : W5 m ρ c (Proc.devRef .tc main_v48) = val_main_v61 (F := Ideal) (a0 m c) (a1 m c) (a2 m c) (a3 m c) (a4 m c) (a5 m c) (a6 m c) (a7 m c) := by
  show StableHlo.after hostOps2 (W4 m ρ c) (Proc.devRef .tc main_v48) = _
  dsimp only [hostOps2]
  after_results
  exact W4_hidden m ρ c

set_option maxHeartbeats 4000000 in
/-- The self-loop column again (the reference computes it a second time: the same term). -/
theorem W5_v28 : W5 m ρ c (Proc.devRef .tc main_v28) = val_main_v99 (F := Ideal) (a1 m c) := by
  show StableHlo.after hostOps2 (W4 m ρ c) (Proc.devRef .tc main_v28) = _
  dsimp only [hostOps2]
  after_results
  exact (W4_v28 m ρ c).trans rfl

theorem W5_arg8 : W5 m ρ c (Proc.devRef .tc main_arg8) = a8 m c := by
  show StableHlo.after hostOps2 (W4 m ρ c) (Proc.devRef .tc main_arg8) = _
  dsimp only [hostOps2]
  after_results
  exact W4_arg8 m ρ c

theorem W5_v62 : W5 m ρ c (Proc.devRef .tc main_v62) = shapeCast Cert.ReferenceIdeal.S1x300 (a9 m c) (by decide) := by
  show StableHlo.after hostOps2 (W4 m ρ c) (Proc.devRef .tc main_v62) = _
  dsimp only [hostOps2]
  after_results
  rw [W4_arg9]
  rfl

/-! ## The two results when @main returns -/

/-- The hidden features are one of region 2's INPUT arrays: the region hands them back as it found them. -/
theorem result_hidden : W6 m ρ c (Proc.devRef .tc main_v48) = val_main_v61 (F := Ideal) (a0 m c) (a1 m c) (a2 m c) (a3 m c) (a4 m c) (a5 m c) (a6 m c) (a7 m c) :=
  (W6_arr m ρ c 1).trans ((((dat2 (V5 m ρ) c).arrAt_in 1 rfl _).trans (A_eq2 (V5 m ρ) c 1)).trans (W5_v48 m ρ c))

/-- The log-probabilities, in the kernel's spelling, over the reference's logits. -/
theorem W6_v63 : W6 m ρ c (Proc.devRef .tc main_v63)
    = Region2.shiftedLogProb (n := 100000) (val_main_v106 (F := Ideal) (a0 m c) (a1 m c) (a2 m c) (a3 m c) (a4 m c) (a5 m c) (a6 m c) (a7 m c) (a8 m c) (a9 m c)) := by
  refine (W6_arr m ρ c 5).trans ?_
  rw [Region2.final (V5 m ρ) c]
  show Region2.shiftedLogProb (n := 100000) (Region2.logits (W5 m ρ c (Proc.devRef .tc main_v61)) (W5 m ρ c (Proc.devRef .tc main_v48))
    (W5 m ρ c (Proc.devRef .tc main_v28)) (W5 m ρ c (Proc.devRef .tc main_arg8)) (W5 m ρ c (Proc.devRef .tc main_v62))) = _
  rw [W5_v61, W5_v48, W5_v28, W5_arg8, W5_v62, Cert.Bridge.logits_eq]

/-- THE SECOND RESULT, where every float input is real and the variance is not negative: the reference's
    log-probabilities. -/
theorem result_logprob (H : Cert.ReferenceIdeal.RealStages.RealArgs (a0 m c) (a2 m c) (a3 m c) (a4 m c) (a5 m c) (a6 m c) (a7 m c) (a8 m c) (a9 m c)) :
    W6 m ρ c (Proc.devRef .tc main_v63) = val_main_v107 (F := Ideal) (a0 m c) (a1 m c) (a2 m c) (a3 m c) (a4 m c) (a5 m c) (a6 m c) (a7 m c) (a8 m c) (a9 m c) :=
  (W6_v63 m ρ c).trans (Cert.Bridge.logprob_eq _ _ _ _ _ _ _ _ _ _ (Cert.ReferenceIdeal.RealStages.logits_real _ _ _ _ _ _ _ _ _ _ H))

end Cert.KernelIdeal.Fold

end
-- ==== Proof.ReferenceStages.lean ====
/-
  The reference's two results as its stages of the arguments, read off the fold of its 145 host operations in four
  chunks.

  The run of a host-only program ends with every buffer at the fold of the operation list over the launch contents
  (`ValueP.run_fold`). Reading a late buffer back as ONE term of the arguments repeats every shared intermediate at
  each of its uses — the hidden features alone are used three times by the second layer — and the term outgrows
  what can be checked. So the list is cut where the sharing is: after the graph terms and the dense features
  (34 operations), after the hidden features (40 more), after the logits (56 more), and the log-softmax (15). Each chunk
  is evaluated over an ARBITRARY incoming valuation `W` of which only the few buffers the chunk reads are known
  (as stages `ReadP.val_…` of the arguments), so the shared intermediates stay folded; a buffer a chunk does not
  write it keeps. Chained, the four give the two results as `val_main_v61` and `val_main_v107` of the arguments.
-/
import proofs.«142930_j35184372088984_2_alg».proof.Proof.ReferenceRunP
import proofs.«142930_j35184372088984_2_alg».proof.Proof.ReferenceReadP

set_option maxRecDepth 65536

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The operation list in three chunks (the program's text, cut after `main_v26` and after `main_v61`) -/

/-- Operations 1–34: the edge endpoints, the degree, the edge weight, the dense features. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)),
    binary main_arg0 main_arg2 main_v26 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]

/-- Operations 35–74: the first layer's messages, aggregate, self-loop, bias and normalisation. -/
abbrev opsB : List (HloOp τ sig (Elt F)) :=
  [ nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v26 main_v32 main_v33 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v25 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x16 ![0, 1] bcast_S1600000x1_S1600000x16_0_1 : (⟨S1600000x1, .f32⟩ : BufTy).Contents (Elt F) → (⟨S1600000x16, .f32⟩ : BufTy).Contents (Elt F)),
    binary main_v33 main_v35 main_v36 (mulf : (⟨S1600000x16, .f32⟩ : BufTy).Contents (Elt F) → (⟨S1600000x16, .f32⟩ : BufTy).Contents (Elt F) → (⟨S1600000x16, .f32⟩ : BufTy).Contents (Elt F)),
    nullary main_cst_7 (constant S_ .f32 0x00000000#32),
    unary main_cst_7 main_v37 (broadcastInDim S100000x16 ![] bcast_S_S100000x16 : (⟨S_, .f32⟩ : BufTy).Contents (Elt F) → (⟨S100000x16, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    nullary main_cst_8 (constant S_ .f32 0x3F800000#32),
    unary main_cst_8 main_v40 (broadcastInDim S100000 ![] bcast_S_S100000 : (⟨S_, .f32⟩ : BufTy).Contents (Elt F) → (⟨S100000, .f32⟩ : BufTy).Contents (Elt F)),
    binary main_v40 main_v9 main_v41 (Host.divf : (⟨S100000, .f32⟩ : BufTy).Contents (Elt F) → (⟨S100000, .f32⟩ : BufTy).Contents (Elt F) → (⟨S100000, .f32⟩ : BufTy).Contents (Elt F)),
    unary main_v41 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x16 ![0, 1] bcast_S100000x1_S100000x16_0_1 : (⟨S100000x1, .f32⟩ : BufTy).Contents (Elt F) → (⟨S100000x16, .f32⟩ : BufTy).Contents (Elt F)),
    binary main_v26 main_v43 main_v44 (mulf : (⟨S100000x16, .f32⟩ : BufTy).Contents (Elt F) → (⟨S100000x16, .f32⟩ : BufTy).Contents (Elt F) → (⟨S100000x16, .f32⟩ : BufTy).Contents (Elt F)),
    binary main_v39 main_v44 main_v45 (addf : (⟨S100000x16, .f32⟩ : BufTy).Contents (Elt F) → (⟨S100000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    nullary main_cst_9 (constant S_ .f32 0x3727C5AC#32),
    unary main_cst_9 main_v49 (broadcastInDim S16 ![] bcast_S_S16 : (⟨S_, .f32⟩ : BufTy).Contents (Elt F) → (⟨S16, .f32⟩ : BufTy).Contents (Elt F)),
    binary main_arg7 main_v49 main_v50 (addf : (⟨S16, .f32⟩ : BufTy).Contents (Elt F) → (⟨S16, .f32⟩ : BufTy).Contents (Elt F) → (⟨S16, .f32⟩ : BufTy).Contents (Elt F)),
    unary main_v50 main_v51 (Host.rsqrt : (⟨S16, .f32⟩ : BufTy).Contents (Elt F) → (⟨S16, .f32⟩ : BufTy).Contents (Elt F)),
    unary main_arg6 main_v52 (broadcastInDim S1x16 ![1] bcast_S16_S1x16_1 : (⟨S16, .f32⟩ : BufTy).Contents (Elt F) → (⟨S1x16, .f32⟩ : BufTy).Contents (Elt F)),
    unary main_v52 main_v53 (broadcastInDim S100000x16 ![0, 1] bcast_S1x16_S100000x16_0_1 : (⟨S1x16, .f32⟩ : BufTy).Contents (Elt F) → (⟨S100000x16, .f32⟩ : BufTy).Contents (Elt F)),
    binary main_v48 main_v53 main_v54 (subf : (⟨S100000x16, .f32⟩ : BufTy).Contents (Elt F) → (⟨S100000x16, .f32⟩ : BufTy).Contents (Elt F) → (⟨S100000x16, .f32⟩ : BufTy).Contents (Elt F)),
    binary main_v51 main_arg4 main_v55 (mulf : (⟨S16, .f32⟩ : BufTy).Contents (Elt F) → (⟨S16, .f32⟩ : BufTy).Contents (Elt F) → (⟨S16, .f32⟩ : BufTy).Contents (Elt F)),
    unary main_v55 main_v56 (broadcastInDim S1x16 ![1] bcast_S16_S1x16_1 : (⟨S16, .f32⟩ : BufTy).Contents (Elt F) → (⟨S1x16, .f32⟩ : BufTy).Contents (Elt F)),
    unary main_v56 main_v57 (broadcastInDim S100000x16 ![0, 1] bcast_S1x16_S100000x16_0_1 : (⟨S1x16, .f32⟩ : BufTy).Contents (Elt F) → (⟨S100000x16, .f32⟩ : BufTy).Contents (Elt F)),
    binary main_v54 main_v57 main_v58 (mulf : (⟨S100000x16, .f32⟩ : BufTy).Contents (Elt F) → (⟨S100000x16, .f32⟩ : BufTy).Contents (Elt F) → (⟨S100000x16, .f32⟩ : BufTy).Contents (Elt F)),
    unary main_arg5 main_v59 (broadcastInDim S1x16 ![1] bcast_S16_S1x16_1 : (⟨S16, .f32⟩ : BufTy).Contents (Elt F) → (⟨S1x16, .f32⟩ : BufTy).Contents (Elt F)),
    unary main_v59 main_v60 (broadcastInDim S100000x16 ![0, 1] bcast_S1x16_S100000x16_0_1 : (⟨S1x16, .f32⟩ : BufTy).Contents (Elt F) → (⟨S100000x16, .f32⟩ : BufTy).Contents (Elt F)),
    binary main_v58 main_v60 main_v61 (addf : (⟨S100000x16, .f32⟩ : BufTy).Contents (Elt F) → (⟨S100000x16, .f32⟩ : BufTy).Contents (Elt F) → (⟨S100000x16, .f32⟩ : BufTy).Contents (Elt F)) ]

/-- Operations 75–130: the graph terms again, the second layer, the output product and bias (the logits). -/
abbrev opsC : List (HloOp τ sig (Elt F)) :=
  [ nullary main_cst_10 (constant S_ .f32 0x3F800000#32),
    unary main_cst_10 main_v62 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v63 (broadcastInDim S100000 ![] bcast_S_S100000 : (⟨S_, .f32⟩ : BufTy).Contents (Elt F) → (⟨S100000, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x3F800000#32),
    unary main_cst_12 main_v66 (broadcastInDim S100000 ![] bcast_S_S100000 : (⟨S_, .f32⟩ : BufTy).Contents (Elt F) → (⟨S100000, .f32⟩ : BufTy).Contents (Elt F)),
    binary main_v65 main_v66 main_v67 (addf : (⟨S100000, .f32⟩ : BufTy).Contents (Elt F) → (⟨S100000, .f32⟩ : BufTy).Contents (Elt F) → (⟨S100000, .f32⟩ : BufTy).Contents (Elt F)),
    unary main_v67 main_v68 (Host.rsqrt : (⟨S100000, .f32⟩ : BufTy).Contents (Elt F) → (⟨S100000, .f32⟩ : BufTy).Contents (Elt F)),
    nullary main_c_13 (constantI S_ 32 0#32),
    unary main_c_13 main_v69 (broadcastInDim S1600000 ![] bcast_S_S1600000 : (⟨S_, .i32⟩ : BufTy).Contents (Elt F) → (⟨S1600000, .i32⟩ : BufTy).Contents (Elt F)),
    binary main_v1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v71 (broadcastInDim S1600000 ![] bcast_S_S1600000 : (⟨S_, .i32⟩ : BufTy).Contents (Elt F) → (⟨S1600000, .i32⟩ : BufTy).Contents (Elt F)),
    binary main_v1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_15 (constantI S_ 32 0#32),
    unary main_c_15 main_v76 (broadcastInDim S1600000 ![] bcast_S_S1600000 : (⟨S_, .i32⟩ : BufTy).Contents (Elt F) → (⟨S1600000, .i32⟩ : BufTy).Contents (Elt F)),
    binary main_v3 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v78 (broadcastInDim S1600000 ![] bcast_S_S1600000 : (⟨S_, .i32⟩ : BufTy).Contents (Elt F) → (⟨S1600000, .i32⟩ : BufTy).Contents (Elt F)),
    binary main_v3 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v3 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v68 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v75 main_v82 main_v83 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v84 (broadcastInDim S1600000 ![] bcast_S_S1600000 : (⟨S_, .i32⟩ : BufTy).Contents (Elt F) → (⟨S1600000, .i32⟩ : BufTy).Contents (Elt F)),
    binary main_v1 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v86 (broadcastInDim S1600000 ![] bcast_S_S1600000 : (⟨S_, .i32⟩ : BufTy).Contents (Elt F) → (⟨S1600000, .i32⟩ : BufTy).Contents (Elt F)),
    binary main_v1 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v61 main_v89 main_v90 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v83 main_v91 (broadcastInDim S1600000x1 ![0] bcast_S1600000_S1600000x1_0 : (⟨S1600000, .f32⟩ : BufTy).Contents (Elt F) → (⟨S1600000x1, .f32⟩ : BufTy).Contents (Elt F)),
    unary main_v91 main_v92 (broadcastInDim S1600000x16 ![0, 1] bcast_S1600000x1_S1600000x16_0_1 : (⟨S1600000x1, .f32⟩ : BufTy).Contents (Elt F) → (⟨S1600000x16, .f32⟩ : BufTy).Contents (Elt F)),
    binary main_v90 main_v92 main_v93 (mulf : (⟨S1600000x16, .f32⟩ : BufTy).Contents (Elt F) → (⟨S1600000x16, .f32⟩ : BufTy).Contents (Elt F) → (⟨S1600000x16, .f32⟩ : BufTy).Contents (Elt F)),
    nullary main_cst_19 (constant S_ .f32 0x00000000#32),
    unary main_cst_19 main_v94 (broadcastInDim S100000x16 ![] bcast_S_S100000x16 : (⟨S_, .f32⟩ : BufTy).Contents (Elt F) → (⟨S100000x16, .f32⟩ : BufTy).Contents (Elt F)),
    unary main_v3 main_v95 (broadcastInDim S1600000x1 ![0] bcast_S1600000_S1600000x1_0 : (⟨S1600000, .i32⟩ : BufTy).Contents (Elt F) → (⟨S1600000x1, .i32⟩ : BufTy).Contents (Elt F)),
    ternary main_v94 main_v95 main_v93 main_v96 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    nullary main_cst_20 (constant S_ .f32 0x3F800000#32),
    unary main_cst_20 main_v97 (broadcastInDim S100000 ![] bcast_S_S100000 : (⟨S_, .f32⟩ : BufTy).Contents (Elt F) → (⟨S100000, .f32⟩ : BufTy).Contents (Elt F)),
    binary main_v97 main_v67 main_v98 (Host.divf : (⟨S100000, .f32⟩ : BufTy).Contents (Elt F) → (⟨S100000, .f32⟩ : BufTy).Contents (Elt F) → (⟨S100000, .f32⟩ : BufTy).Contents (Elt F)),
    unary main_v98 main_v99 (broadcastInDim S100000x1 ![0] bcast_S100000_S100000x1_0 : (⟨S100000, .f32⟩ : BufTy).Contents (Elt F) → (⟨S100000x1, .f32⟩ : BufTy).Contents (Elt F)),
    unary main_v99 main_v100 (broadcastInDim S100000x16 ![0, 1] bcast_S100000x1_S100000x16_0_1 : (⟨S100000x1, .f32⟩ : BufTy).Contents (Elt F) → (⟨S100000x16, .f32⟩ : BufTy).Contents (Elt F)),
    binary main_v61 main_v100 main_v101 (mulf : (⟨S100000x16, .f32⟩ : BufTy).Contents (Elt F) → (⟨S100000x16, .f32⟩ : BufTy).Contents (Elt F) → (⟨S100000x16, .f32⟩ : BufTy).Contents (Elt F)),
    binary main_v96 main_v101 main_v102 (addf : (⟨S100000x16, .f32⟩ : BufTy).Contents (Elt F) → (⟨S100000x16, .f32⟩ : BufTy).Contents (Elt F) → (⟨S100000x16, .f32⟩ : BufTy).Contents (Elt F)),
    binary main_v102 main_arg8 main_v103 ((fun l r => Host.dotGeneral dot_S100000x16_S16x300_S100000x300_1_0_0_1_n_n none l r) : (⟨S100000x16, .f32⟩ : BufTy).Contents (Elt F) → (⟨S16x300, .f32⟩ : BufTy).Contents (Elt F) → (⟨S100000x300, .f32⟩ : BufTy).Contents (Elt F)),
    unary main_arg9 main_v104 (broadcastInDim S1x300 ![1] bcast_S300_S1x300_1 : (⟨S300, .f32⟩ : BufTy).Contents (Elt F) → (⟨S1x300, .f32⟩ : BufTy).Contents (Elt F)),
    unary main_v104 main_v105 (broadcastInDim S100000x300 ![0, 1] bcast_S1x300_S100000x300_0_1 : (⟨S1x300, .f32⟩ : BufTy).Contents (Elt F) → (⟨S100000x300, .f32⟩ : BufTy).Contents (Elt F)),
    binary main_v103 main_v105 main_v106 (addf : (⟨S100000x300, .f32⟩ : BufTy).Contents (Elt F) → (⟨S100000x300, .f32⟩ : BufTy).Contents (Elt F) → (⟨S100000x300, .f32⟩ : BufTy).Contents (Elt F)) ]

/-- Operations 131–145: the log-softmax (the outlined function's operations, at its call site). -/
abbrev opsD : List (HloOp τ sig (Elt F)) :=
  [ TRef.nullary (TRef.of (T := ⟨S_, .f32⟩) main_call0_cst) (constant S_ .f32 0xFF800000#32),
    TRef.binary (TRef.of (T := ⟨S100000x300, .f32⟩) main_v106) (TRef.of (T := ⟨S_, .f32⟩) main_call0_cst) (TRef.of (T := ⟨S100000, .f32⟩) main_call0_v0) (fun x v => Host.reduce FloatOps.maximumf x v reducesTo_S100000x300_S100000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_call0_v0) (TRef.of (T := ⟨S100000, .f32⟩) main_call0_v2) maximumf,
    TRef.unary (TRef.of (T := ⟨S100000, .f32⟩) main_call0_v2) (TRef.of (T := ⟨S100000x1, .f32⟩) main_call0_v3) (broadcastInDim S100000x1 ![0] bcast_S100000_S100000x1_0),
    TRef.unary (TRef.of (T := ⟨S100000x1, .f32⟩) main_call0_v3) (TRef.of (T := ⟨S100000x300, .f32⟩) main_call0_v4) (broadcastInDim S100000x300 ![0, 1] bcast_S100000x1_S100000x300_0_1),
    TRef.binary (TRef.of (T := ⟨S100000x300, .f32⟩) main_v106) (TRef.of (T := ⟨S100000x300, .f32⟩) main_call0_v4) (TRef.of (T := ⟨S100000x300, .f32⟩) main_call0_v5) subf,
    TRef.unary (TRef.of (T := ⟨S100000x300, .f32⟩) main_call0_v5) (TRef.of (T := ⟨S100000x300, .f32⟩) main_call0_v6) Host.exp,
    TRef.nullary (TRef.of (T := ⟨S_, .f32⟩) main_call0_cst_1) (constant S_ .f32 0x00000000#32),
    TRef.binary (TRef.of (T := ⟨S100000x300, .f32⟩) main_call0_v6) (TRef.of (T := ⟨S_, .f32⟩) main_call0_cst_1) (TRef.of (T := ⟨S100000, .f32⟩) main_call0_v7) (fun x v => Host.reduceAdd x v reducesTo_S100000x300_S100000_d1 h_S_),
    TRef.unary (TRef.of (T := ⟨S100000, .f32⟩) main_call0_v7) (TRef.of (T := ⟨S100000x1, .f32⟩) main_call0_v8) (broadcastInDim S100000x1 ![0] bcast_S100000_S100000x1_0),
    TRef.unary (TRef.of (T := ⟨S100000x1, .f32⟩) main_call0_v8) (TRef.of (T := ⟨S100000x1, .f32⟩) main_call0_v9) Host.log,
    TRef.unary (TRef.of (T := ⟨S100000x1, .f32⟩) main_call0_v9) (TRef.of (T := ⟨S100000x300, .f32⟩) main_call0_v10) (broadcastInDim S100000x300 ![0, 1] bcast_S100000x1_S100000x300_0_1),
    TRef.binary (TRef.of (T := ⟨S100000x300, .f32⟩) main_call0_v5) (TRef.of (T := ⟨S100000x300, .f32⟩) main_call0_v10) (TRef.of (T := ⟨S100000x300, .f32⟩) main_v107) subf ]

set_option maxHeartbeats 4000000 in
theorem ops_split : (ops : List (HloOp τ sig (Elt F))) = opsA ++ (opsB ++ (opsC ++ opsD)) := rfl

/-- A fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## Chunk A, from any valuation -/

section A
variable (L : Valuation τ sig (Elt Ideal))

theorem A_v1 : after (opsA (F := Ideal)) L (Proc.devRef .tc main_v1) = val_main_v1 (F := Ideal) (L (Proc.devRef .tc main_arg1)) := by
  after_results_simp <;> rfl
theorem A_v3 : after (opsA (F := Ideal)) L (Proc.devRef .tc main_v3) = val_main_v3 (F := Ideal) (L (Proc.devRef .tc main_arg1)) := by
  after_results_simp <;> rfl
theorem A_v9 : after (opsA (F := Ideal)) L (Proc.devRef .tc main_v9) = val_main_v9 (F := Ideal) (L (Proc.devRef .tc main_arg1)) := by
  after_results_simp <;> rfl
theorem A_v25 : after (opsA (F := Ideal)) L (Proc.devRef .tc main_v25) = val_main_v25 (F := Ideal) (L (Proc.devRef .tc main_arg1)) := by
  after_results_simp <;> rfl
theorem A_v26 : after (opsA (F := Ideal)) L (Proc.devRef .tc main_v26) = val_main_v26 (F := Ideal) (L (Proc.devRef .tc main_arg0)) (L (Proc.devRef .tc main_arg2)) := by
  after_results_simp <;> rfl
end A

theorem A_keeps_arg0 (W : Valuation τ sig (Elt Ideal)) :
    after (opsA (F := Ideal)) W (Proc.devRef .tc main_arg0) = W (Proc.devRef .tc main_arg0) := by
  after_results_simp
theorem A_keeps_arg1 (W : Valuation τ sig (Elt Ideal)) :
    after (opsA (F := Ideal)) W (Proc.devRef .tc main_arg1) = W (Proc.devRef .tc main_arg1) := by
  after_results_simp
theorem A_keeps_arg2 (W : Valuation τ sig (Elt Ideal)) :
    after (opsA (F := Ideal)) W (Proc.devRef .tc main_arg2) = W (Proc.devRef .tc main_arg2) := by
  after_results_simp
theorem A_keeps_arg3 (W : Valuation τ sig (Elt Ideal)) :
    after (opsA (F := Ideal)) W (Proc.devRef .tc main_arg3) = W (Proc.devRef .tc main_arg3) := by
  after_results_simp
theorem A_keeps_arg4 (W : Valuation τ sig (Elt Ideal)) :
    after (opsA (F := Ideal)) W (Proc.devRef .tc main_arg4) = W (Proc.devRef .tc main_arg4) := by
  after_results_simp
theorem A_keeps_arg5 (W : Valuation τ sig (Elt Ideal)) :
    after (opsA (F := Ideal)) W (Proc.devRef .tc main_arg5) = W (Proc.devRef .tc main_arg5) := by
  after_results_simp
theorem A_keeps_arg6 (W : Valuation τ sig (Elt Ideal)) :
    after (opsA (F := Ideal)) W (Proc.devRef .tc main_arg6) = W (Proc.devRef .tc main_arg6) := by
  after_results_simp
theorem A_keeps_arg7 (W : Valuation τ sig (Elt Ideal)) :
    after (opsA (F := Ideal)) W (Proc.devRef .tc main_arg7) = W (Proc.devRef .tc main_arg7) := by
  after_results_simp
theorem A_keeps_arg8 (W : Valuation τ sig (Elt Ideal)) :
    after (opsA (F := Ideal)) W (Proc.devRef .tc main_arg8) = W (Proc.devRef .tc main_arg8) := by
  after_results_simp
theorem A_keeps_arg9 (W : Valuation τ sig (Elt Ideal)) :
    after (opsA (F := Ideal)) W (Proc.devRef .tc main_arg9) = W (Proc.devRef .tc main_arg9) := by
  after_results_simp

/-! ## Chunk B, from a valuation known at what the chunk reads -/

set_option maxHeartbeats 4000000 in
theorem B_v61 (W : Valuation τ sig (Elt Ideal)) (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal))
    (h1 : W (Proc.devRef .tc main_v1) = val_main_v1 (F := Ideal) x1) (h3 : W (Proc.devRef .tc main_v3) = val_main_v3 (F := Ideal) x1)
    (h9 : W (Proc.devRef .tc main_v9) = val_main_v9 (F := Ideal) x1) (h25 : W (Proc.devRef .tc main_v25) = val_main_v25 (F := Ideal) x1)
    (h26 : W (Proc.devRef .tc main_v26) = val_main_v26 (F := Ideal) x0 x2)
    (e3 : W (Proc.devRef .tc main_arg3) = x3) (e4 : W (Proc.devRef .tc main_arg4) = x4) (e5 : W (Proc.devRef .tc main_arg5) = x5)
    (e6 : W (Proc.devRef .tc main_arg6) = x6) (e7 : W (Proc.devRef .tc main_arg7) = x7) :
    after (opsB (F := Ideal)) W (Proc.devRef .tc main_v61) = val_main_v61 (F := Ideal) x0 x1 x2 x3 x4 x5 x6 x7 := by
  after_results_simp
  rw [h1, h3, h9, h25, h26, e3, e4, e5, e6, e7]
  rfl

theorem B_keeps_v1 (W : Valuation τ sig (Elt Ideal)) :
    after (opsB (F := Ideal)) W (Proc.devRef .tc main_v1) = W (Proc.devRef .tc main_v1) := by
  after_results_simp
theorem B_keeps_v3 (W : Valuation τ sig (Elt Ideal)) :
    after (opsB (F := Ideal)) W (Proc.devRef .tc main_v3) = W (Proc.devRef .tc main_v3) := by
  after_results_simp
theorem B_keeps_arg0 (W : Valuation τ sig (Elt Ideal)) :
    after (opsB (F := Ideal)) W (Proc.devRef .tc main_arg0) = W (Proc.devRef .tc main_arg0) := by
  after_results_simp
theorem B_keeps_arg1 (W : Valuation τ sig (Elt Ideal)) :
    after (opsB (F := Ideal)) W (Proc.devRef .tc main_arg1) = W (Proc.devRef .tc main_arg1) := by
  after_results_simp
theorem B_keeps_arg2 (W : Valuation τ sig (Elt Ideal)) :
    after (opsB (F := Ideal)) W (Proc.devRef .tc main_arg2) = W (Proc.devRef .tc main_arg2) := by
  after_results_simp
theorem B_keeps_arg3 (W : Valuation τ sig (Elt Ideal)) :
    after (opsB (F := Ideal)) W (Proc.devRef .tc main_arg3) = W (Proc.devRef .tc main_arg3) := by
  after_results_simp
theorem B_keeps_arg4 (W : Valuation τ sig (Elt Ideal)) :
    after (opsB (F := Ideal)) W (Proc.devRef .tc main_arg4) = W (Proc.devRef .tc main_arg4) := by
  after_results_simp
theorem B_keeps_arg5 (W : Valuation τ sig (Elt Ideal)) :
    after (opsB (F := Ideal)) W (Proc.devRef .tc main_arg5) = W (Proc.devRef .tc main_arg5) := by
  after_results_simp
theorem B_keeps_arg6 (W : Valuation τ sig (Elt Ideal)) :
    after (opsB (F := Ideal)) W (Proc.devRef .tc main_arg6) = W (Proc.devRef .tc main_arg6) := by
  after_results_simp
theorem B_keeps_arg7 (W : Valuation τ sig (Elt Ideal)) :
    after (opsB (F := Ideal)) W (Proc.devRef .tc main_arg7) = W (Proc.devRef .tc main_arg7) := by
  after_results_simp
theorem B_keeps_arg8 (W : Valuation τ sig (Elt Ideal)) :
    after (opsB (F := Ideal)) W (Proc.devRef .tc main_arg8) = W (Proc.devRef .tc main_arg8) := by
  after_results_simp
theorem B_keeps_arg9 (W : Valuation τ sig (Elt Ideal)) :
    after (opsB (F := Ideal)) W (Proc.devRef .tc main_arg9) = W (Proc.devRef .tc main_arg9) := by
  after_results_simp

/-! ## Chunk C, from a valuation known at what the chunk reads -/

set_option maxHeartbeats 8000000 in
theorem C_v106 (W : Valuation τ sig (Elt Ideal)) (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal))
    (h1 : W (Proc.devRef .tc main_v1) = val_main_v1 (F := Ideal) x1) (h3 : W (Proc.devRef .tc main_v3) = val_main_v3 (F := Ideal) x1)
    (h61 : W (Proc.devRef .tc main_v61) = val_main_v61 (F := Ideal) x0 x1 x2 x3 x4 x5 x6 x7)
    (e8 : W (Proc.devRef .tc main_arg8) = x8) (e9 : W (Proc.devRef .tc main_arg9) = x9) :
    after (opsC (F := Ideal)) W (Proc.devRef .tc main_v106) = val_main_v106 (F := Ideal) x0 x1 x2 x3 x4 x5 x6 x7 x8 x9 := by
  after_results_simp
  rw [h1, h3, h61, e8, e9]
  rfl

theorem C_keeps_v61 (W : Valuation τ sig (Elt Ideal)) :
    after (opsC (F := Ideal)) W (Proc.devRef .tc main_v61) = W (Proc.devRef .tc main_v61) := by
  after_results_simp
theorem C_keeps_arg0 (W : Valuation τ sig (Elt Ideal)) :
    after (opsC (F := Ideal)) W (Proc.devRef .tc main_arg0) = W (Proc.devRef .tc main_arg0) := by
  after_results_simp
theorem C_keeps_arg1 (W : Valuation τ sig (Elt Ideal)) :
    after (opsC (F := Ideal)) W (Proc.devRef .tc main_arg1) = W (Proc.devRef .tc main_arg1) := by
  after_results_simp
theorem C_keeps_arg2 (W : Valuation τ sig (Elt Ideal)) :
    after (opsC (F := Ideal)) W (Proc.devRef .tc main_arg2) = W (Proc.devRef .tc main_arg2) := by
  after_results_simp
theorem C_keeps_arg3 (W : Valuation τ sig (Elt Ideal)) :
    after (opsC (F := Ideal)) W (Proc.devRef .tc main_arg3) = W (Proc.devRef .tc main_arg3) := by
  after_results_simp
theorem C_keeps_arg4 (W : Valuation τ sig (Elt Ideal)) :
    after (opsC (F := Ideal)) W (Proc.devRef .tc main_arg4) = W (Proc.devRef .tc main_arg4) := by
  after_results_simp
theorem C_keeps_arg5 (W : Valuation τ sig (Elt Ideal)) :
    after (opsC (F := Ideal)) W (Proc.devRef .tc main_arg5) = W (Proc.devRef .tc main_arg5) := by
  after_results_simp
theorem C_keeps_arg6 (W : Valuation τ sig (Elt Ideal)) :
    after (opsC (F := Ideal)) W (Proc.devRef .tc main_arg6) = W (Proc.devRef .tc main_arg6) := by
  after_results_simp
theorem C_keeps_arg7 (W : Valuation τ sig (Elt Ideal)) :
    after (opsC (F := Ideal)) W (Proc.devRef .tc main_arg7) = W (Proc.devRef .tc main_arg7) := by
  after_results_simp
theorem C_keeps_arg8 (W : Valuation τ sig (Elt Ideal)) :
    after (opsC (F := Ideal)) W (Proc.devRef .tc main_arg8) = W (Proc.devRef .tc main_arg8) := by
  after_results_simp
theorem C_keeps_arg9 (W : Valuation τ sig (Elt Ideal)) :
    after (opsC (F := Ideal)) W (Proc.devRef .tc main_arg9) = W (Proc.devRef .tc main_arg9) := by
  after_results_simp

/-! ## The typed references of the outlined log-softmax carry their values unchanged

A typed reference moves a value between the tensor's type and its buffer's type along the proof that the two are
equal; for a literal reference the two types are the same, so the move is the identity. One equation per reference
and direction, so that the moves can be erased by rewriting before two reductions over 30 million indices are ever
compared. -/

theorem ofBuf_main_v106 (h1 : (main_v106 : Ref sig .tc).ty = ⟨S100000x300, .f32⟩) (h2 : (main_v106 : Ref sig .tc).space ≠ .host) (h3 : (main_v106 : Ref sig .tc).isScoped = false)
    (v : (⟨S100000x300, .f32⟩ : BufTy).Contents (Elt Ideal)) : (TRef.of (T := ⟨S100000x300, .f32⟩) main_v106 h1 h2 h3).ofBuf v = v := cast_eq _ _
theorem toBuf_main_v106 (h1 : (main_v106 : Ref sig .tc).ty = ⟨S100000x300, .f32⟩) (h2 : (main_v106 : Ref sig .tc).space ≠ .host) (h3 : (main_v106 : Ref sig .tc).isScoped = false)
    (v : (⟨S100000x300, .f32⟩ : BufTy).Contents (Elt Ideal)) : (TRef.of (T := ⟨S100000x300, .f32⟩) main_v106 h1 h2 h3).toBuf v = v := cast_eq _ _
theorem ofBuf_main_call0_cst (h1 : (main_call0_cst : Ref sig .tc).ty = ⟨S_, .f32⟩) (h2 : (main_call0_cst : Ref sig .tc).space ≠ .host) (h3 : (main_call0_cst : Ref sig .tc).isScoped = false)
    (v : (⟨S_, .f32⟩ : BufTy).Contents (Elt Ideal)) : (TRef.of (T := ⟨S_, .f32⟩) main_call0_cst h1 h2 h3).ofBuf v = v := cast_eq _ _
theorem toBuf_main_call0_cst (h1 : (main_call0_cst : Ref sig .tc).ty = ⟨S_, .f32⟩) (h2 : (main_call0_cst : Ref sig .tc).space ≠ .host) (h3 : (main_call0_cst : Ref sig .tc).isScoped = false)
    (v : (⟨S_, .f32⟩ : BufTy).Contents (Elt Ideal)) : (TRef.of (T := ⟨S_, .f32⟩) main_call0_cst h1 h2 h3).toBuf v = v := cast_eq _ _
theorem ofBuf_main_call0_v0 (h1 : (main_call0_v0 : Ref sig .tc).ty = ⟨S100000, .f32⟩) (h2 : (main_call0_v0 : Ref sig .tc).space ≠ .host) (h3 : (main_call0_v0 : Ref sig .tc).isScoped = false)
    (v : (⟨S100000, .f32⟩ : BufTy).Contents (Elt Ideal)) : (TRef.of (T := ⟨S100000, .f32⟩) main_call0_v0 h1 h2 h3).ofBuf v = v := cast_eq _ _
theorem toBuf_main_call0_v0 (h1 : (main_call0_v0 : Ref sig .tc).ty = ⟨S100000, .f32⟩) (h2 : (main_call0_v0 : Ref sig .tc).space ≠ .host) (h3 : (main_call0_v0 : Ref sig .tc).isScoped = false)
    (v : (⟨S100000, .f32⟩ : BufTy).Contents (Elt Ideal)) : (TRef.of (T := ⟨S100000, .f32⟩) main_call0_v0 h1 h2 h3).toBuf v = v := cast_eq _ _
theorem ofBuf_main_call0_cst_0 (h1 : (main_call0_cst_0 : Ref sig .tc).ty = ⟨S_, .f32⟩) (h2 : (main_call0_cst_0 : Ref sig .tc).space ≠ .host) (h3 : (main_call0_cst_0 : Ref sig .tc).isScoped = false)
    (v : (⟨S_, .f32⟩ : BufTy).Contents (Elt Ideal)) : (TRef.of (T := ⟨S_, .f32⟩) main_call0_cst_0 h1 h2 h3).ofBuf v = v := cast_eq _ _
theorem toBuf_main_call0_cst_0 (h1 : (main_call0_cst_0 : Ref sig .tc).ty = ⟨S_, .f32⟩) (h2 : (main_call0_cst_0 : Ref sig .tc).space ≠ .host) (h3 : (main_call0_cst_0 : Ref sig .tc).isScoped = false)
    (v : (⟨S_, .f32⟩ : BufTy).Contents (Elt Ideal)) : (TRef.of (T := ⟨S_, .f32⟩) main_call0_cst_0 h1 h2 h3).toBuf v = v := cast_eq _ _
theorem ofBuf_main_call0_v1 (h1 : (main_call0_v1 : Ref sig .tc).ty = ⟨S100000, .f32⟩) (h2 : (main_call0_v1 : Ref sig .tc).space ≠ .host) (h3 : (main_call0_v1 : Ref sig .tc).isScoped = false)
    (v : (⟨S100000, .f32⟩ : BufTy).Contents (Elt Ideal)) : (TRef.of (T := ⟨S100000, .f32⟩) main_call0_v1 h1 h2 h3).ofBuf v = v := cast_eq _ _
theorem toBuf_main_call0_v1 (h1 : (main_call0_v1 : Ref sig .tc).ty = ⟨S100000, .f32⟩) (h2 : (main_call0_v1 : Ref sig .tc).space ≠ .host) (h3 : (main_call0_v1 : Ref sig .tc).isScoped = false)
    (v : (⟨S100000, .f32⟩ : BufTy).Contents (Elt Ideal)) : (TRef.of (T := ⟨S100000, .f32⟩) main_call0_v1 h1 h2 h3).toBuf v = v := cast_eq _ _
theorem ofBuf_main_call0_v2 (h1 : (main_call0_v2 : Ref sig .tc).ty = ⟨S100000, .f32⟩) (h2 : (main_call0_v2 : Ref sig .tc).space ≠ .host) (h3 : (main_call0_v2 : Ref sig .tc).isScoped = false)
    (v : (⟨S100000, .f32⟩ : BufTy).Contents (Elt Ideal)) : (TRef.of (T := ⟨S100000, .f32⟩) main_call0_v2 h1 h2 h3).ofBuf v = v := cast_eq _ _
theorem toBuf_main_call0_v2 (h1 : (main_call0_v2 : Ref sig .tc).ty = ⟨S100000, .f32⟩) (h2 : (main_call0_v2 : Ref sig .tc).space ≠ .host) (h3 : (main_call0_v2 : Ref sig .tc).isScoped = false)
    (v : (⟨S100000, .f32⟩ : BufTy).Contents (Elt Ideal)) : (TRef.of (T := ⟨S100000, .f32⟩) main_call0_v2 h1 h2 h3).toBuf v = v := cast_eq _ _
theorem ofBuf_main_call0_v3 (h1 : (main_call0_v3 : Ref sig .tc).ty = ⟨S100000x1, .f32⟩) (h2 : (main_call0_v3 : Ref sig .tc).space ≠ .host) (h3 : (main_call0_v3 : Ref sig .tc).isScoped = false)
    (v : (⟨S100000x1, .f32⟩ : BufTy).Contents (Elt Ideal)) : (TRef.of (T := ⟨S100000x1, .f32⟩) main_call0_v3 h1 h2 h3).ofBuf v = v := cast_eq _ _
theorem toBuf_main_call0_v3 (h1 : (main_call0_v3 : Ref sig .tc).ty = ⟨S100000x1, .f32⟩) (h2 : (main_call0_v3 : Ref sig .tc).space ≠ .host) (h3 : (main_call0_v3 : Ref sig .tc).isScoped = false)
    (v : (⟨S100000x1, .f32⟩ : BufTy).Contents (Elt Ideal)) : (TRef.of (T := ⟨S100000x1, .f32⟩) main_call0_v3 h1 h2 h3).toBuf v = v := cast_eq _ _
theorem ofBuf_main_call0_v4 (h1 : (main_call0_v4 : Ref sig .tc).ty = ⟨S100000x300, .f32⟩) (h2 : (main_call0_v4 : Ref sig .tc).space ≠ .host) (h3 : (main_call0_v4 : Ref sig .tc).isScoped = false)
    (v : (⟨S100000x300, .f32⟩ : BufTy).Contents (Elt Ideal)) : (TRef.of (T := ⟨S100000x300, .f32⟩) main_call0_v4 h1 h2 h3).ofBuf v = v := cast_eq _ _
theorem toBuf_main_call0_v4 (h1 : (main_call0_v4 : Ref sig .tc).ty = ⟨S100000x300, .f32⟩) (h2 : (main_call0_v4 : Ref sig .tc).space ≠ .host) (h3 : (main_call0_v4 : Ref sig .tc).isScoped = false)
    (v : (⟨S100000x300, .f32⟩ : BufTy).Contents (Elt Ideal)) : (TRef.of (T := ⟨S100000x300, .f32⟩) main_call0_v4 h1 h2 h3).toBuf v = v := cast_eq _ _
theorem ofBuf_main_call0_v5 (h1 : (main_call0_v5 : Ref sig .tc).ty = ⟨S100000x300, .f32⟩) (h2 : (main_call0_v5 : Ref sig .tc).space ≠ .host) (h3 : (main_call0_v5 : Ref sig .tc).isScoped = false)
    (v : (⟨S100000x300, .f32⟩ : BufTy).Contents (Elt Ideal)) : (TRef.of (T := ⟨S100000x300, .f32⟩) main_call0_v5 h1 h2 h3).ofBuf v = v := cast_eq _ _
theorem toBuf_main_call0_v5 (h1 : (main_call0_v5 : Ref sig .tc).ty = ⟨S100000x300, .f32⟩) (h2 : (main_call0_v5 : Ref sig .tc).space ≠ .host) (h3 : (main_call0_v5 : Ref sig .tc).isScoped = false)
    (v : (⟨S100000x300, .f32⟩ : BufTy).Contents (Elt Ideal)) : (TRef.of (T := ⟨S100000x300, .f32⟩) main_call0_v5 h1 h2 h3).toBuf v = v := cast_eq _ _
theorem ofBuf_main_call0_v6 (h1 : (main_call0_v6 : Ref sig .tc).ty = ⟨S100000x300, .f32⟩) (h2 : (main_call0_v6 : Ref sig .tc).space ≠ .host) (h3 : (main_call0_v6 : Ref sig .tc).isScoped = false)
    (v : (⟨S100000x300, .f32⟩ : BufTy).Contents (Elt Ideal)) : (TRef.of (T := ⟨S100000x300, .f32⟩) main_call0_v6 h1 h2 h3).ofBuf v = v := cast_eq _ _
theorem toBuf_main_call0_v6 (h1 : (main_call0_v6 : Ref sig .tc).ty = ⟨S100000x300, .f32⟩) (h2 : (main_call0_v6 : Ref sig .tc).space ≠ .host) (h3 : (main_call0_v6 : Ref sig .tc).isScoped = false)
    (v : (⟨S100000x300, .f32⟩ : BufTy).Contents (Elt Ideal)) : (TRef.of (T := ⟨S100000x300, .f32⟩) main_call0_v6 h1 h2 h3).toBuf v = v := cast_eq _ _
theorem ofBuf_main_call0_cst_1 (h1 : (main_call0_cst_1 : Ref sig .tc).ty = ⟨S_, .f32⟩) (h2 : (main_call0_cst_1 : Ref sig .tc).space ≠ .host) (h3 : (main_call0_cst_1 : Ref sig .tc).isScoped = false)
    (v : (⟨S_, .f32⟩ : BufTy).Contents (Elt Ideal)) : (TRef.of (T := ⟨S_, .f32⟩) main_call0_cst_1 h1 h2 h3).ofBuf v = v := cast_eq _ _
theorem toBuf_main_call0_cst_1 (h1 : (main_call0_cst_1 : Ref sig .tc).ty = ⟨S_, .f32⟩) (h2 : (main_call0_cst_1 : Ref sig .tc).space ≠ .host) (h3 : (main_call0_cst_1 : Ref sig .tc).isScoped = false)
    (v : (⟨S_, .f32⟩ : BufTy).Contents (Elt Ideal)) : (TRef.of (T := ⟨S_, .f32⟩) main_call0_cst_1 h1 h2 h3).toBuf v = v := cast_eq _ _
theorem ofBuf_main_call0_v7 (h1 : (main_call0_v7 : Ref sig .tc).ty = ⟨S100000, .f32⟩) (h2 : (main_call0_v7 : Ref sig .tc).space ≠ .host) (h3 : (main_call0_v7 : Ref sig .tc).isScoped = false)
    (v : (⟨S100000, .f32⟩ : BufTy).Contents (Elt Ideal)) : (TRef.of (T := ⟨S100000, .f32⟩) main_call0_v7 h1 h2 h3).ofBuf v = v := cast_eq _ _
theorem toBuf_main_call0_v7 (h1 : (main_call0_v7 : Ref sig .tc).ty = ⟨S100000, .f32⟩) (h2 : (main_call0_v7 : Ref sig .tc).space ≠ .host) (h3 : (main_call0_v7 : Ref sig .tc).isScoped = false)
    (v : (⟨S100000, .f32⟩ : BufTy).Contents (Elt Ideal)) : (TRef.of (T := ⟨S100000, .f32⟩) main_call0_v7 h1 h2 h3).toBuf v = v := cast_eq _ _
theorem ofBuf_main_call0_v8 (h1 : (main_call0_v8 : Ref sig .tc).ty = ⟨S100000x1, .f32⟩) (h2 : (main_call0_v8 : Ref sig .tc).space ≠ .host) (h3 : (main_call0_v8 : Ref sig .tc).isScoped = false)
    (v : (⟨S100000x1, .f32⟩ : BufTy).Contents (Elt Ideal)) : (TRef.of (T := ⟨S100000x1, .f32⟩) main_call0_v8 h1 h2 h3).ofBuf v = v := cast_eq _ _
theorem toBuf_main_call0_v8 (h1 : (main_call0_v8 : Ref sig .tc).ty = ⟨S100000x1, .f32⟩) (h2 : (main_call0_v8 : Ref sig .tc).space ≠ .host) (h3 : (main_call0_v8 : Ref sig .tc).isScoped = false)
    (v : (⟨S100000x1, .f32⟩ : BufTy).Contents (Elt Ideal)) : (TRef.of (T := ⟨S100000x1, .f32⟩) main_call0_v8 h1 h2 h3).toBuf v = v := cast_eq _ _
theorem ofBuf_main_call0_v9 (h1 : (main_call0_v9 : Ref sig .tc).ty = ⟨S100000x1, .f32⟩) (h2 : (main_call0_v9 : Ref sig .tc).space ≠ .host) (h3 : (main_call0_v9 : Ref sig .tc).isScoped = false)
    (v : (⟨S100000x1, .f32⟩ : BufTy).Contents (Elt Ideal)) : (TRef.of (T := ⟨S100000x1, .f32⟩) main_call0_v9 h1 h2 h3).ofBuf v = v := cast_eq _ _
theorem toBuf_main_call0_v9 (h1 : (main_call0_v9 : Ref sig .tc).ty = ⟨S100000x1, .f32⟩) (h2 : (main_call0_v9 : Ref sig .tc).space ≠ .host) (h3 : (main_call0_v9 : Ref sig .tc).isScoped = false)
    (v : (⟨S100000x1, .f32⟩ : BufTy).Contents (Elt Ideal)) : (TRef.of (T := ⟨S100000x1, .f32⟩) main_call0_v9 h1 h2 h3).toBuf v = v := cast_eq _ _
theorem ofBuf_main_call0_v10 (h1 : (main_call0_v10 : Ref sig .tc).ty = ⟨S100000x300, .f32⟩) (h2 : (main_call0_v10 : Ref sig .tc).space ≠ .host) (h3 : (main_call0_v10 : Ref sig .tc).isScoped = false)
    (v : (⟨S100000x300, .f32⟩ : BufTy).Contents (Elt Ideal)) : (TRef.of (T := ⟨S100000x300, .f32⟩) main_call0_v10 h1 h2 h3).ofBuf v = v := cast_eq _ _
theorem toBuf_main_call0_v10 (h1 : (main_call0_v10 : Ref sig .tc).ty = ⟨S100000x300, .f32⟩) (h2 : (main_call0_v10 : Ref sig .tc).space ≠ .host) (h3 : (main_call0_v10 : Ref sig .tc).isScoped = false)
    (v : (⟨S100000x300, .f32⟩ : BufTy).Contents (Elt Ideal)) : (TRef.of (T := ⟨S100000x300, .f32⟩) main_call0_v10 h1 h2 h3).toBuf v = v := cast_eq _ _
theorem ofBuf_main_v107 (h1 : (main_v107 : Ref sig .tc).ty = ⟨S100000x300, .f32⟩) (h2 : (main_v107 : Ref sig .tc).space ≠ .host) (h3 : (main_v107 : Ref sig .tc).isScoped = false)
    (v : (⟨S100000x300, .f32⟩ : BufTy).Contents (Elt Ideal)) : (TRef.of (T := ⟨S100000x300, .f32⟩) main_v107 h1 h2 h3).ofBuf v = v := cast_eq _ _
theorem toBuf_main_v107 (h1 : (main_v107 : Ref sig .tc).ty = ⟨S100000x300, .f32⟩) (h2 : (main_v107 : Ref sig .tc).space ≠ .host) (h3 : (main_v107 : Ref sig .tc).isScoped = false)
    (v : (⟨S100000x300, .f32⟩ : BufTy).Contents (Elt Ideal)) : (TRef.of (T := ⟨S100000x300, .f32⟩) main_v107 h1 h2 h3).toBuf v = v := cast_eq _ _

/-! ## Chunk D (the log-softmax), from a valuation known at the logits -/

set_option maxHeartbeats 8000000 in
theorem D_v107 (W : Valuation τ sig (Elt Ideal)) (x0 : (⟨S100000x128, .f32⟩ : BufTy).Contents (Elt Ideal)) (x1 : (⟨S2x1600000, .i32⟩ : BufTy).Contents (Elt Ideal)) (x2 : (⟨S128x16, .f32⟩ : BufTy).Contents (Elt Ideal)) (x3 : (⟨S16, .f32⟩ : BufTy).Contents (Elt Ideal)) (x4 : (⟨S16, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16x300, .f32⟩ : BufTy).Contents (Elt Ideal)) (x9 : (⟨S300, .f32⟩ : BufTy).Contents (Elt Ideal))
    (h106 : W (Proc.devRef .tc main_v106) = val_main_v106 (F := Ideal) x0 x1 x2 x3 x4 x5 x6 x7 x8 x9) :
    after (opsD (F := Ideal)) W (Proc.devRef .tc main_v107) = val_main_v107 (F := Ideal) x0 x1 x2 x3 x4 x5 x6 x7 x8 x9 := by
  after_results_simp
  simp only [ofBuf_main_v106, toBuf_main_v106, ofBuf_main_call0_cst, toBuf_main_call0_cst, ofBuf_main_call0_v0, toBuf_main_call0_v0, ofBuf_main_call0_cst_0, toBuf_main_call0_cst_0, ofBuf_main_call0_v1, toBuf_main_call0_v1, ofBuf_main_call0_v2, toBuf_main_call0_v2, ofBuf_main_call0_v3, toBuf_main_call0_v3, ofBuf_main_call0_v4, toBuf_main_call0_v4, ofBuf_main_call0_v5, toBuf_main_call0_v5, ofBuf_main_call0_v6, toBuf_main_call0_v6, ofBuf_main_call0_cst_1, toBuf_main_call0_cst_1, ofBuf_main_call0_v7, toBuf_main_call0_v7, ofBuf_main_call0_v8, toBuf_main_call0_v8, ofBuf_main_call0_v9, toBuf_main_call0_v9, ofBuf_main_call0_v10, toBuf_main_call0_v10, ofBuf_main_v107, toBuf_main_v107]
  rw [h106]
  rfl

theorem D_keeps_v61 (W : Valuation τ sig (Elt Ideal)) :
    after (opsD (F := Ideal)) W (Proc.devRef .tc main_v61) = W (Proc.devRef .tc main_v61) := by
  after_results_simp
theorem D_keeps_arg0 (W : Valuation τ sig (Elt Ideal)) :
    after (opsD (F := Ideal)) W (Proc.devRef .tc main_arg0) = W (Proc.devRef .tc main_arg0) := by
  after_results_simp
theorem D_keeps_arg1 (W : Valuation τ sig (Elt Ideal)) :
    after (opsD (F := Ideal)) W (Proc.devRef .tc main_arg1) = W (Proc.devRef .tc main_arg1) := by
  after_results_simp
theorem D_keeps_arg2 (W : Valuation τ sig (Elt Ideal)) :
    after (opsD (F := Ideal)) W (Proc.devRef .tc main_arg2) = W (Proc.devRef .tc main_arg2) := by
  after_results_simp
theorem D_keeps_arg3 (W : Valuation τ sig (Elt Ideal)) :
    after (opsD (F := Ideal)) W (Proc.devRef .tc main_arg3) = W (Proc.devRef .tc main_arg3) := by
  after_results_simp
theorem D_keeps_arg4 (W : Valuation τ sig (Elt Ideal)) :
    after (opsD (F := Ideal)) W (Proc.devRef .tc main_arg4) = W (Proc.devRef .tc main_arg4) := by
  after_results_simp
theorem D_keeps_arg5 (W : Valuation τ sig (Elt Ideal)) :
    after (opsD (F := Ideal)) W (Proc.devRef .tc main_arg5) = W (Proc.devRef .tc main_arg5) := by
  after_results_simp
theorem D_keeps_arg6 (W : Valuation τ sig (Elt Ideal)) :
    after (opsD (F := Ideal)) W (Proc.devRef .tc main_arg6) = W (Proc.devRef .tc main_arg6) := by
  after_results_simp
theorem D_keeps_arg7 (W : Valuation τ sig (Elt Ideal)) :
    after (opsD (F := Ideal)) W (Proc.devRef .tc main_arg7) = W (Proc.devRef .tc main_arg7) := by
  after_results_simp
theorem D_keeps_arg8 (W : Valuation τ sig (Elt Ideal)) :
    after (opsD (F := Ideal)) W (Proc.devRef .tc main_arg8) = W (Proc.devRef .tc main_arg8) := by
  after_results_simp
theorem D_keeps_arg9 (W : Valuation τ sig (Elt Ideal)) :
    after (opsD (F := Ideal)) W (Proc.devRef .tc main_arg9) = W (Proc.devRef .tc main_arg9) := by
  after_results_simp

/-! ## The whole fold at the two results and at the arguments -/

section Whole
variable (L : Valuation τ sig (Elt Ideal))

/-- An argument array comes through all 145 operations untouched. -/
theorem fold_arg0 : after (ops (F := Ideal)) L (Proc.devRef .tc main_arg0) = L (Proc.devRef .tc main_arg0) := by
  rw [ops_split, after_append, after_append, after_append, D_keeps_arg0, C_keeps_arg0, B_keeps_arg0, A_keeps_arg0]
theorem fold_arg1 : after (ops (F := Ideal)) L (Proc.devRef .tc main_arg1) = L (Proc.devRef .tc main_arg1) := by
  rw [ops_split, after_append, after_append, after_append, D_keeps_arg1, C_keeps_arg1, B_keeps_arg1, A_keeps_arg1]
theorem fold_arg2 : after (ops (F := Ideal)) L (Proc.devRef .tc main_arg2) = L (Proc.devRef .tc main_arg2) := by
  rw [ops_split, after_append, after_append, after_append, D_keeps_arg2, C_keeps_arg2, B_keeps_arg2, A_keeps_arg2]
theorem fold_arg3 : after (ops (F := Ideal)) L (Proc.devRef .tc main_arg3) = L (Proc.devRef .tc main_arg3) := by
  rw [ops_split, after_append, after_append, after_append, D_keeps_arg3, C_keeps_arg3, B_keeps_arg3, A_keeps_arg3]
theorem fold_arg4 : after (ops (F := Ideal)) L (Proc.devRef .tc main_arg4) = L (Proc.devRef .tc main_arg4) := by
  rw [ops_split, after_append, after_append, after_append, D_keeps_arg4, C_keeps_arg4, B_keeps_arg4, A_keeps_arg4]
theorem fold_arg5 : after (ops (F := Ideal)) L (Proc.devRef .tc main_arg5) = L (Proc.devRef .tc main_arg5) := by
  rw [ops_split, after_append, after_append, after_append, D_keeps_arg5, C_keeps_arg5, B_keeps_arg5, A_keeps_arg5]
theorem fold_arg6 : after (ops (F := Ideal)) L (Proc.devRef .tc main_arg6) = L (Proc.devRef .tc main_arg6) := by
  rw [ops_split, after_append, after_append, after_append, D_keeps_arg6, C_keeps_arg6, B_keeps_arg6, A_keeps_arg6]
theorem fold_arg7 : after (ops (F := Ideal)) L (Proc.devRef .tc main_arg7) = L (Proc.devRef .tc main_arg7) := by
  rw [ops_split, after_append, after_append, after_append, D_keeps_arg7, C_keeps_arg7, B_keeps_arg7, A_keeps_arg7]
theorem fold_arg8 : after (ops (F := Ideal)) L (Proc.devRef .tc main_arg8) = L (Proc.devRef .tc main_arg8) := by
  rw [ops_split, after_append, after_append, after_append, D_keeps_arg8, C_keeps_arg8, B_keeps_arg8, A_keeps_arg8]
theorem fold_arg9 : after (ops (F := Ideal)) L (Proc.devRef .tc main_arg9) = L (Proc.devRef .tc main_arg9) := by
  rw [ops_split, after_append, after_append, after_append, D_keeps_arg9, C_keeps_arg9, B_keeps_arg9, A_keeps_arg9]

/-- The hidden features after the first two chunks. -/
theorem AB_v61 : after (opsB (F := Ideal)) (after opsA L) (Proc.devRef .tc main_v61)
    = val_main_v61 (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) :=
  B_v61 (after opsA L) _ _ _ _ _ _ _ _ (A_v1 L) (A_v3 L) (A_v9 L) (A_v25 L) (A_v26 L)
    (A_keeps_arg3 L) (A_keeps_arg4 L) (A_keeps_arg5 L) (A_keeps_arg6 L) (A_keeps_arg7 L)

/-- The first result: the normalised hidden features. -/
theorem fold_v61 : after (ops (F := Ideal)) L (Proc.devRef .tc main_v61)
    = val_main_v61 (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) := by
  rw [ops_split, after_append, after_append, after_append, D_keeps_v61, C_keeps_v61]
  exact AB_v61 L

/-- The second result: the log-probabilities. -/
theorem fold_v107 : after (ops (F := Ideal)) L (Proc.devRef .tc main_v107)
    = val_main_v107 (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  rw [ops_split, after_append, after_append, after_append]
  refine D_v107 (after opsC (after opsB (after opsA L))) _ _ _ _ _ _ _ _ _ _ ?_
  refine C_v106 (after opsB (after opsA L)) _ _ _ _ _ _ _ _ _ _ ?_ ?_ ?_ ?_ ?_
  · rw [B_keeps_v1]; exact A_v1 L
  · rw [B_keeps_v3]; exact A_v3 L
  · exact AB_v61 L
  · rw [B_keeps_arg8, A_keeps_arg8]
  · rw [B_keeps_arg9, A_keeps_arg9]
end Whole

/-! ## The reference's run -/

/-- Every weakly fair execution of the reference terminates without a fault; its two results end at the stages
    `val_main_v61` and `val_main_v107` of the launch arguments, and the ten arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v107) = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v61).trans (fold_v61 (launchContents m c)),
      (h c main_v107).trans (fold_v107 (launchContents m c)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c)),
      (h c main_arg6).trans (fold_arg6 (launchContents m c)),
      (h c main_arg7).trans (fold_arg7 (launchContents m c)),
      (h c main_arg8).trans (fold_arg8 (launchContents m c)),
      (h c main_arg9).trans (fold_arg9 (launchContents m c))⟩)
    (run_fold (F := Ideal) m ρ)

end Cert.ReferenceIdeal.Stages

end
-- ==== Proof.PreDecode.lean ====
/-
  The precondition, read back.

  The printed predicate is the conjunction of ten reductions by `and`: for each of the nine float inputs, "every
  entry's absolute value is below +∞", and for the running variance, "every entry is at least 0". The claim says the
  predicate is 1. Read back entry by entry: an extended real whose absolute value `max x (−x)` is below `⊤` is
  neither infinity, so it is a real number; and a real number that is at least the zero pattern's value is
  nonnegative. That is `RealArgs`, the hypothesis under which the reference's logits are real.
-/
import proofs.«142930_j35184372088984_2_alg».proof.Pre_finite_inputs
import proofs.«142930_j35184372088984_2_alg».proof.Proof.Gen.Pre_finite_inputs
import proofs.«142930_j35184372088984_2_alg».proof.Proof.ReferenceRealStages
import Idealize.ShloMosaic.Lib.ReduceAll
import Idealize.ShloMosaic.Lib.ValueIdx

set_option maxRecDepth 65536

noncomputable section

namespace Cert.PreDecode

open Idealize.ShloMosaic Idealize.ShloMosaic.ValueIdx
open Cert.RealValued Cert.ReferenceIdeal.RealStages

instance : Subsingleton (⟨0, ![]⟩ : Shape).Idx := ⟨fun a b => funext fun d => d.elim0⟩

theorem lt_of_cmp_olt {a b : EReal} (h : Ideal.cmp .olt a b = 1#1) : a < b := by
  unfold Ideal.cmp at h
  by_contra hn
  simp [hn] at h

theorem le_of_cmp_oge {a b : EReal} (h : Ideal.cmp .oge a b = 1#1) : b ≤ a := by
  unfold Ideal.cmp at h
  by_contra hn
  simp [hn] at h

theorem ofBits_pos_inf : Ideal.ofBits .f32 0x7F800000#32 = ⊤ := by simp [Ideal.ofBits, Ideal.ieee]

/-- An extended real whose absolute value is below `+∞` is a real number. -/
theorem isReal_of_abs_lt_top (x : EReal) (h : max x (-x) < ⊤) : IsReal x := by
  induction x using EReal.rec with
  | bot => simp at h
  | coe r => exact ⟨r, rfl⟩
  | top => simp at h

/-- `jnp.all(|x| < inf)` that is 1 makes every entry of `x` a real number. -/
theorem allReal_of_all_abs_lt {s : Shape} {axes : List (Fin s.rank)} (x bound : FVec Ideal s .f32)
    (hb : ∀ i, bound i = Ideal.ofBits .f32 0x7F800000#32) (init : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi (cmpf .olt (Host.absf x) bound) init h hu j = 1#1) : AllReal x := fun i => by
  have hi : cmpf .olt (Host.absf x) bound i = 1#1 := Host.reduce_andi_all _ init h hu j e i
  have hi' : Ideal.cmp .olt (max (x i) (-(x i))) (bound i) = 1#1 := hi
  rw [hb, ofBits_pos_inf] at hi'
  exact isReal_of_abs_lt_top _ (lt_of_cmp_olt hi')

/-- `jnp.all(x >= 0)` that is 1, of a real-valued array, makes every entry a nonnegative real. -/
theorem allNonneg_of_all_ge {s : Shape} {axes : List (Fin s.rank)} (x zero : FVec Ideal s .f32) (hx : AllReal x)
    (hz : ∀ i, zero i = Ideal.ofBits .f32 0x00000000#32) (init : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi (cmpf .oge x zero) init h hu j = 1#1) : AllNonneg x := fun i => by
  have hi : cmpf .oge x zero i = 1#1 := Host.reduce_andi_all _ init h hu j e i
  have hi' : Ideal.cmp .oge (x i) (zero i) = 1#1 := hi
  rw [hz, ofBits_zero] at hi'
  obtain ⟨r, hr⟩ := hx i
  have h0 : (0 : EReal) ≤ x i := le_of_cmp_oge hi'
  rw [hr] at h0
  exact ⟨r, EReal.coe_nonneg.mp h0, hr⟩

open Cert.Pre_finite_inputs in
/-- THE PRECONDITION, read back: every float input is real-valued and the running variance is nonnegative. -/
theorem realArgs_of_pre (a0 : FVec Ideal Cert.Pre_finite_inputs.S100000x128 .f32) (a1 : IVec Cert.Pre_finite_inputs.S2x1600000 32) (a2 : FVec Ideal Cert.Pre_finite_inputs.S128x16 .f32)
    (a3 a4 a5 a6 a7 : FVec Ideal Cert.Pre_finite_inputs.S16 .f32) (a8 : FVec Ideal Cert.Pre_finite_inputs.S16x300 .f32) (a9 : FVec Ideal Cert.Pre_finite_inputs.S300 .f32)
    (h : Cert.Pre_finite_inputs.fn (F := Ideal) a0 a1 a2 a3 a4 a5 a6 a7 a8 a9 = fun _ => 1#1) :
    RealArgs a0 a2 a3 a4 a5 a6 a7 a8 a9 := by
  have h47 := congrFun h ix0
  dsimp only [Cert.Pre_finite_inputs.fn, Cert.Pre_finite_inputs.fn_part1, Cert.Pre_finite_inputs.fn_part2] at h47
  obtain ⟨h43, g9⟩ := IntOp.andi_eq_one.1 h47
  obtain ⟨h38, g8⟩ := IntOp.andi_eq_one.1 h43
  obtain ⟨h33, g7⟩ := IntOp.andi_eq_one.1 h38
  obtain ⟨h28, g6⟩ := IntOp.andi_eq_one.1 h33
  obtain ⟨h23, g5⟩ := IntOp.andi_eq_one.1 h28
  obtain ⟨h18, g4⟩ := IntOp.andi_eq_one.1 h23
  obtain ⟨h13, g3⟩ := IntOp.andi_eq_one.1 h18
  obtain ⟨h8, g2⟩ := IntOp.andi_eq_one.1 h13
  obtain ⟨g0, g1⟩ := IntOp.andi_eq_one.1 h8
  have r7 : AllReal a7 := allReal_of_all_abs_lt a7 _ (fun _ => rfl) _ _ _ _ g6
  exact ⟨allReal_of_all_abs_lt a0 _ (fun _ => rfl) _ _ _ _ g0, allReal_of_all_abs_lt a2 _ (fun _ => rfl) _ _ _ _ g1,
    allReal_of_all_abs_lt a3 _ (fun _ => rfl) _ _ _ _ g2, allReal_of_all_abs_lt a4 _ (fun _ => rfl) _ _ _ _ g3,
    allReal_of_all_abs_lt a5 _ (fun _ => rfl) _ _ _ _ g4, allReal_of_all_abs_lt a6 _ (fun _ => rfl) _ _ _ _ g5,
    allNonneg_of_all_ge a7 _ r7 (fun _ => rfl) _ _ _ _ g9,
    allReal_of_all_abs_lt a8 _ (fun _ => rfl) _ _ _ _ g7, allReal_of_all_abs_lt a9 _ (fun _ => rfl) _ _ _ _ g8⟩

end Cert.PreDecode

end
-- ==== Proof.lean ====
/-
  The certificate of a two-layer graph convolution with batch normalisation and a log-softmax head, kernel
  against reference, at the exact instance (floats are extended reals).

  THE TWO PROGRAMS. Both compute, over a graph given by an edge array, the degree `d = (in-degree) + 1`, the edge
  weight `rsqrt d [src] · rsqrt d [dst]` and the self-loop weight `1 / d`; a first layer
  `agg₁ + (x W₁) / d + b₁` with `agg₁` the scatter-add at the targets of the weighted rows of `x W₁` gathered at the
  sources, normalised as `(· − mean) · (rsqrt (var + ε) · scale) + shift` (the FIRST result, [100000, 16]); and a
  second layer `(agg₂ + h / d) W₂ + b₂` over those features, followed by a log-softmax over the 300 classes (the SECOND
  result). The kernel does the two matrix products, the normalisation and the log-softmax in three tiled kernels and
  leaves gathers and scatter-adds to the host; the reference is all host operations. Tiling, the change of format
  before a product and the order of a sum are nothing at the exact instance.

  WHERE THEY DIFFER. The kernel writes the log-softmax as `z − (M + log Σ exp (z − M))`, the reference as
  `(z − M) − log Σ exp (z − M)`, `M` the row maximum. These agree exactly when `M` is a real number. With the running
  variance equal to `−ε` the normalisation multiplies by `rsqrt 0 = +∞`, a logit can be `+∞`, and then the kernel's
  form is `+∞` where the reference's is `−∞`: the claim is false there. The precondition therefore carries, beside the
  finiteness of the float inputs, that the running variance is not negative — the domain on which the reference's
  own `rsqrt (var + ε)` is defined — and under it every stage up to the logits is real (ReferenceRealStages).

  THE PROOF. The three frames: the two kernels' from the generated frame certificates, the reference's from its run.
  `preserves`: the ideal pass rewrote nothing. `algebraic`: the kernel's run with its two result buffers named
  (KernelRun), the buffers walked back through the segment boundaries to the reference's stages of the arguments
  (KernelFold, KernelResults, over the three regions' output arrays: Region0Value, Region1Value, Region2Value);
  the reference's run read off its operation list in three chunks (ReferenceStages); both posts stated at the
  reference's two stages of the kernel's arguments.
-/
import proofs.«142930_j35184372088984_2_alg».proof.Defs
import proofs.«142930_j35184372088984_2_alg».proof.Proof.Gen.Kernel
import proofs.«142930_j35184372088984_2_alg».proof.Proof.Gen.Kernel.Skeleton
import proofs.«142930_j35184372088984_2_alg».proof.Proof.Gen.Kernel.Launch
import proofs.«142930_j35184372088984_2_alg».proof.Proof.Gen.Kernel.Points
import proofs.«142930_j35184372088984_2_alg».proof.Proof.Gen.Kernel.Frame
import proofs.«142930_j35184372088984_2_alg».proof.Proof.Gen.KernelIdeal
import proofs.«142930_j35184372088984_2_alg».proof.Proof.Gen.KernelIdeal.Skeleton
import proofs.«142930_j35184372088984_2_alg».proof.Proof.Gen.KernelIdeal.Launch
import proofs.«142930_j35184372088984_2_alg».proof.Proof.Gen.KernelIdeal.Points
import proofs.«142930_j35184372088984_2_alg».proof.Proof.Gen.KernelIdeal.Frame
import proofs.«142930_j35184372088984_2_alg».proof.Proof.Gen.ReferenceIdeal
import proofs.«142930_j35184372088984_2_alg».proof.Proof.Gen.Pre_finite_inputs
import proofs.«142930_j35184372088984_2_alg».proof.Proof.KernelRun
import proofs.«142930_j35184372088984_2_alg».proof.Proof.KernelResults
import proofs.«142930_j35184372088984_2_alg».proof.Proof.ReferenceStages
import proofs.«142930_j35184372088984_2_alg».proof.Proof.PreDecode
import Idealize.ShloMosaic.Adequacy
import Idealize.ShloMosaic.Init

set_option maxRecDepth 65536

noncomputable section

namespace Cert.Proof

open Idealize.ShloMosaic Idealize.SL.Sem
open Cert.ReferenceIdeal.ReadP

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Stages.run m ρ)

/-- The ideal pass rewrote no operation. -/
theorem preserves : Cert.preserves_Kernel_KernelIdeal := trivial

/-- From memories agreeing on the arguments both programs run, and both results end at the reference's two stages of
    the kernel's arguments. -/
theorem algebraic : Cert.algebraic_KernelIdeal_ReferenceIdeal := by
  intro m g m' g' hpre hagree
  refine ⟨fun c => val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans (Cert.KernelIdeal.Fold.result_hidden m g c),
      (h c).2.1.trans (Cert.KernelIdeal.Fold.result_logprob m g c (Cert.PreDecode.realArgs_of_pre _ _ _ _ _ _ _ _ _ _ (hpre c))), (h c).2.2⟩)
      (Cert.KernelIdeal.ValueRun.run_results m g)
  · refine (θ_run Cert.ReferenceIdeal.defs _ _).mono (fun r h c => ⟨?_, ?_, (h c).2.2⟩) (Cert.ReferenceIdeal.Stages.run m' g')
    · rw [(h c).1, (hagree c).1, (hagree c).2.1, (hagree c).2.2.1, (hagree c).2.2.2.1, (hagree c).2.2.2.2.1, (hagree c).2.2.2.2.2.1,
        (hagree c).2.2.2.2.2.2.1, (hagree c).2.2.2.2.2.2.2.1]
    · rw [(h c).2.1, (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
